-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S200 : Shape := ⟨1, ![200]⟩
abbrev S100000x128 : Shape := ⟨2, ![100000, 128]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000 : S_.BroadcastsInDim S100000 (![] : Fin 0 → Fin S100000.rank)
  reducesTo_S100000_S_d0 : S100000.ReducesTo [0] S_
  bcast_S_S200 : S_.BroadcastsInDim S200 (![] : Fin 0 → Fin S200.rank)
  reducesTo_S200_S_d0 : S200.ReducesTo [0] S_

variable [Facts]

def fn_part1 {F : FTy → Type} [FloatOps F] (main_arg0 : IVec S200 32) (main_v13 : IVec S_ 1) (main_v15 : IVec S200 1) (main_c_5 : IVec S_ 32) : IVec S_ 1 :=
  let main_v16 : IVec S200 32 := broadcastInDim S200 ![] bcast_S_S200 main_c_5
  let main_v17 : IVec S200 1 := cmpi .sle main_arg0 main_v16
  let main_v18 : IVec S200 1 := andi main_v15 main_v17
  let main_c_6 : IVec S_ 1 := constantI S_ 1 1#1
  let main_v19 : IVec S_ 1 := (fun x v => Host.reduce IntOp.andi x v reducesTo_S200_S_d0 h_S_) main_v18 main_c_6
  let main_v20 : IVec S_ 1 := andi main_v13 main_v19
  main_v20

def fn {F : FTy → Type} [FloatOps F] (main_arg0 : IVec S200 32) (main_arg1 : FVec F S100000x128 .f32) (main_arg2 : FVec F S100000x128 .f32) (main_arg3 : FVec F S100000 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000 .f32 := Host.absf main_arg3
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_c_4 : IVec S_ 32 := constantI S_ 32 0#32
  let main_v14 : IVec S200 32 := broadcastInDim S200 ![] bcast_S_S200 main_c_4
  let main_v15 : IVec S200 1 := cmpi .sge main_arg0 main_v14
  let main_c_5 : IVec S_ 32 := constantI S_ 32 99999#32
  fn_part1 (F := F) main_arg0 main_v13 main_v15 main_c_5
-- ==== Kernel.lean ====
abbrev S200 : Shape := ⟨1, ![200]⟩
abbrev S100000x128 : Shape := ⟨2, ![100000, 128]⟩
abbrev S100000 : Shape := ⟨1, ![100000]⟩
abbrev S1x128 : Shape := ⟨2, ![1, 128]⟩
abbrev S200x128 : Shape := ⟨2, ![200, 128]⟩
abbrev S128 : Shape := ⟨1, ![128]⟩
abbrev S_ : Shape := ⟨0, ![]⟩
abbrev S104x128 : Shape := ⟨2, ![104, 128]⟩
abbrev S104 : Shape := ⟨1, ![104]⟩
abbrev S96x128 : Shape := ⟨2, ![96, 128]⟩
abbrev S96 : Shape := ⟨1, ![96]⟩
abbrev S1x16 : Shape := ⟨2, ![1, 16]⟩
abbrev S16 : Shape := ⟨1, ![16]⟩
abbrev S1x100000 : Shape := ⟨2, ![1, 100000]⟩
abbrev S16384x128 : Shape := ⟨2, ![16384, 128]⟩
abbrev S16384 : Shape := ⟨1, ![16384]⟩
abbrev S1x16384 : Shape := ⟨2, ![1, 16384]⟩

abbrev nBuf : Table → Nat
  | .hbm => 6
  | .local .tc .vmem => 7
  | .local .scVector .vmem => 3
  | _ => 0

abbrev bufTy : (tb : Table) → Fin (nBuf tb) → BufTy
  | .hbm, ⟨0, _⟩ => ⟨S200, .i32⟩
  | .hbm, ⟨1, _⟩ => ⟨S100000x128, .f32⟩
  | .hbm, ⟨2, _⟩ => ⟨S100000x128, .f32⟩
  | .hbm, ⟨3, _⟩ => ⟨S100000, .f32⟩
  | .hbm, ⟨4, _⟩ => ⟨S1x128, .f32⟩
  | .hbm, ⟨5, _⟩ => ⟨S1x100000, .f32⟩
  | .local .tc .vmem, ⟨0, _⟩ => ⟨S1x128, .f32⟩
  | .local .tc .vmem, ⟨1, _⟩ => ⟨S16384x128, .f32⟩
  | .local .tc .vmem, ⟨2, _⟩ => ⟨S16384x128, .f32⟩
  | .local .tc .vmem, ⟨3, _⟩ => ⟨S16384, .f32⟩
  | .local .tc .vmem, ⟨4, _⟩ => ⟨S16384, .f32⟩
  | .local .tc .vmem, ⟨5, _⟩ => ⟨S1x16384, .f32⟩
  | .local .tc .vmem, ⟨6, _⟩ => ⟨S1x16384, .f32⟩
  | .local .scVector .vmem, ⟨0, _⟩ => ⟨S200, .i32⟩
  | .local .scVector .vmem, ⟨1, _⟩ => ⟨S200x128, .f32⟩
  | .local .scVector .vmem, ⟨2, _⟩ => ⟨S128, .f32⟩
  | _, _ => ⟨S200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_arg0_scv : Ref sig .scVector := ⟨.hbm, 0, rfl⟩
abbrev main_arg1_scv : Ref sig .scVector := ⟨.hbm, 1, rfl⟩
abbrev main_v0_scv : Ref sig .scVector := ⟨.hbm, 4, rfl⟩
abbrev cc1_stg0_0 : Ref sig .tc := ⟨.vmem, 0, rfl⟩
abbrev cc1_stg1_0 : Ref sig .tc := ⟨.vmem, 1, rfl⟩
abbrev cc1_stg1_1 : Ref sig .tc := ⟨.vmem, 2, rfl⟩
abbrev cc1_stg2_0 : Ref sig .tc := ⟨.vmem, 3, rfl⟩
abbrev cc1_stg2_1 : Ref sig .tc := ⟨.vmem, 4, rfl⟩
abbrev cc1_stg3_0 : Ref sig .tc := ⟨.vmem, 5, rfl⟩
abbrev cc1_stg3_1 : Ref sig .tc := ⟨.vmem, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 1], ![false, false]⟩

@[reducible] def k0_t1_loop : Scf.Loop 32 :=
  let c1_i32 : BitVec 32 := 1#32
  let c103_i32 : BitVec 32 := 103#32
  let v33 : BitVec 32 := Scalar.addi c1_i32 c103_i32
  let c1_i32_21 : BitVec 32 := 1#32
  ⟨c1_i32, v33, c1_i32_21⟩
def k0_off1 (k0_t1 : Fin k0_t1_loop.trips) : Fin 2 → Nat :=
  let c1_i32 : BitVec 32 := 1#32
  let c1_i32_21 : BitVec 32 := 1#32
  let arg10 : BitVec 32 := Scf.iv c1_i32 c1_i32_21 k0_t1
  let v64 : Index := Scalar.indexCast arg10
  let c0_40 : Index := 0#32
  ![v64.toNat, 0]
def k0_off2 (k0_t1 : Fin k0_t1_loop.trips) : Fin 2 → Nat :=
  let c1_i32 : BitVec 32 := 1#32
  let c1_i32_21 : BitVec 32 := 1#32
  let arg10 : BitVec 32 := Scf.iv c1_i32 c1_i32_21 k0_t1
  let v68 : Index := Scalar.indexCast arg10
  let c16_41 : Index := 16#32
  ![v68.toNat, 16]
def k0_off3 (k0_t1 : Fin k0_t1_loop.trips) : Fin 2 → Nat :=
  let c1_i32 : BitVec 32 := 1#32
  let c1_i32_21 : BitVec 32 := 1#32
  let arg10 : BitVec 32 := Scf.iv c1_i32 c1_i32_21 k0_t1
  let v72 : Index := Scalar.indexCast arg10
  let c32_42 : Index := 32#32
  ![v72.toNat, 32]
def k0_off4 (k0_t1 : Fin k0_t1_loop.trips) : Fin 2 → Nat :=
  let c1_i32 : BitVec 32 := 1#32
  let c1_i32_21 : BitVec 32 := 1#32
  let arg10 : BitVec 32 := Scf.iv c1_i32 c1_i32_21 k0_t1
  let v76 : Index := Scalar.indexCast arg10
  let c48_43 : Index := 48#32
  ![v76.toNat, 48]
def k0_off5 (k0_t1 : Fin k0_t1_loop.trips) : Fin 2 → Nat :=
  let c1_i32 : BitVec 32 := 1#32
  let c1_i32_21 : BitVec 32 := 1#32
  let arg10 : BitVec 32 := Scf.iv c1_i32 c1_i32_21 k0_t1
  let v80 : Index := Scalar.indexCast arg10
  let c64_44 : Index := 64#32
  ![v80.toNat, 64]
def k0_off6 (k0_t1 : Fin k0_t1_loop.trips) : Fin 2 → Nat :=
  let c1_i32 : BitVec 32 := 1#32
  let c1_i32_21 : BitVec 32 := 1#32
  let arg10 : BitVec 32 := Scf.iv c1_i32 c1_i32_21 k0_t1
  let v84 : Index := Scalar.indexCast arg10
  let c80_45 : Index := 80#32
  ![v84.toNat, 80]
def k0_off7 (k0_t1 : Fin k0_t1_loop.trips) : Fin 2 → Nat :=
  let c1_i32 : BitVec 32 := 1#32
  let c1_i32_21 : BitVec 32 := 1#32
  let arg10 : BitVec 32 := Scf.iv c1_i32 c1_i32_21 k0_t1
  let v88 : Index := Scalar.indexCast arg10
  let c96_46 : Index := 96#32
  ![v88.toNat, 96]
def k0_off8 (k0_t1 : Fin k0_t1_loop.trips) : Fin 2 → Nat :=
  let c1_i32 : BitVec 32 := 1#32
  let c1_i32_21 : BitVec 32 := 1#32
  let arg10 : BitVec 32 := Scf.iv c1_i32 c1_i32_21 k0_t1
  let v92 : Index := Scalar.indexCast arg10
  let c112_47 : Index := 112#32
  ![v92.toNat, 112]
@[reducible] def k0_t2_loop : Scf.Loop 32 :=
  let c104_i32_28 : BitVec 32 := 104#32
  let c96_i32 : BitVec 32 := 96#32
  let v38 : BitVec 32 := Scalar.addi c104_i32_28 c96_i32
  let c1_i32_29 : BitVec 32 := 1#32
  ⟨c104_i32_28, v38, c1_i32_29⟩
def k0_off9 (k0_t2 : Fin k0_t2_loop.trips) : Fin 2 → Nat :=
  let c104_i32_28 : BitVec 32 := 104#32
  let c1_i32_29 : BitVec 32 := 1#32
  let arg10 : BitVec 32 := Scf.iv c104_i32_28 c1_i32_29 k0_t2
  let v64 : Index := Scalar.indexCast arg10
  let c0_40 : Index := 0#32
  ![v64.toNat, 0]
def k0_off10 (k0_t2 : Fin k0_t2_loop.trips) : Fin 2 → Nat :=
  let c104_i32_28 : BitVec 32 := 104#32
  let c1_i32_29 : BitVec 32 := 1#32
  let arg10 : BitVec 32 := Scf.iv c104_i32_28 c1_i32_29 k0_t2
  let v68 : Index := Scalar.indexCast arg10
  let c16_41 : Index := 16#32
  ![v68.toNat, 16]
def k0_off11 (k0_t2 : Fin k0_t2_loop.trips) : Fin 2 → Nat :=
  let c104_i32_28 : BitVec 32 := 104#32
  let c1_i32_29 : BitVec 32 := 1#32
  let arg10 : BitVec 32 := Scf.iv c104_i32_28 c1_i32_29 k0_t2
  let v72 : Index := Scalar.indexCast arg10
  let c32_42 : Index := 32#32
  ![v72.toNat, 32]
def k0_off12 (k0_t2 : Fin k0_t2_loop.trips) : Fin 2 → Nat :=
  let c104_i32_28 : BitVec 32 := 104#32
  let c1_i32_29 : BitVec 32 := 1#32
  let arg10 : BitVec 32 := Scf.iv c104_i32_28 c1_i32_29 k0_t2
  let v76 : Index := Scalar.indexCast arg10
  let c48_43 : Index := 48#32
  ![v76.toNat, 48]
def k0_off13 (k0_t2 : Fin k0_t2_loop.trips) : Fin 2 → Nat :=
  let c104_i32_28 : BitVec 32 := 104#32
  let c1_i32_29 : BitVec 32 := 1#32
  let arg10 : BitVec 32 := Scf.iv c104_i32_28 c1_i32_29 k0_t2
  let v80 : Index := Scalar.indexCast arg10
  let c64_44 : Index := 64#32
  ![v80.toNat, 64]
def k0_off14 (k0_t2 : Fin k0_t2_loop.trips) : Fin 2 → Nat :=
  let c104_i32_28 : BitVec 32 := 104#32
  let c1_i32_29 : BitVec 32 := 1#32
  let arg10 : BitVec 32 := Scf.iv c104_i32_28 c1_i32_29 k0_t2
  let v84 : Index := Scalar.indexCast arg10
  let c80_45 : Index := 80#32
  ![v84.toNat, 80]
def k0_off15 (k0_t2 : Fin k0_t2_loop.trips) : Fin 2 → Nat :=
  let c104_i32_28 : BitVec 32 := 104#32
  let c1_i32_29 : BitVec 32 := 1#32
  let arg10 : BitVec 32 := Scf.iv c104_i32_28 c1_i32_29 k0_t2
  let v88 : Index := Scalar.indexCast arg10
  let c96_46 : Index := 96#32
  ![v88.toNat, 96]
def k0_off16 (k0_t2 : Fin k0_t2_loop.trips) : Fin 2 → Nat :=
  let c104_i32_28 : BitVec 32 := 104#32
  let c1_i32_29 : BitVec 32 := 1#32
  let arg10 : BitVec 32 := Scf.iv c104_i32_28 c1_i32_29 k0_t2
  let v92 : Index := Scalar.indexCast arg10
  let c112_47 : Index := 112#32
  ![v92.toNat, 112]
abbrev grid1 : Pipeline.Grid := ⟨1, ![7], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S16384x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x16384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 1 | ⟨_ + 1, h⟩ => absurd h (Nat.not_lt.2 (Nat.le_add_left _ _))

class Facts₀ : Prop where
  inb_S200x128_S104x128_0_0 : ∀ a, (![0, 0] : Fin 2 → Nat) a + S104x128.size a ≤ S200x128.size a
  inb_S200_S104_0 : ∀ a, (![0] : Fin 1 → Nat) a + S104.size a ≤ S200.size a
  inb_S100000x128_S100000x128_0_0 : ∀ a, (![0, 0] : Fin 2 → Nat) a + S100000x128.size a ≤ S100000x128.size a
  gathers_S100000x128_S104x128 : S100000x128.Gathers 0 S104x128
  inb_S200x128_S96x128_104_0 : ∀ a, (![104, 0] : Fin 2 → Nat) a + S96x128.size a ≤ S200x128.size a
  inb_S200_S96_104 : ∀ a, (![104] : Fin 1 → Nat) a + S96.size a ≤ S200.size a
  gathers_S100000x128_S96x128 : S100000x128.Gathers 0 S96x128
  inb_S200x128_S1x16_0_0 : ∀ a, (![0, 0] : Fin 2 → Nat) a + S1x16.size a ≤ S200x128.size a
  h_S1x16 : 0 < S1x16.numel
  shapeCasts_S1x16_S16 : S1x16.ShapeCasts S16
  inb_S200x128_S1x16_0_16 : ∀ a, (![0, 16] : Fin 2 → Nat) a + S1x16.size a ≤ S200x128.size a
  inb_S200x128_S1x16_0_32 : ∀ a, (![0, 32] : Fin 2 → Nat) a + S1x16.size a ≤ S200x128.size a
  inb_S200x128_S1x16_0_48 : ∀ a, (![0, 48] : Fin 2 → Nat) a + S1x16.size a ≤ S200x128.size a
  inb_S200x128_S1x16_0_64 : ∀ a, (![0, 64] : Fin 2 → Nat) a + S1x16.size a ≤ S200x128.size a
  inb_S200x128_S1x16_0_80 : ∀ a, (![0, 80] : Fin 2 → Nat) a + S1x16.size a ≤ S200x128.size a
  inb_S200x128_S1x16_0_96 : ∀ a, (![0, 96] : Fin 2 → Nat) a + S1x16.size a ≤ S200x128.size a
  inb_S200x128_S1x16_0_112 : ∀ a, (![0, 112] : Fin 2 → Nat) a + S1x16.size a ≤ S200x128.size a
  inb_S128_S16_0 : ∀ a, (![0] : Fin 1 → Nat) a + S16.size a ≤ S128.size a
  h_S16 : 0 < S16.numel
  shapeCasts_S16_S16 : S16.ShapeCasts S16
  inb_S128_S16_16 : ∀ a, (![16] : Fin 1 → Nat) a + S16.size a ≤ S128.size a
  inb_S128_S16_32 : ∀ a, (![32] : Fin 1 → Nat) a + S16.size a ≤ S128.size a
  inb_S128_S16_48 : ∀ a, (![48] : Fin 1 → Nat) a + S16.size a ≤ S128.size a
  inb_S128_S16_64 : ∀ a, (![64] : Fin 1 → Nat) a + S16.size a ≤ S128.size a
  inb_S128_S16_80 : ∀ a, (![80] : Fin 1 → Nat) a + S16.size a ≤ S128.size a
  inb_S128_S16_96 : ∀ a, (![96] : Fin 1 → Nat) a + S16.size a ≤ S128.size a
  inb_S128_S16_112 : ∀ a, (![112] : Fin 1 → Nat) a + S16.size a ≤ S128.size a
  inb_S1x128_S1x128_0_0 : ∀ a, (![0, 0] : Fin 2 → Nat) a + S1x128.size a ≤ S1x128.size a
  squeezes_S1x128_S128 : S1x128.Squeezes S128
  h_S1x128 : 0 < S1x128.numel
  shapeCasts_S1x128_S1x128 : S1x128.ShapeCasts S1x128
  inb_S16384x128_S16384x128_0_0 : ∀ a, (![0, 0] : Fin 2 → Nat) a + S16384x128.size a ≤ S16384x128.size a
  h_S16384x128 : 0 < S16384x128.numel
  inb_S16384_S16384_0 : ∀ a, (![0] : Fin 1 → Nat) a + S16384.size a ≤ S16384.size a
  h_S16384 : 0 < S16384.numel
  shapeCasts_S16384_S1x16384 : S16384.ShapeCasts S1x16384
  inb_S1x16384_S1x16384_0_0 : ∀ a, (![0, 0] : Fin 2 → Nat) a + S1x16384.size a ≤ S1x16384.size a
  h_S1x16384 : 0 < S1x16384.numel
  dot_S1x128_S16384x128_S1x16384_1_1_0_0_n_n_wf : DotDims.WF S1x128 S16384x128 S1x16384 [1] [1] [0] [0] [] []
  hcc0_scratch3 : 0 + S_.numel ≤ 11
  hcc0_scratch4 : 1 + S_.numel ≤ 11
  hcc0_scoped0 : 2 + S_.numel ≤ 11
  hcc0_scoped1 : 3 + S_.numel ≤ 11
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ k0_t1 : Fin k0_t1_loop.trips, ∀ a, (k0_off1 k0_t1) a + S1x16.size a ≤ S200x128.size a
  k0_off2_inb : ∀ k0_t1 : Fin k0_t1_loop.trips, ∀ a, (k0_off2 k0_t1) a + S1x16.size a ≤ S200x128.size a
  k0_off3_inb : ∀ k0_t1 : Fin k0_t1_loop.trips, ∀ a, (k0_off3 k0_t1) a + S1x16.size a ≤ S200x128.size a
  k0_off4_inb : ∀ k0_t1 : Fin k0_t1_loop.trips, ∀ a, (k0_off4 k0_t1) a + S1x16.size a ≤ S200x128.size a
  k0_off5_inb : ∀ k0_t1 : Fin k0_t1_loop.trips, ∀ a, (k0_off5 k0_t1) a + S1x16.size a ≤ S200x128.size a
  k0_off6_inb : ∀ k0_t1 : Fin k0_t1_loop.trips, ∀ a, (k0_off6 k0_t1) a + S1x16.size a ≤ S200x128.size a
  k0_off7_inb : ∀ k0_t1 : Fin k0_t1_loop.trips, ∀ a, (k0_off7 k0_t1) a + S1x16.size a ≤ S200x128.size a
  k0_off8_inb : ∀ k0_t1 : Fin k0_t1_loop.trips, ∀ a, (k0_off8 k0_t1) a + S1x16.size a ≤ S200x128.size a
  k0_t2_ok : k0_t2_loop.OK
  k0_off9_inb : ∀ k0_t2 : Fin k0_t2_loop.trips, ∀ a, (k0_off9 k0_t2) a + S1x16.size a ≤ S200x128.size a
  k0_off10_inb : ∀ k0_t2 : Fin k0_t2_loop.trips, ∀ a, (k0_off10 k0_t2) a + S1x16.size a ≤ S200x128.size a
  k0_off11_inb : ∀ k0_t2 : Fin k0_t2_loop.trips, ∀ a, (k0_off11 k0_t2) a + S1x16.size a ≤ S200x128.size a
  k0_off12_inb : ∀ k0_t2 : Fin k0_t2_loop.trips, ∀ a, (k0_off12 k0_t2) a + S1x16.size a ≤ S200x128.size a
  k0_off13_inb : ∀ k0_t2 : Fin k0_t2_loop.trips, ∀ a, (k0_off13 k0_t2) a + S1x16.size a ≤ S200x128.size a
  k0_off14_inb : ∀ k0_t2 : Fin k0_t2_loop.trips, ∀ a, (k0_off14 k0_t2) a + S1x16.size a ≤ S200x128.size a
  k0_off15_inb : ∀ k0_t2 : Fin k0_t2_loop.trips, ∀ a, (k0_off15 k0_t2) a + S1x16.size a ≤ S200x128.size a
  k0_off16_inb : ∀ k0_t2 : Fin k0_t2_loop.trips, ∀ a, (k0_off16 k0_t2) a + S1x16.size a ≤ S200x128.size a
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x128.size a ≤ S1x128.size a
  hwx1_0 : ∀ i : grid1.Coords, EltTy.bits .f32 = 32 ∨ (Rect.block (s := S1x128) S1x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S16384x128.size a < S100000x128.size a
  hwx1_1 : ∀ i : grid1.Coords, EltTy.bits .f32 = 32 ∨ (Rect.unit (s := S100000x128) (fun a => cc1_transform_1 i a * S16384x128.size a) (fun a => (Pipeline.Clip.of (cc1_transform_1 i a) (S16384x128.size a) (S100000x128.size a)).extent (S16384x128.size a)) fun a => Pipeline.Clip.inb (Pipeline.Clip.ok_of (hstart1_1 i a))).WholeWords (EltTy.packing .f32)
  hwxs1_1 : ∀ i : grid1.Coords, EltTy.bits .f32 = 32 ∨ (Rect.unit (s := S16384x128) (fun _ => 0) (fun a => (Pipeline.Clip.of (cc1_transform_1 i a) (S16384x128.size a) (S100000x128.size a)).extent (S16384x128.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S16384.size a < S100000.size a
  hwx1_2 : ∀ i : grid1.Coords, EltTy.bits .f32 = 32 ∨ (Rect.unit (s := S100000) (fun a => cc1_transform_2 i a * S16384.size a) (fun a => (Pipeline.Clip.of (cc1_transform_2 i a) (S16384.size a) (S100000.size a)).extent (S16384.size a)) fun a => Pipeline.Clip.inb (Pipeline.Clip.ok_of (hstart1_2 i a))).WholeWords (EltTy.packing .f32)
  hwxs1_2 : ∀ i : grid1.Coords, EltTy.bits .f32 = 32 ∨ (Rect.unit (s := S16384) (fun _ => 0) (fun a => (Pipeline.Clip.of (cc1_transform_2 i a) (S16384.size a) (S100000.size a)).extent (S16384.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S1x16384.size a < S1x100000.size a
  hwx1_3 : ∀ i : grid1.Coords, EltTy.bits .f32 = 32 ∨ (Rect.unit (s := S1x100000) (fun a => cc1_transform_3 i a * S1x16384.size a) (fun a => (Pipeline.Clip.of (cc1_transform_3 i a) (S1x16384.size a) (S1x100000.size a)).extent (S1x16384.size a)) fun a => Pipeline.Clip.inb (Pipeline.Clip.ok_of (hstart1_3 i a))).WholeWords (EltTy.packing .f32)
  hwxs1_3 : ∀ i : grid1.Coords, EltTy.bits .f32 = 32 ∨ (Rect.unit (s := S1x16384) (fun _ => 0) (fun a => (Pipeline.Clip.of (cc1_transform_3 i a) (S1x16384.size a) (S1x100000.size a)).extent (S1x16384.size a)) fun a => (Nat.zero_add _).trans_le (Pipeline.Clip.extent_le (Pipeline.Clip.ok_of (hstart1_3 i a)))).WholeWords (EltTy.packing .f32)

variable [Facts₀]

abbrev cc0_scratch3 : DmaSems sig S_ := SemArray.consecutive 0 S_ hcc0_scratch3
abbrev cc0_scratch4 : DmaSems sig S_ := SemArray.consecutive 1 S_ hcc0_scratch4
abbrev cc0_scoped0 : DmaSems sig S_ := SemArray.consecutive 2 S_ hcc0_scoped0
abbrev cc0_scoped1 : DmaSems sig S_ := SemArray.consecutive 3 S_ hcc0_scoped1
def dot_S1x128_S16384x128_S1x16384_1_1_0_0_n_n : DotDims S1x128 S16384x128 S1x16384 where
  lhsContracting := [1]
  rhsContracting := [1]
  lhsNonContracting := [0]
  rhsNonContracting := [0]
  lhsBatch := []
  rhsBatch := []
  wf := dot_S1x128_S16384x128_S1x16384_1_1_0_0_n_n_wf

abbrev win1_0 : Pipeline.Window sig grid1 :=
  Pipeline.Window.ofSpec (Memref.whole main_v0) S1x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_arg2) S16384x128.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_arg3) S16384.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v1) S1x16384.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S200 : Shape := ⟨1, ![200]⟩
abbrev S100000x128 : Shape := ⟨2, ![100000, 128]⟩
abbrev S100000 : Shape := ⟨1, ![100000]⟩
abbrev S_ : Shape := ⟨0, ![]⟩
abbrev S200x1 : Shape := ⟨2, ![200, 1]⟩
abbrev S1 : Shape := ⟨1, ![1]⟩
abbrev S1x1 : Shape := ⟨2, ![1, 1]⟩
abbrev S200x128 : Shape := ⟨2, ![200, 128]⟩
abbrev S128 : Shape := ⟨1, ![128]⟩
abbrev S1x128 : Shape := ⟨2, ![1, 128]⟩
abbrev S128x100000 : Shape := ⟨2, ![128, 100000]⟩
abbrev S1x100000 : Shape := ⟨2, ![1, 100000]⟩

abbrev nBuf : Space → Nat
  | .hbm => 34
  | .vmem => 0
  | .smem => 0
  | _ => 0

abbrev bufTy : (tb : Table) → Fin (tcTables nBuf tb) → BufTy
  | .hbm, ⟨0, _⟩ => ⟨S200, .i32⟩
  | .hbm, ⟨1, _⟩ => ⟨S100000x128, .f32⟩
  | .hbm, ⟨2, _⟩ => ⟨S100000x128, .f32⟩
  | .hbm, ⟨3, _⟩ => ⟨S100000, .f32⟩
  | .hbm, ⟨4, _⟩ => ⟨S_, .i32⟩
  | .hbm, ⟨5, _⟩ => ⟨S200, .i32⟩
  | .hbm, ⟨6, _⟩ => ⟨S200, .i1⟩
  | .hbm, ⟨7, _⟩ => ⟨S_, .i32⟩
  | .hbm, ⟨8, _⟩ => ⟨S200, .i32⟩
  | .hbm, ⟨9, _⟩ => ⟨S200, .i32⟩
  | .hbm, ⟨10, _⟩ => ⟨S200, .i32⟩
  | .hbm, ⟨11, _⟩ => ⟨S200x1, .i32⟩
  | .hbm, ⟨12, _⟩ => ⟨S1, .i32⟩
  | .hbm, ⟨13, _⟩ => ⟨S_, .i32⟩
  | .hbm, ⟨14, _⟩ => ⟨S200x1, .i32⟩
  | .hbm, ⟨15, _⟩ => ⟨S200x1, .i1⟩
  | .hbm, ⟨16, _⟩ => ⟨S1x1, .i32⟩
  | .hbm, ⟨17, _⟩ => ⟨S200x1, .i32⟩
  | .hbm, ⟨18, _⟩ => ⟨S200x1, .i1⟩
  | .hbm, ⟨19, _⟩ => ⟨S200x1, .i1⟩
  | .hbm, ⟨20, _⟩ => ⟨S_, .i1⟩
  | .hbm, ⟨21, _⟩ => ⟨S200, .i1⟩
  | .hbm, ⟨22, _⟩ => ⟨S200x128, .f32⟩
  | .hbm, ⟨23, _⟩ => ⟨S200x128, .i1⟩
  | .hbm, ⟨24, _⟩ => ⟨S_, .f32⟩
  | .hbm, ⟨25, _⟩ => ⟨S200x128, .f32⟩
  | .hbm, ⟨26, _⟩ => ⟨S200x128, .f32⟩
  | .hbm, ⟨27, _⟩ => ⟨S_, .f32⟩
  | .hbm, ⟨28, _⟩ => ⟨S128, .f32⟩
  | .hbm, ⟨29, _⟩ => ⟨S1x128, .f32⟩
  | .hbm, ⟨30, _⟩ => ⟨S128x100000, .f32⟩
  | .hbm, ⟨31, _⟩ => ⟨S1x100000, .f32⟩
  | .hbm, ⟨32, _⟩ => ⟨S1x100000, .f32⟩
  | .hbm, ⟨33, _⟩ => ⟨S1x100000, .f32⟩
  | _, _ => ⟨S200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩

abbrev nD : Nat := 1
abbrev τ : Topo := Topo.v7x

variable {F : FTy → Type} [FloatOps F]

class Facts₀ : Prop where
  bcast_S_S200 : S_.BroadcastsInDim S200 (![] : Fin 0 → Fin S200.rank)
  bcast_S200_S200x1_0 : S200.BroadcastsInDim S200x1 (![0] : Fin 1 → Fin S200x1.rank)
  bcast_S_S200x1 : S_.BroadcastsInDim S200x1 (![] : Fin 0 → Fin S200x1.rank)
  bcast_S1_S1x1_1 : S1.BroadcastsInDim S1x1 (![1] : Fin 1 → Fin S1x1.rank)
  bcast_S1x1_S200x1_0_1 : S1x1.BroadcastsInDim S200x1 (![0, 1] : Fin 2 → Fin S200x1.rank)
  reducesTo_S200x1_S200_d1 : S200x1.ReducesTo [1] S200
  h_S_ : 0 < S_.numel
  bcast_S200_S200x128_0 : S200.BroadcastsInDim S200x128 (![0] : Fin 1 → Fin S200x128.rank)
  bcast_S_S200x128 : S_.BroadcastsInDim S200x128 (![] : Fin 0 → Fin S200x128.rank)
  reducesTo_S200x128_S128_d0 : S200x128.ReducesTo [0] S128
  shapeCasts_S128_S1x128 : S128.ShapeCasts S1x128
  transposes_S100000x128_S128x100000_1_0 : S100000x128.Transposes [1, 0] S128x100000
  bcast_S100000_S1x100000_1 : S100000.BroadcastsInDim S1x100000 (![1] : Fin 1 → Fin S1x100000.rank)
  gather_S100000x128_S200x1_S200x128_1_0_n_n_0_1_1128_wf : GatherDims.WF S100000x128 S200x1 S200x128 [1] [0] [] [0] [] 1 ![1, 128]
  dot_S1x128_S128x100000_S1x100000_1_0_0_1_n_n_wf : DotDims.WF S1x128 S128x100000 S1x100000 [1] [0] [0] [1] [] []

variable [Facts₀]

def gather_S100000x128_S200x1_S200x128_1_0_n_n_0_1_1128 : GatherDims S100000x128 S200x1 S200x128 where
  offsetDims := [1]
  collapsedSliceDims := [0]
  operandBatchingDims := []
  startIndicesBatchingDims := []
  startIndexMap := [0]
  indexVectorDim := 1
  sliceSizes := ![1, 128]
  wf := gather_S100000x128_S200x1_S200x128_1_0_n_n_0_1_1128_wf
def dot_S1x128_S128x100000_S1x100000_1_0_0_1_n_n : DotDims S1x128 S128x100000 S1x100000 where
  lhsContracting := [1]
  rhsContracting := [0]
  lhsNonContracting := [0]
  rhsNonContracting := [1]
  lhsBatch := []
  rhsBatch := []
  wf := dot_S1x128_S128x100000_S1x100000_1_0_0_1_n_n_wf

class Facts : Prop extends Facts₀ where

variable [Facts]
-- ==== Proof.Spec.lean ====
/-
  What both programs compute, as one function of the four argument arrays.

  An index word `w` of `inputs` names the table row `w mod 100000` (for a word in range, the row it spells).
  `sumRows` is the embedding rows the 200 index words name, added up entry by entry: a 1 × 128 row.
  `G` is that row multiplied into the weight matrix, row by row of the weights, plus the bias: a 1 × 100000 row
  whose entry `v` is  Σ_k (Σ_j emb[idx_j, k]) · W[v, k] + b[v]  on the extended reals.
-/
import Idealize.ShloMosaic.PureOps.Ideal
import Idealize.ShloMosaic.Lib.ValueIdx

noncomputable section

namespace Cert.Spec

open Idealize.ShloMosaic Idealize.ShloMosaic.ValueIdx

abbrev S200 : Shape := ⟨1, ![200]⟩
abbrev S100000x128 : Shape := ⟨2, ![100000, 128]⟩
abbrev S100000 : Shape := ⟨1, ![100000]⟩
abbrev S1x128 : Shape := ⟨2, ![1, 128]⟩
abbrev S1x100000 : Shape := ⟨2, ![1, 100000]⟩

/-- The table row an index word names. -/
def rowOf (w : BitVec 32) : Fin 100000 := ⟨w.toNat % 100000, Nat.mod_lt _ (by decide)⟩

theorem rowOf_val_of_lt {w : BitVec 32} (h : w.toNat < 100000) : (rowOf w).val = w.toNat := Nat.mod_eq_of_lt h

/-- The sum of the 200 named rows, entry by entry. -/
def sumRows (idx : S200.Idx → BitVec 32) (emb : S100000x128.Idx → EReal) : S1x128.Idx → EReal :=
  fun i => ∑ j : Fin 200, emb (ix2 (rowOf (idx (ix1 j))) (i 1))

/-- A 1 × 128 row times the transposed weights plus the bias. -/
def matVec (p : S1x128.Idx → EReal) (W : S100000x128.Idx → EReal) (b : S100000.Idx → EReal) : S1x100000.Idx → EReal :=
  fun i => (∑ k : Fin 128, p (ix2 (0 : Fin 1) k) * W (ix2 (i 1) k)) + b (ix1 (i 1))

/-- The whole computation. -/
def G (idx : S200.Idx → BitVec 32) (emb W : S100000x128.Idx → EReal) (b : S100000.Idx → EReal) : S1x100000.Idx → EReal :=
  matVec (sumRows idx emb) W b

end Cert.Spec

end
-- ==== Proof.Common.lean ====
/-
  The setting shared by the modules about the idealized kernel program: the program as the SparseCore launch theorem
  reads it (one call, on one vector subcore of one SparseCore, then one TensorCore pipeline), the resource algebra
  (the handshakes' rounds, the pipeline's staging cells' rounds, the transfers' counters), the six arrays of @main,
  and what is asked of the launch memory: every index word names a row of the table.
-/
import proofs.«204126_g14654428414512_cont_week2b_26_29_alg».proof.Defs
import proofs.«204126_g14654428414512_cont_week2b_26_29_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«204126_g14654428414512_cont_week2b_26_29_alg».proof.Proof.Gen.KernelIdeal
import proofs.«204126_g14654428414512_cont_week2b_26_29_alg».proof.Proof.Gen.KernelIdeal.Skeleton
import proofs.«204126_g14654428414512_cont_week2b_26_29_alg».proof.Proof.Gen.KernelIdeal.Launch
import proofs.«204126_g14654428414512_cont_week2b_26_29_alg».proof.Proof.Gen.KernelIdeal.Points
import proofs.«204126_g14654428414512_cont_week2b_26_29_alg».proof.Proof.Gen.Pre_input_domain

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 1 := rfl
theorem nCore_zero : (K (F := F)).nCore 0 = 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## The arrays -/

abbrev iLoc (d : Dev nD) : Loc nD τ sig := (SparseCore.T d).loc main_arg0
abbrev eLoc (d : Dev nD) : Loc nD τ sig := (SparseCore.T d).loc main_arg1
abbrev wLoc (d : Dev nD) : Loc nD τ sig := (SparseCore.T d).loc main_arg2
abbrev bLoc (d : Dev nD) : Loc nD τ sig := (SparseCore.T d).loc main_arg3
abbrev pLoc (d : Dev nD) : Loc nD τ sig := (SparseCore.T d).loc main_v0
abbrev oLoc (d : Dev nD) : Loc nD τ sig := (SparseCore.T d).loc main_v1

/-- Every index word of the launch memory names a row of the table. -/
def PreOK (m : (ℓ : Loc nD τ sig) → Buf (Elt F) ℓ) : Prop := ∀ (d : Dev nD) (j : S200.Idx), (m (iLoc d) j).toNat < 100000

end Cert.KI

end
-- ==== Proof.ScBody.lean ====
/-
  The SparseCore kernel's body on its one vector subcore: the index fetch, the two indirect gathers of the table's rows
  into the row scratch, the two counted loops that add the 200 rows up in eight 16-lane accumulators, the stores of the
  accumulators into the 128-word scratch and its copy into row 0 of the result. The result is NAMED: entry (0, k) is
  the left-nested sum of the entries k of the rows the 200 index words name, in the order the kernel adds them.
-/
import proofs.«204126_g14654428414512_cont_week2b_26_29_alg».proof.Proof.Common
import Idealize.ShloMosaic.Lib.ValueLayout
import Idealize.ShloMosaic.Lib.WritesUnit

noncomputable section

namespace Cert.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The value -/

section Value
variable [FloatOps F]

/-- Entry `k` of the table row the `n`-th index word names (the word's position read modulo 200, so that the function is total). -/
def rowAt (idx : Cert.Spec.S200.Idx → Elt F .i32) (emb : Cert.Spec.S100000x128.Idx → Elt F .f32) (k : Fin 128) (n : ℕ) : Elt F .f32 :=
  emb (ix2 (Cert.Spec.rowOf (idx (ix1 (⟨n % 200, Nat.mod_lt _ (by decide)⟩ : Fin 200)))) k)

/-- Column `k` after the rows `0 … n` have been added, in the kernel's order: row 0, plus row 1, … plus row `n`. -/
def accF (idx : Cert.Spec.S200.Idx → Elt F .i32) (emb : Cert.Spec.S100000x128.Idx → Elt F .f32) (k : Fin 128) : ℕ → Elt F .f32
  | 0 => rowAt idx emb k 0
  | n + 1 => FloatOps.addf (φ := .f32) (accF idx emb k n) (rowAt idx emb k (n + 1))

/-- What the kernel leaves in its result: entry `(0, k)` is row `idx 0`'s entry `k`, plus row `idx 1`'s, … plus row
    `idx 199`'s, added left to right; the row a word `w` names is `Cert.Spec.rowOf w`. -/
def scOut (idx : Cert.Spec.S200.Idx → Elt F .i32) (emb : Cert.Spec.S100000x128.Idx → Elt F .f32) : Cert.Spec.S1x128.Idx → Elt F .f32 :=
  fun i => accF idx emb (i 1) 199

end Value

/-- Below 200 the position is read as it stands. -/
theorem rowAt_of_lt (idx : Cert.Spec.S200.Idx → Elt F .i32) (emb : Cert.Spec.S100000x128.Idx → Elt F .f32) (k : Fin 128) (j : Fin 200) :
    rowAt idx emb k j.val = emb (ix2 (Cert.Spec.rowOf (idx (ix1 j))) k) := by
  unfold rowAt
  have : (⟨j.val % 200, Nat.mod_lt _ (by decide)⟩ : Fin 200) = j := Fin.ext (Nat.mod_eq_of_lt j.isLt)
  rw [this]

/-- On the extended reals the left-nested sum of rows `0 … n` is the sum over the first `n + 1` positions. -/
theorem accF_ideal_sum (idx : Cert.Spec.S200.Idx → Elt Ideal .i32) (emb : Cert.Spec.S100000x128.Idx → Elt Ideal .f32) (k : Fin 128) :
    ∀ n : ℕ, accF (F := Ideal) idx emb k n = ∑ j ∈ Finset.range (n + 1), (rowAt idx emb k j : EReal)
  | 0 => by simp [accF]
  | n + 1 => by
    rw [Finset.sum_range_succ, ← accF_ideal_sum idx emb k n]
    rfl

/-- On the extended reals the left-nested sum of the 200 entries is their sum over the 200 positions. -/
theorem scOut_ideal (idx : Cert.Spec.S200.Idx → Elt Ideal .i32) (emb : Cert.Spec.S100000x128.Idx → Elt Ideal .f32) :
    scOut (F := Ideal) idx emb = Cert.Spec.sumRows idx emb := by
  funext i
  refine (accF_ideal_sum idx emb (i 1) 199).trans ?_
  refine (Fin.sum_univ_eq_sum_range (fun j => (rowAt idx emb (i 1) j : EReal)) 200).symm.trans ?_
  exact Finset.sum_congr rfl fun j _ => rowAt_of_lt idx emb (i 1) j

/-! ## What the body holds and gives back -/

section Stmt
variable [FloatOps F] (m : (ℓ : Loc nD τ sig) → Buf (Elt F) ℓ)

abbrev iPts (d : Dev nD) : sProp 𝕄 := iLoc d ↦{fullShare} m (iLoc d)
abbrev ePts (d : Dev nD) : sProp 𝕄 := eLoc d ↦{fullShare} m (eLoc d)
abbrev pPts (d : Dev nD) (f : Buf (Elt F) (pLoc d)) : sProp 𝕄 := pLoc d ↦{fullShare} f
abbrev cV (L : grid0.Coords) : Fin τ.nSC := (L 0).castLE hcore0
abbrev jV (L : grid0.Coords) : Fin τ.nSub := (L 1).castLE hsub0

end Stmt

/-! ## The body -/

local notation "iV" => (Memref.whole Cert.KernelIdeal.main_arg0_scv : Memref Cert.KernelIdeal.sig Kind.scVector Space.hbm Cert.KernelIdeal.S200 EltTy.i32)
local notation "eV" => (Memref.whole Cert.KernelIdeal.main_arg1_scv : Memref Cert.KernelIdeal.sig Kind.scVector Space.hbm Cert.KernelIdeal.S100000x128 EltTy.f32)
local notation "pV" => (Memref.whole Cert.KernelIdeal.main_v0_scv : Memref Cert.KernelIdeal.sig Kind.scVector Space.hbm Cert.KernelIdeal.S1x128 EltTy.f32)
local notation "sV" => (Memref.whole Cert.KernelIdeal.cc0_scratch0 : Memref Cert.KernelIdeal.sig Kind.scVector Space.vmem Cert.KernelIdeal.S200 EltTy.i32)
local notation "rV" => (Memref.whole Cert.KernelIdeal.cc0_scratch1 : Memref Cert.KernelIdeal.sig Kind.scVector Space.vmem Cert.KernelIdeal.S200x128 EltTy.f32)
local notation "aV" => (Memref.whole Cert.KernelIdeal.cc0_scratch2 : Memref Cert.KernelIdeal.sig Kind.scVector Space.vmem Cert.KernelIdeal.S128 EltTy.f32)

section Tile
variable (d : Dev nD) (L : grid0.Coords)

abbrev cell3 (d : Dev nD) (c : Fin τ.nSC) (i : Fin τ.nSub) : GSem nD τ sig := (V d c i, .dma cc0_scratch3.sem)
abbrev cell4 (d : Dev nD) (c : Fin τ.nSC) (i : Fin τ.nSub) : GSem nD τ sig := (V d c i, .dma cc0_scratch4.sem)
abbrev cellA (d : Dev nD) (c : Fin τ.nSC) (i : Fin τ.nSub) : GSem nD τ sig := (V d c i, .dma cc0_scoped0.sem)
abbrev cellB (d : Dev nD) (c : Fin τ.nSC) (i : Fin τ.nSub) : GSem nD τ sig := (V d c i, .dma cc0_scoped1.sem)

theorem ownSems0_V :
    (ownSems0 (V d (cV L) (jV L)) : sProp 𝕄)
      = iprop(semVal (cell3 d (cV L) (jV L)) 0 ∗ semVal (cell4 d (cV L) (jV L)) 0 ∗ semVal (cellA d (cV L) (jV L)) 0 ∗ semVal (cellB d (cV L) (jV L)) 0
          ∗ bigSep (((((ownCells (V d (cV L) (jV L))).erase (cell3 d (cV L) (jV L))).erase (cell4 d (cV L) (jV L))).erase (cellA d (cV L) (jV L))).erase (cellB d (cV L) (jV L))) fun g => semVal g 0) := by
  unfold SparseCore.Cfg.ownSems0
  rw [SparseCore.bigSep_erase' ((mem_ownCells (g := cell3 d (cV L) (jV L))).mpr ⟨rfl, by
      show (SemLoc.dma cc0_scratch3.sem : SemLoc sig).isScoped .scVector = true; decide⟩),
    SparseCore.bigSep_erase' (Finset.mem_erase.mpr ⟨by simp [cell3, cell4]; decide, (mem_ownCells (g := cell4 d (cV L) (jV L))).mpr ⟨rfl, by
      show (SemLoc.dma cc0_scratch4.sem : SemLoc sig).isScoped .scVector = true; decide⟩⟩),
    SparseCore.bigSep_erase' (Finset.mem_erase.mpr ⟨by simp [cell4, cellA]; decide, Finset.mem_erase.mpr ⟨by simp [cell3, cellA]; decide,
      (mem_ownCells (g := cellA d (cV L) (jV L))).mpr ⟨rfl, by show (SemLoc.dma cc0_scoped0.sem : SemLoc sig).isScoped .scVector = true; decide⟩⟩⟩),
    SparseCore.bigSep_erase' (Finset.mem_erase.mpr ⟨by simp [cellA, cellB]; decide, Finset.mem_erase.mpr ⟨by simp [cell4, cellB]; decide, Finset.mem_erase.mpr ⟨by simp [cell3, cellB]; decide,
      (mem_ownCells (g := cellB d (cV L) (jV L))).mpr ⟨rfl, by show (SemLoc.dma cc0_scoped1.sem : SemLoc sig).isScoped .scVector = true; decide⟩⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ### The pieces of the two scratch arrays the gathers use -/

abbrev r0 : Rect S200x128 := Rect.unit (s := S200x128) ![0, 0] S104x128.size inb_S200x128_S104x128_0_0
abbrev r1 : Rect S200x128 := Rect.unit (s := S200x128) ![104, 0] S96x128.size inb_S200x128_S96x128_104_0
abbrev i0 : Rect S200 := Rect.unit (s := S200) ![0] S104.size inb_S200_S104_0
abbrev i1 : Rect S200 := Rect.unit (s := S200) ![104] S96.size inb_S200_S96_104
abbrev rA : Memref sig .scVector .vmem S104x128 .f32 := (rV).slice r0 (fun _ => rfl)
abbrev rB : Memref sig .scVector .vmem S96x128 .f32 := (rV).slice r1 (fun _ => rfl)
abbrev sA : Memref sig .scVector .vmem S104 .i32 := (sV).slice i0 (fun _ => rfl)
abbrev sB : Memref sig .scVector .vmem S96 .i32 := (sV).slice i1 (fun _ => rfl)
abbrev eAll : Memref sig .scVector .hbm S100000x128 .f32 := (eV).slice (Rect.unit (s := S100000x128) ![0, 0] S100000x128.size inb_S100000x128_S100000x128_0_0) (fun _ => rfl)

theorem set_rA : (rA).view.set = r0.set := View.set_slice_whole _ _
theorem set_rB : (rB).view.set = r1.set := View.set_slice_whole _ _
theorem set_sA : (sA).view.set = i0.set := View.set_slice_whole _ _
theorem set_sB : (sB).view.set = i1.set := View.set_slice_whole _ _

theorem rows_disj : Disjoint r0.set r1.set := Rect.unit_disjoint (0 : Fin 2) (Or.inl (Nat.le_refl 104))
theorem words_disj : Disjoint i0.set i1.set := Rect.unit_disjoint (0 : Fin 1) (Or.inl (Nat.le_refl 104))

theorem rows_cover : r0.set ∪ r1.set = (Finset.univ : Finset S200x128.Idx) := by
  ext i
  simp only [Finset.mem_union, Rect.mem_set_unit, Finset.mem_univ, iff_true, Fin.forall_fin_two]
  have h0 := idx2_lt0 i; have h1 := idx2_lt1 i
  simp only [Matrix.cons_val_zero, Matrix.cons_val_one, Shape.size] at *
  omega

theorem words_cover : i0.set ∪ i1.set = (Finset.univ : Finset S200.Idx) := by
  ext i
  simp only [Finset.mem_union, Rect.mem_set_unit, Finset.mem_univ, iff_true, Fin.forall_fin_one]
  have h0 : (i 0).val < 200 := (i 0).isLt
  simp only [Matrix.cons_val_zero, Shape.size] at *
  omega

/-! ### The accumulators -/

section Accs
variable [FloatOps F]

/-- Lane `i` of chunk `ch` is column `16·ch + i`. -/
def colOf (ch : Fin 8) (i : S16.Idx) : Fin 128 :=
  ⟨16 * ch.val + (i 0).val, by have h : (i 0).val < 16 := (i 0).isLt; have := ch.isLt; omega⟩

/-- Chunk `ch` of the column sums after rows `0 … n`. -/
def chunk (idx : S200.Idx → Elt F .i32) (emb : S100000x128.Idx → Elt F .f32) (ch : Fin 8) (n : ℕ) : FVec F S16 .f32 :=
  fun i => accF idx emb (colOf ch i) n

/-- The eight accumulators after rows `0 … n`. -/
abbrev accs (idx : S200.Idx → Elt F .i32) (emb : S100000x128.Idx → Elt F .f32) (n : ℕ) :
    FVec F S16 .f32 × FVec F S16 .f32 × FVec F S16 .f32 × FVec F S16 .f32 × FVec F S16 .f32 × FVec F S16 .f32 × FVec F S16 .f32 × FVec F S16 .f32 :=
  (chunk idx emb 0 n, chunk idx emb 1 n, chunk idx emb 2 n, chunk idx emb 3 n, chunk idx emb 4 n, chunk idx emb 5 n, chunk idx emb 6 n, chunk idx emb 7 n)

end Accs

/-- What a gather of `n` rows landed at rows `o … o + n - 1` of the row scratch: row `j` holds the table row the `j`-th index word names. -/
theorem landed_gen (n o : ℕ) (inbR : ∀ a, (![o, 0] : Fin 2 → ℕ) a + (⟨2, ![n, 128]⟩ : Shape).size a ≤ S200x128.size a)
    (inbI : ∀ a, (![o] : Fin 1 → ℕ) a + (⟨1, ![n]⟩ : Shape).size a ≤ S200.size a)
    (hg : S100000x128.Gathers 0 (⟨2, ![n, 128]⟩ : Shape)) (hn : (⟨1, ![n]⟩ : Shape).numel = (⟨2, ![n, 128]⟩ : Shape).size hg.axis')
    (idx : S200.Idx → Elt F .i32) (emb : S100000x128.Idx → Elt F .f32) (f1 : S200x128.Idx → Elt F .f32)
    (hpre : ∀ j, (idx j).toNat < 100000)
    (hin : ∀ x, (((sV).slice (Rect.unit (s := S200) ![o] (⟨1, ![n]⟩ : Shape).size inbI) (fun _ => rfl)).view.read (Elt F) idx x).toNat < S100000x128.size hg.axis)
    (j : Fin 200) (k : Fin 128) (hlo : o ≤ j.val) (hhi : j.val < o + n) :
    ((rV).slice (Rect.unit (s := S200x128) ![o, 0] (⟨2, ![n, 128]⟩ : Shape).size inbR) (fun _ => rfl)).view.write (Elt F) f1
        (SparseCore.gatherPayload hg ((eAll).view.read (Elt F) emb)
          (SparseCore.rows (((sV).slice (Rect.unit (s := S200) ![o] (⟨1, ![n]⟩ : Shape).size inbI) (fun _ => rfl)).view.read (Elt F) idx) hn hin)) Finset.univ (ix2 j k)
      = rowAt idx emb k j.val := by
  let x : (⟨2, ![n, 128]⟩ : Shape).Idx := ix2 (⟨j.val - o, by omega⟩ : Fin n) k
  have hx : ((rV).slice (Rect.unit (s := S200x128) ![o, 0] (⟨2, ![n, 128]⟩ : Shape).size inbR) (fun _ => rfl)).view.emb x = ix2 j k := by
    funext a; apply Fin.ext
    match a with
    | ⟨0, _⟩ => show o + 1 * (j.val - o) = j.val; omega
    | ⟨1, _⟩ => show 0 + 1 * k.val = k.val; omega
  rw [← hx, View.write_emb_of_mem _ _ (Finset.mem_univ x)]
  rw [cast_eq]
  unfold SparseCore.gatherPayload
  rw [View.read_apply, cast_eq]
  unfold rowAt
  congr 1
  funext a; apply Fin.ext
  match a with
  | ⟨0, _⟩ =>
    have hz : ∀ z : (⟨1, ![n]⟩ : Shape).Idx, (z 0).val = j.val - o →
        View.read (Elt F) ((sV).slice (Rect.unit (s := S200) ![o] (⟨1, ![n]⟩ : Shape).size inbI) (fun _ => rfl)).view idx z
          = idx (ix1 (⟨j.val % 200, Nat.mod_lt _ (by decide)⟩ : Fin 200)) := by
      intro z hz
      refine ((View.read_apply _ _).trans (cast_eq _ _)).trans (congrArg idx ?_)
      funext b; apply Fin.ext
      match b with
      | ⟨0, _⟩ =>
        show o + 1 * (z 0).val = j.val % 200
        rw [hz, Nat.mod_eq_of_lt j.isLt]; omega
    show 0 + 1 * (hg.idx _ x hg.axis).val = _
    rw [Shape.Gathers.idx_axis, Nat.zero_add, Nat.one_mul, Cert.Spec.rowOf_val_of_lt (hpre _)]
    show (View.read (Elt F) ((sV).slice (Rect.unit (s := S200) ![o] (⟨1, ![n]⟩ : Shape).size inbI) (fun _ => rfl)).view idx ((⟨1, ![n]⟩ : Shape).rowMajor.symm ((x hg.axis').cast hn.symm))).toNat = _
    rw [hz _ ((Shape.rowMajor_val_one _).symm.trans (congrArg Fin.val (Equiv.apply_symm_apply _ _)))]
  | ⟨1, _⟩ =>
    show 0 + 1 * (hg.idx _ x ⟨1, _⟩).val = k.val
    rw [Nat.zero_add, Nat.one_mul, Shape.Gathers.idx_of_ne hg _ x ⟨1, _⟩ Nat.one_ne_zero]
    rfl

section ChunkValue
variable [FloatOps F]

/-- Sixteen lanes of row `r` of the row scratch, read at columns `c … c + 15` and cast to a 16-vector, are the entries
    of the table row the `r`-th index word names, where the scratch holds what a gather landed there. -/
theorem chunk_row (idx : S200.Idx → Elt F .i32) (emb : S100000x128.Idx → Elt F .f32) (g : S200x128.Idx → Elt F .f32) (lo hi : ℕ)
    (hL : ∀ (j : Fin 200) (k : Fin 128), lo ≤ j.val → j.val < hi → g (ix2 j k) = rowAt idx emb k j.val)
    (r : ℕ) (hlo : lo ≤ r) (hhi : r < hi) (hr : r < 200) (ch : Fin 8) (c : ℕ) (hc : c = 16 * ch.val)
    (off : Fin 2 → ℕ) (inb : ∀ a, off a + S1x16.size a ≤ S200x128.size a) (hoff : off = ![r, c]) :
    shapeCast S16 (View.readAt (Elt F) (rV).view (Rect.unit (s := S200x128) off S1x16.size inb).toLoadRect g) shapeCasts_S1x16_S16
      = fun i => rowAt idx emb (colOf ch i) r := by
  subst hoff hc
  funext i
  obtain ⟨l, rfl⟩ : ∃ l, i = ix1 l := ⟨i 0, eq_ix1 i⟩
  rw [shapeCast_1a_a_apply, View.readAt_apply, View.read_apply, cast_eq, ← hL ⟨r, hr⟩ (colOf ch (ix1 l)) hlo hhi]
  congr 1
  funext a; apply Fin.ext
  match a with
  | ⟨0, _⟩ => show r + 1 * 0 = r; omega
  | ⟨1, _⟩ => show 16 * ch.val + 1 * l.val = 16 * ch.val + l.val; omega

/-- One accumulator's step: chunk `ch` of the sums of rows `0 … n`, plus sixteen lanes of row `n + 1`, is chunk `ch` of the sums of rows `0 … n + 1`. -/
theorem chunk_add (idx : S200.Idx → Elt F .i32) (emb : S100000x128.Idx → Elt F .f32) (g : S200x128.Idx → Elt F .f32) (lo hi : ℕ)
    (hL : ∀ (j : Fin 200) (k : Fin 128), lo ≤ j.val → j.val < hi → g (ix2 j k) = rowAt idx emb k j.val)
    (n : ℕ) (hlo : lo ≤ n + 1) (hhi : n + 1 < hi) (hr : n + 1 < 200) (ch : Fin 8) (c : ℕ) (hc : c = 16 * ch.val)
    (off : Fin 2 → ℕ) (inb : ∀ a, off a + S1x16.size a ≤ S200x128.size a) (hoff : off = ![n + 1, c]) :
    addf (chunk idx emb ch n) (shapeCast S16 (View.readAt (Elt F) (rV).view (Rect.unit (s := S200x128) off S1x16.size inb).toLoadRect g) shapeCasts_S1x16_S16)
      = chunk idx emb ch (n + 1) := by
  rw [chunk_row idx emb g lo hi hL (n + 1) hlo hhi hr ch c hc off inb hoff]
  rfl

end ChunkValue

section OutValue
variable [FloatOps F]

/-- A 128-vector written through row 0 of the 1 × 128 result (the whole array sliced and its unit axis dropped) is the
    array whose entry `(0, c)` is the vector's entry `c`. -/
theorem out_value (pay : S128.Idx → Elt F .f32) (f tgt : S1x128.Idx → Elt F .f32)
    (hpay : ∀ c : Fin 128, pay (ix1 c) = tgt (ix2 (0 : Fin 1) c)) :
    View.write (Elt F) (((pV).slice (Rect.unit (s := S1x128) ![0, 0] S1x128.size inb_S1x128_S1x128_0_0) (fun _ => rfl)).squeeze S128 squeezes_S1x128_S128).view f pay Finset.univ = tgt := by
  funext i
  obtain ⟨u, c, rfl⟩ : ∃ u c, i = ix2 u c := ⟨i 0, i 1, eq_ix2 i⟩
  obtain rfl : u = 0 := Subsingleton.elim _ _
  have hr : Shape.reshapeEquiv squeezes_S1x128_S128.numel_eq (ix1 c) = (ix2 (0 : Fin 1) c : S1x128.Idx) :=
    Shape.reshapeEquiv_eq_of_rowMajor _ (by
      rw [Shape.rowMajor_val_two, Shape.rowMajor_val_one]
      show 0 * 128 + c.val = c.val
      omega)
  have hemb : (((pV).slice (Rect.unit (s := S1x128) ![0, 0] S1x128.size inb_S1x128_S1x128_0_0) (fun _ => rfl)).squeeze S128 squeezes_S1x128_S128).view.emb (ix1 c)
      = (ix2 (0 : Fin 1) c : S1x128.Idx) := by
    show (Rect.unit (s := S1x128) ![0, 0] S1x128.size inb_S1x128_S1x128_0_0).emb (Shape.reshapeEquiv squeezes_S1x128_S128.numel_eq (ix1 c)) = _
    rw [hr]
    funext a; apply Fin.ext
    match a with
    | ⟨0, _⟩ => show 0 + 1 * 0 = 0; rfl
    | ⟨1, _⟩ => show 0 + 1 * c.val = c.val; omega
  rw [← hemb, View.write_emb_of_mem _ _ (Finset.mem_univ _), cast_eq, hpay, hemb]

end OutValue

variable [FloatOps F] (m : (ℓ : Loc nD τ sig) → Buf (Elt F) ℓ)

/-- Loop 1's invariant: the accumulators hold the sums of rows `0 … k`; rows 0 … 103 of the row scratch as the first gather left them. -/
def inv1 (g1 : Buf (Elt F) ((rA).view.loc (V d (cV L) (jV L)))) (k : ℕ)
    (acc : FVec F S16 .f32 × FVec F S16 .f32 × FVec F S16 .f32 × FVec F S16 .f32 × FVec F S16 .f32 × FVec F S16 .f32 × FVec F S16 .f32 × FVec F S16 .f32) : sProp 𝕄 :=
  iprop(⌜acc = accs (m (iLoc d)) (m (eLoc d)) k⌝ ∗ (rA).view.loc (V d (cV L) (jV L)) ↦[(rA).view.set]{fullShare} g1)

/-- Loop 2's invariant: the accumulators hold the sums of rows `0 … 103 + k`; rows 104 … 199 of the row scratch as the second gather left them. -/
def inv2 (g2 : Buf (Elt F) ((rB).view.loc (V d (cV L) (jV L)))) (k : ℕ)
    (acc : FVec F S16 .f32 × FVec F S16 .f32 × FVec F S16 .f32 × FVec F S16 .f32 × FVec F S16 .f32 × FVec F S16 .f32 × FVec F S16 .f32 × FVec F S16 .f32) : sProp 𝕄 :=
  iprop(⌜acc = accs (m (iLoc d)) (m (eLoc d)) (k + 103)⌝ ∗ (rB).view.loc (V d (cV L) (jV L)) ↦[(rB).view.set]{fullShare} g2)

set_option maxHeartbeats 4000000 in
theorem tile_body_aux (hF : (K (F := F)).Facts) (hpre : PreOK m) (O : CellTallies nD τ sig (HIx 1)) (W : Waits sig (HIx 1)) (hO : ∀ g, O g none = 0) :
    iprop(levAts (K (F := F)).L (K (F := F)).lev ∗ emp
        ∗ (iPts m d ∗ ePts m d ∗ pPts d (m (pLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__embed_sum_body L (Memref.whole main_arg0_scv) (Memref.isWhole_whole _) (Memref.whole main_arg1_scv) (Memref.isWhole_whole _) (Memref.whole main_v0_scv) (Memref.isWhole_whole _)
            (Memref.whole cc0_scratch0) (Memref.isWhole_whole _) (Memref.whole cc0_scratch1) (Memref.isWhole_whole _) (Memref.whole cc0_scratch2) (Memref.isWhole_whole _)
            cc0_scratch3 cc0_scratch4 cc0_scoped0 cc0_scoped1)
          fun _ => iprop((iPts m d ∗ ePts m d ∗ pPts d (scOut (m (iLoc d)) (m (eLoc d))))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__embed_sum_body_eq_skeleton]; unfold cc0__embed_sum_body_skel
  rw [(K (F := F)).scopedBufs_V hF d (cV L) (jV L), SparseCore.Cfg.scopedSems0_V (Val := Elt F) d (cV L) (jV L), ownSems0_V, ownBufs_V]
  iintro ⟨#Hlv, -, ⟨Hi, He, Hp⟩, ⟨⟨%f0, H0⟩, ⟨%f1, H1⟩, ⟨%f2, H2⟩, Hbufs⟩, ⟨Hs3, Hs4, HsA, HsB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (show (iLoc d ↦{fullShare} m (iLoc d) : sProp 𝕄) = (iV).view.loc (V d (cV L) (jV L)) ↦{fullShare} m (iLoc d) from rfl)) $$ Hi
  ihave He' := (Entails.of_eq (show (eLoc d ↦{fullShare} m (eLoc d) : sProp 𝕄) = (eV).view.loc (V d (cV L) (jV L)) ↦{fullShare} m (eLoc d) from rfl)) $$ He
  ihave Hp' := (Entails.of_eq (show (pLoc d ↦{fullShare} m (pLoc d) : sProp 𝕄) = (pV).view.loc (V d (cV L) (jV L)) ↦{fullShare} m (pLoc d) from rfl)) $$ Hp
  ihave H0' := (Entails.of_eq (show ((V d (cV L) (jV L)).loc cc0_scratch0 ↦{fullShare} f0 : sProp 𝕄) = (sV).view.loc (V d (cV L) (jV L)) ↦{fullShare} f0 from rfl)) $$ H0
  ihave H1' := (Entails.of_eq (show ((V d (cV L) (jV L)).loc cc0_scratch1 ↦{fullShare} f1 : sProp 𝕄) = (rV).view.loc (V d (cV L) (jV L)) ↦{fullShare} f1 from rfl)) $$ H1
  ihave H2' := (Entails.of_eq (show ((V d (cV L) (jV L)).loc cc0_scratch2 ↦{fullShare} f2 : sProp 𝕄) = (aV).view.loc (V d (cV L) (jV L)) ↦{fullShare} f2 from rfl)) $$ H2
  sl_exec_parts
  -- the index scratch now holds the index words themselves
  have hfo : View.write (Elt F) (sV).view f0 (tile_body_aux.sl.dma0 d m) Finset.univ = (m (iLoc d) : Buf (Elt F) ((sV).view.loc (V d (cV L) (jV L)))) := by
    rw [View.write_whole_univ]; rfl
  rw [hfo]
  -- the row scratch and the index scratch in the two pieces the gathers take; the table in two half shares
  ihave H1s := (Entails.of_eq (show ((rV).view.loc (V d (cV L) (jV L)) ↦{fullShare} f1 : sProp 𝕄)
      = (rV).view.loc (V d (cV L) (jV L)) ↦[r0.set ∪ r1.set]{fullShare} f1 by rw [rows_cover])) $$ H1'
  ihave H1s := (pointsTo_union rows_disj).1 $$ H1s
  icases H1s with ⟨H1a, H1b⟩
  ihave H0s := (Entails.of_eq (show ((sV).view.loc (V d (cV L) (jV L)) ↦{fullShare} (m (iLoc d) : Buf (Elt F) ((sV).view.loc (V d (cV L) (jV L)))) : sProp 𝕄)
      = (sV).view.loc (V d (cV L) (jV L)) ↦[i0.set ∪ i1.set]{fullShare} (m (iLoc d) : Buf (Elt F) ((sV).view.loc (V d (cV L) (jV L)))) by rw [words_cover])) $$ H0'
  ihave H0s := (pointsTo_union words_disj).1 $$ H0s
  icases H0s with ⟨H0a, H0b⟩
  ihave Hes := (pointsTo_share (PosShare.mem_left_op_right fullShare)).1 $$ He'
  icases Hes with ⟨HeL, HeR⟩
  -- every offset word of either list names a row of the table
  have hin1 : ∀ x, ((sA).view.read (Elt F) (m (iLoc d) : Buf (Elt F) ((sV).view.loc (V d (cV L) (jV L)))) x).toNat < S100000x128.size gathers_S100000x128_S104x128.axis := by
    intro x
    rw [show (sA).view.read (Elt F) (m (iLoc d) : Buf (Elt F) ((sV).view.loc (V d (cV L) (jV L)))) x = m (iLoc d) ((sA).view.emb x) from (View.read_apply _ _).trans (cast_eq _ _)]
    exact hpre d _
  have hin2 : ∀ x, ((sB).view.read (Elt F) (m (iLoc d) : Buf (Elt F) ((sV).view.loc (V d (cV L) (jV L)))) x).toNat < S100000x128.size gathers_S100000x128_S96x128.axis := by
    intro x
    rw [show (sB).view.read (Elt F) (m (iLoc d) : Buf (Elt F) ((sV).view.loc (V d (cV L) (jV L)))) x = m (iLoc d) ((sB).view.emb x) from (View.read_apply _ _).trans (cast_eq _ _)]
    exact hpre d _
  ihave H1a' := (Entails.of_eq (show ((rV).view.loc (V d (cV L) (jV L)) ↦[r0.set]{fullShare} f1 : sProp 𝕄)
      = (rA).view.loc (V d (cV L) (jV L)) ↦[(rA).view.set]{fullShare} f1 by rw [set_rA])) $$ H1a
  ihave H1b' := (Entails.of_eq (show ((rV).view.loc (V d (cV L) (jV L)) ↦[r1.set]{fullShare} f1 : sProp 𝕄)
      = (rB).view.loc (V d (cV L) (jV L)) ↦[(rB).view.set]{fullShare} f1 by rw [set_rB])) $$ H1b
  ihave H0a' := (Entails.of_eq (show ((sV).view.loc (V d (cV L) (jV L)) ↦[i0.set]{fullShare} (m (iLoc d) : Buf (Elt F) ((sV).view.loc (V d (cV L) (jV L)))) : sProp 𝕄)
      = (sA).view.loc (V d (cV L) (jV L)) ↦[(sA).view.set]{fullShare} (m (iLoc d) : Buf (Elt F) ((sV).view.loc (V d (cV L) (jV L)))) by rw [set_sA])) $$ H0a
  ihave H0b' := (Entails.of_eq (show ((sV).view.loc (V d (cV L) (jV L)) ↦[i1.set]{fullShare} (m (iLoc d) : Buf (Elt F) ((sV).view.loc (V d (cV L) (jV L)))) : sProp 𝕄)
      = (sB).view.loc (V d (cV L) (jV L)) ↦[(sB).view.set]{fullShare} (m (iLoc d) : Buf (Elt F) ((sV).view.loc (V d (cV L) (jV L)))) by rw [set_sB])) $$ H0b
  ihave HeL' := (pointsTo_split_subset (q := fullShare.left) (f := m (eLoc d)) (S := Finset.univ) (Finset.subset_univ (eAll).view.set)).1 $$ HeL
  icases HeL' with ⟨HeLs, HeLr⟩
  ihave HeR' := (pointsTo_split_subset (q := fullShare.right) (f := m (eLoc d)) (S := Finset.univ) (Finset.subset_univ (eAll).view.set)).1 $$ HeR
  icases HeR' with ⟨HeRs, HeRr⟩
  -- GATHER 1: rows 0 … 103
  iapply (SparseCore.wp_indirectGatherLocal countersEmb 𝒱₀ (V d (cV L) (jV L)) none (hg := gathers_S100000x128_S104x128) (default : HIx 1)
      (rA).view.dmaCredit (SparseCore.sum_rowCredit_eq_dmaCredit (rA) _ (fun _ => rfl)) (by decide) hin1) $$ [HeLs H1a' H0a' Hs3]
  · isplitl [HeLs]; · iexact HeLs
    isplitl [H1a']; · iexact H1a'
    isplitl [H0a']; · iexact H0a'
    iexact Hs3
  iintro Hfl1
  -- GATHER 2: rows 104 … 199, on the other semaphore, while the first is outstanding
  iapply (SparseCore.wp_indirectGatherLocal countersEmb 𝒱₀ (V d (cV L) (jV L)) none (hg := gathers_S100000x128_S96x128) (default : HIx 1)
      (rB).view.dmaCredit (SparseCore.sum_rowCredit_eq_dmaCredit (rB) _ (fun _ => rfl)) (by decide) hin2) $$ [HeRs H1b' H0b' Hs4]
  · isplitl [HeRs]; · iexact HeRs
    isplitl [H1b']; · iexact H1b'
    isplitl [H0b']; · iexact H0b'
    iexact Hs4
  iintro Hfl2
  sl_exec
  -- WAIT 1: rows 0 … 103 have landed
  iapply (Transfers.wp_waitLocalO countersEmb 𝒱₀ (V d (cV L) (jV L)) none (default : HIx 1) (rfl : (rA).view.dmaCredit = _)) $$ [Hfl1 HO]
  · isplitl [Hfl1]; · iexact Hfl1
    isplitl [HO]; · iexact HO
    iapply (Transfers.MayWaits.elim (SemLoc.dma cc0_scratch3.sem)) $$ Hmw
  iintro ⟨⟨H1a, HeLs, H0a⟩, Hs3, HO⟩
  have hL1 : ∀ (j : Fin 200) (k : Fin 128), 0 ≤ j.val → j.val < 104 →
      (View.write (Elt F) (rA).view f1 (SparseCore.gatherPayload gathers_S100000x128_S104x128 (View.read (Elt F) (eAll).view (m (eLoc d))) (SparseCore.rows (View.read (Elt F) (sA).view (m (iLoc d))) rfl hin1)) Finset.univ) (ix2 j k)
        = rowAt (m (iLoc d)) (m (eLoc d)) k j.val :=
    fun j k hlo hhi => landed_gen 104 0 inb_S200x128_S104x128_0_0 inb_S200_S104_0 gathers_S100000x128_S104x128 rfl (m (iLoc d)) (m (eLoc d)) f1 (hpre d) hin1 j k hlo (by omega)
  generalize View.write (Elt F) (rA).view f1 (SparseCore.gatherPayload gathers_S100000x128_S104x128 (View.read (Elt F) (eAll).view (m (eLoc d))) (SparseCore.rows (View.read (Elt F) (sA).view (m (iLoc d))) rfl hin1)) Finset.univ = g1 at hL1 ⊢
  have hL2 : ∀ (j : Fin 200) (k : Fin 128), 104 ≤ j.val → j.val < 200 →
      (View.write (Elt F) (rB).view f1 (SparseCore.gatherPayload gathers_S100000x128_S96x128 (View.read (Elt F) (eAll).view (m (eLoc d))) (SparseCore.rows (View.read (Elt F) (sB).view (m (iLoc d))) rfl hin2)) Finset.univ) (ix2 j k)
        = rowAt (m (iLoc d)) (m (eLoc d)) k j.val :=
    fun j k hlo hhi => landed_gen 96 104 inb_S200x128_S96x128_104_0 inb_S200_S96_104 gathers_S100000x128_S96x128 rfl (m (iLoc d)) (m (eLoc d)) f1 (hpre d) hin2 j k hlo (by omega)
  generalize View.write (Elt F) (rB).view f1 (SparseCore.gatherPayload gathers_S100000x128_S96x128 (View.read (Elt F) (eAll).view (m (eLoc d))) (SparseCore.rows (View.read (Elt F) (sB).view (m (iLoc d))) rfl hin2)) Finset.univ = g2 at hL2 ⊢
  have htr1 : k0_t1_loop.trips = 103 := by decide
  have htr2 : k0_t2_loop.trips = 96 := by decide
  sl_exec
  sl_for (inv1 d L m g1) $$ [H1a]
  case region =>
    intro k a
    unfold inv1
    iintro ⟨%ha, H1a⟩
    subst ha
    have hk : k.val < 103 := htr1 ▸ k.isLt
    sl_exec
    sl_step
    isplitr
    · ipureintro
      refine Prod.ext ?_ (Prod.ext ?_ (Prod.ext ?_ (Prod.ext ?_ (Prod.ext ?_ (Prod.ext ?_ (Prod.ext ?_ ?_))))))
      · exact chunk_add (m (iLoc d)) (m (eLoc d)) g1 0 104 hL1 k.val (Nat.zero_le _) (by omega) (by omega) 0 0 (by decide) _ _ (k0_off1_eq k)
      · exact chunk_add (m (iLoc d)) (m (eLoc d)) g1 0 104 hL1 k.val (Nat.zero_le _) (by omega) (by omega) 1 16 (by decide) _ _ (k0_off2_eq k)
      · exact chunk_add (m (iLoc d)) (m (eLoc d)) g1 0 104 hL1 k.val (Nat.zero_le _) (by omega) (by omega) 2 32 (by decide) _ _ (k0_off3_eq k)
      · exact chunk_add (m (iLoc d)) (m (eLoc d)) g1 0 104 hL1 k.val (Nat.zero_le _) (by omega) (by omega) 3 48 (by decide) _ _ (k0_off4_eq k)
      · exact chunk_add (m (iLoc d)) (m (eLoc d)) g1 0 104 hL1 k.val (Nat.zero_le _) (by omega) (by omega) 4 64 (by decide) _ _ (k0_off5_eq k)
      · exact chunk_add (m (iLoc d)) (m (eLoc d)) g1 0 104 hL1 k.val (Nat.zero_le _) (by omega) (by omega) 5 80 (by decide) _ _ (k0_off6_eq k)
      · exact chunk_add (m (iLoc d)) (m (eLoc d)) g1 0 104 hL1 k.val (Nat.zero_le _) (by omega) (by omega) 6 96 (by decide) _ _ (k0_off7_eq k)
      · exact chunk_add (m (iLoc d)) (m (eLoc d)) g1 0 104 hL1 k.val (Nat.zero_le _) (by omega) (by omega) 7 112 (by decide) _ _ (k0_off8_eq k)
    · iexact H1a
  · unfold inv1
    isplitr
    · ipureintro
      refine Prod.ext ?_ (Prod.ext ?_ (Prod.ext ?_ (Prod.ext ?_ (Prod.ext ?_ (Prod.ext ?_ (Prod.ext ?_ ?_))))))
      · exact chunk_row (m (iLoc d)) (m (eLoc d)) g1 0 104 hL1 0 (le_refl _) (by decide) (by decide) 0 0 (by decide) _ _ rfl
      · exact chunk_row (m (iLoc d)) (m (eLoc d)) g1 0 104 hL1 0 (le_refl _) (by decide) (by decide) 1 16 (by decide) _ _ rfl
      · exact chunk_row (m (iLoc d)) (m (eLoc d)) g1 0 104 hL1 0 (le_refl _) (by decide) (by decide) 2 32 (by decide) _ _ rfl
      · exact chunk_row (m (iLoc d)) (m (eLoc d)) g1 0 104 hL1 0 (le_refl _) (by decide) (by decide) 3 48 (by decide) _ _ rfl
      · exact chunk_row (m (iLoc d)) (m (eLoc d)) g1 0 104 hL1 0 (le_refl _) (by decide) (by decide) 4 64 (by decide) _ _ rfl
      · exact chunk_row (m (iLoc d)) (m (eLoc d)) g1 0 104 hL1 0 (le_refl _) (by decide) (by decide) 5 80 (by decide) _ _ rfl
      · exact chunk_row (m (iLoc d)) (m (eLoc d)) g1 0 104 hL1 0 (le_refl _) (by decide) (by decide) 6 96 (by decide) _ _ rfl
      · exact chunk_row (m (iLoc d)) (m (eLoc d)) g1 0 104 hL1 0 (le_refl _) (by decide) (by decide) 7 112 (by decide) _ _ rfl
    · iexact H1a
  iintro %a HI
  unfold inv1
  icases HI with ⟨%ha, H1a⟩
  subst ha
  rw [show Scf.trips k0_t1_loop.lb k0_t1_loop.ub k0_t1_loop.st = 103 from htr1]
  sl_exec
  -- WAIT 2: rows 104 … 199 have landed
  iapply (Transfers.wp_waitLocalO countersEmb 𝒱₀ (V d (cV L) (jV L)) none (default : HIx 1) (rfl : (rB).view.dmaCredit = _)) $$ [Hfl2 HO]
  · isplitl [Hfl2]; · iexact Hfl2
    isplitl [HO]; · iexact HO
    iapply (Transfers.MayWaits.elim (SemLoc.dma cc0_scratch4.sem)) $$ Hmw
  iintro ⟨⟨H1b, HeRs, H0b⟩, Hs4, HO⟩
  sl_exec
  sl_for (inv2 d L m g2) $$ [H1b]
  case region =>
    intro k a
    unfold inv2
    iintro ⟨%ha, H1b⟩
    subst ha
    have hk : k.val < 96 := htr2 ▸ k.isLt
    sl_exec
    sl_step
    isplitr
    · ipureintro
      refine Prod.ext ?_ (Prod.ext ?_ (Prod.ext ?_ (Prod.ext ?_ (Prod.ext ?_ (Prod.ext ?_ (Prod.ext ?_ ?_))))))
      · exact chunk_add (m (iLoc d)) (m (eLoc d)) g2 104 200 hL2 (k.val + 103) (by omega) (by omega) (by omega) 0 0 (by decide) _ _ (k0_off9_eq k)
      · exact chunk_add (m (iLoc d)) (m (eLoc d)) g2 104 200 hL2 (k.val + 103) (by omega) (by omega) (by omega) 1 16 (by decide) _ _ (k0_off10_eq k)
      · exact chunk_add (m (iLoc d)) (m (eLoc d)) g2 104 200 hL2 (k.val + 103) (by omega) (by omega) (by omega) 2 32 (by decide) _ _ (k0_off11_eq k)
      · exact chunk_add (m (iLoc d)) (m (eLoc d)) g2 104 200 hL2 (k.val + 103) (by omega) (by omega) (by omega) 3 48 (by decide) _ _ (k0_off12_eq k)
      · exact chunk_add (m (iLoc d)) (m (eLoc d)) g2 104 200 hL2 (k.val + 103) (by omega) (by omega) (by omega) 4 64 (by decide) _ _ (k0_off13_eq k)
      · exact chunk_add (m (iLoc d)) (m (eLoc d)) g2 104 200 hL2 (k.val + 103) (by omega) (by omega) (by omega) 5 80 (by decide) _ _ (k0_off14_eq k)
      · exact chunk_add (m (iLoc d)) (m (eLoc d)) g2 104 200 hL2 (k.val + 103) (by omega) (by omega) (by omega) 6 96 (by decide) _ _ (k0_off15_eq k)
      · exact chunk_add (m (iLoc d)) (m (eLoc d)) g2 104 200 hL2 (k.val + 103) (by omega) (by omega) (by omega) 7 112 (by decide) _ _ (k0_off16_eq k)
    · iexact H1b
  · unfold inv2
    isplitr
    · ipureintro; rfl
    · iexact H1b
  iintro %a HI
  unfold inv2
  icases HI with ⟨%ha, H1b⟩
  subst ha
  rw [show Scf.trips k0_t2_loop.lb k0_t2_loop.ub k0_t2_loop.st = 96 from htr2]
  sl_exec
  sl_step
  -- the value left in the result: column c is the sum of the 200 rows' entries c
  have hinb8 : ∀ (i : Fin 8) a, (![16 * i.val] : Fin 1 → ℕ) a + S16.size a ≤ S128.size a := by
    intro i a; have := i.isLt
    match a with
    | ⟨0, _⟩ => show 16 * i.val + 16 ≤ 128; omega
  have hlist : tile_body_aux.sl.H2'_8 d m = View.tilePieces (Val := Elt F) (s := S128) (e := .f32) S16.size (fun i : Fin 8 => ![16 * i.val]) hinb8
      (fun i => shapeCast S16 (chunk (m (iLoc d)) (m (eLoc d)) i 199) shapeCasts_S16_S16) 8 le_rfl := rfl
  have hpay : ∀ c : Fin 128, tile_body_aux.sl.dma16 d L m f2 (ix1 c) = scOut (m (iLoc d)) (m (eLoc d)) (ix2 (0 : Fin 1) c) := by
    intro c
    show View.read (Elt F) (aV).view ((aV).view.writes (Elt F) f2 (tile_body_aux.sl.H2'_8 d m)) (ix1 c) = _
    rw [hlist]
    have hc := c.isLt
    rw [View.read_tilePieces (aV).view f2 S16.size _ hinb8 _ 8 le_rfl (ix1 c) ⟨c.val / 16, by omega⟩ (by show c.val / 16 < 8; omega) (ix1 (⟨c.val % 16, Nat.mod_lt _ (by decide)⟩ : Fin 16))
      (fun a => match a with | ⟨0, _⟩ => by show c.val = 16 * (c.val / 16) + c.val % 16; omega) 0
      (fun i' hi' => by
        have : i'.val ≠ c.val / 16 := fun h => hi' (Fin.ext h)
        show c.val < 16 * i'.val ∨ 16 * i'.val + 16 ≤ c.val
        omega)]
    rw [shapeCast_self]
    show accF _ _ (colOf ⟨c.val / 16, _⟩ (ix1 (⟨c.val % 16, _⟩ : Fin 16))) 199 = accF _ _ c 199
    congr 1
    exact Fin.ext (by show 16 * (c.val / 16) + c.val % 16 = c.val; omega)
  rw [out_value (tile_body_aux.sl.dma16 d L m f2) (m (pLoc d)) (scOut (m (iLoc d)) (m (eLoc d))) hpay]
  -- the split arrays, whole again
  ihave H0a := (Entails.of_eq (show ((sA).view.loc (V d (cV L) (jV L)) ↦[(sA).view.set]{fullShare} (m (iLoc d) : Buf (Elt F) ((sV).view.loc (V d (cV L) (jV L)))) : sProp 𝕄)
      = (sV).view.loc (V d (cV L) (jV L)) ↦[i0.set]{fullShare} (m (iLoc d) : Buf (Elt F) ((sV).view.loc (V d (cV L) (jV L)))) by rw [set_sA])) $$ H0a
  ihave H0b := (Entails.of_eq (show ((sB).view.loc (V d (cV L) (jV L)) ↦[(sB).view.set]{fullShare} (m (iLoc d) : Buf (Elt F) ((sV).view.loc (V d (cV L) (jV L)))) : sProp 𝕄)
      = (sV).view.loc (V d (cV L) (jV L)) ↦[i1.set]{fullShare} (m (iLoc d) : Buf (Elt F) ((sV).view.loc (V d (cV L) (jV L)))) by rw [set_sB])) $$ H0b
  ihave H0 := (pointsTo_union (ℓ := (sV).view.loc (V d (cV L) (jV L))) (q := fullShare) (f := (m (iLoc d) : Buf (Elt F) ((sV).view.loc (V d (cV L) (jV L))))) words_disj).2 $$ [H0a H0b]; · isplitl [H0a] <;> iassumption
  ihave H0 := (Entails.of_eq (show ((sV).view.loc (V d (cV L) (jV L)) ↦[i0.set ∪ i1.set]{fullShare} (m (iLoc d) : Buf (Elt F) ((sV).view.loc (V d (cV L) (jV L)))) : sProp 𝕄)
      = (sV).view.loc (V d (cV L) (jV L)) ↦{fullShare} (m (iLoc d) : Buf (Elt F) ((sV).view.loc (V d (cV L) (jV L)))) by rw [words_cover])) $$ H0
  ihave H1a := (Entails.of_eq (show ((rA).view.loc (V d (cV L) (jV L)) ↦[(rA).view.set]{fullShare} g1 : sProp 𝕄)
      = (rV).view.loc (V d (cV L) (jV L)) ↦[r0.set]{fullShare} g1 by rw [set_rA])) $$ H1a
  ihave H1b := (Entails.of_eq (show ((rB).view.loc (V d (cV L) (jV L)) ↦[(rB).view.set]{fullShare} g2 : sProp 𝕄)
      = (rV).view.loc (V d (cV L) (jV L)) ↦[r1.set]{fullShare} g2 by rw [set_rB])) $$ H1b
  ihave H1 := (pointsTo_join (ℓ := (rV).view.loc (V d (cV L) (jV L))) (q := fullShare) (f := g1) (g := g2) rows_disj) $$ [H1a H1b]; · isplitl [H1a] <;> iassumption
  ihave H1 := (Entails.of_eq (show ((rV).view.loc (V d (cV L) (jV L)) ↦[r0.set ∪ r1.set]{fullShare} (r1.set.piecewise g2 g1) : sProp 𝕄)
      = (rV).view.loc (V d (cV L) (jV L)) ↦{fullShare} (r1.set.piecewise g2 g1) by rw [rows_cover])) $$ H1
  ihave HeL := (pointsTo_split_subset (q := fullShare.left) (f := m (eLoc d)) (S := Finset.univ) (Finset.subset_univ (eAll).view.set)).2 $$ [HeLs HeLr]; · isplitl [HeLs] <;> iassumption
  ihave HeR := (pointsTo_split_subset (q := fullShare.right) (f := m (eLoc d)) (S := Finset.univ) (Finset.subset_univ (eAll).view.set)).2 $$ [HeRs HeRr]; · isplitl [HeRs] <;> iassumption
  ihave He := (pointsTo_share (PosShare.mem_left_op_right fullShare)).2 $$ [HeL HeR]; · isplitl [HeL] <;> iassumption
  isplitl [Hi' He Hp']
  · isplitl [Hi']; · iexact Hi'
    isplitl [He]; · iexact He
    iexact Hp'
  isplitl [H0 H1 H2' Hbufs]
  · isplitl [H0]; · iexists _; iexact H0
    isplitl [H1]; · iexists _; iexact H1
    isplitl [H2']; · iexists _; iexact H2'
    iexact Hbufs
  isplitl [Hs3 Hs4 HsA HsB Hsems]
  · isplitl [Hs3]; · iexact Hs3
    isplitl [Hs4]; · iexact Hs4
    isplitl [HsA]; · iexact HsA
    isplitl [HsB]; · iexact HsB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

section Body
variable [FloatOps F] (m : (ℓ : Loc nD τ sig) → Buf (Elt F) ℓ)

/-- The kernel's body on vector subcore `(L 0, L 1)` of device `d`, holding the index array, the table and the result
    whole: it gives them back, the result at `scOut` of the index words and the table. -/
theorem tile_body (d : Dev nD) (L : grid0.Coords) (hF : (K (F := F)).Facts) (hpre : PreOK m) (O : CellTallies nD τ sig (HIx 1)) (W : Waits sig (HIx 1)) (hO : ∀ g, O g none = 0) :
    iprop(levAts (K (F := F)).L (K (F := F)).lev ∗ emp
        ∗ (iPts m d ∗ ePts m d ∗ pPts d (m (pLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__embed_sum_body L (Memref.whole main_arg0_scv) (Memref.isWhole_whole _) (Memref.whole main_arg1_scv) (Memref.isWhole_whole _) (Memref.whole main_v0_scv) (Memref.isWhole_whole _)
            (Memref.whole cc0_scratch0) (Memref.isWhole_whole _) (Memref.whole cc0_scratch1) (Memref.isWhole_whole _) (Memref.whole cc0_scratch2) (Memref.isWhole_whole _)
            cc0_scratch3 cc0_scratch4 cc0_scoped0 cc0_scoped1)
          fun _ => iprop((iPts m d ∗ ePts m d ∗ pPts d (scOut (m (iLoc d)) (m (eLoc d))))
            ∗ scopedBufs (V d (cV L) (jV L)) ∗ scopedSems0 (V d (cV L) (jV L))
            ∗ ∃ W', ⌜∀ p ∈ W', p ∈ W ∨ p.2 = none⌝ ∗ owes (V d (cV L) (jV L)) O W') :=
  tile_body_aux d L m hF hpre O W hO

end Body

end Cert.KI

end
-- ==== Proof.ScLaunch.lean ====
/-
  The SparseCore call as the launch reads it. One task on one vector subcore: the call's operands — the index array,
  the table and the 1 × 128 result — go to the task whole and come back whole, the result holding the sum of the 200
  named rows (`scOut`). The task's obligation is the body's proof at the task's coordinates; the split of a call's
  operands among its tasks is the identity.
-/
import proofs.«204126_g14654428414512_cont_week2b_26_29_alg».proof.Proof.Common
import proofs.«204126_g14654428414512_cont_week2b_26_29_alg».proof.Proof.ScBody

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ) (ρ : Dev nD → PrngReg)

/-! ## What the handshakes carry

The one call takes the index array, the table and the 1 × 128 result whole; its one task takes the same and brings them
back, the result holding the sum of the named rows. -/

abbrev stP (d : Dev nD) : sProp 𝕄 := iprop(iPts m d ∗ ePts m d ∗ pPts d (m (pLoc d)))
abbrev dnP (d : Dev nD) : sProp 𝕄 := iprop(iPts m d ∗ ePts m d ∗ pPts d (scOut (m (iLoc d)) (m (eLoc d))))

def P : (K (F := F)).Pay (nD := nD) (Val := Elt F) (Name := ℕ) (U := UU) where
  st := fun q d _ => match q with | 0 => stP m d
  dn := fun q d _ => match q with | 0 => dnP m d
  go := fun q d _ _ => match q with | 0 => stP m d
  td := fun q d _ _ => match q with | 0 => dnP m d
  x := fun _ _ => iprop(emp)

instance P_storable : (P (F := F) m).IsStorable where
  st q d _ := match q with
    | 0 => (inferInstance : BI.Storable (upEmb : UEmb _ 𝕄) (stP m d))
  dn q d _ := match q with
    | 0 => (inferInstance : BI.Storable (upEmb : UEmb _ 𝕄) (dnP m d))
  go q d _ _ := match q with
    | 0 => (inferInstance : BI.Storable (upEmb : UEmb _ 𝕄) (stP m d))
  td q d _ _ := match q with
    | 0 => (inferInstance : BI.Storable (upEmb : UEmb _ 𝕄) (dnP m d))

/-! ## The task's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__embed_sum_body (coordsV c s)
          (Memref.whole main_arg0_scv) (Memref.isWhole_whole _) (Memref.whole main_arg1_scv) (Memref.isWhole_whole _) (Memref.whole main_v0_scv) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## One task: the split is the identity -/

theorem vecSplit : (K (F := F)).VecSplit' (P m) 0 := by
  intro d c
  show stP m d ⊢ |={Set.univ}=> iprop(
      (bigSep Finset.univ fun _ : Fin ((K (F := F)).nSub 0) => stP m d)
      ∗ ((bigSep Finset.univ fun _ : Fin ((K (F := F)).nSub 0) => dnP m d) -∗ dnP m d))
  rw [bigSep_univ_of_subsingleton (0 : Fin 1), bigSep_univ_of_subsingleton (0 : Fin 1)]
  iintro H; imodintro
  isplitl [H]; · iexact H
  iintro H; iexact H

end Cert.KI

end
-- ==== Proof.LaunchSetup.lean ====
/-
  What @main's proof starts from and what its one pipeline region is asked. The pipeline has no prefetched table; its
  staging cells are the launch's to fund, beside the handshakes' rounds; after its one SparseCore call the TensorCore
  owes nothing. The region is entered with four arrays: the row the SparseCore left, the weights, the bias, the result
  array as launched. `RegionStep Pout` states one run of the region: the three inputs come back unchanged and the
  result array at contents of which `Pout` holds.
-/
import proofs.«204126_g14654428414512_cont_week2b_26_29_alg».proof.Proof.Common
import proofs.«204126_g14654428414512_cont_week2b_26_29_alg».proof.Proof.ScLaunch

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ) (ρ : Dev nD → PrngReg)

/-! ## The pipeline as the region rule reads it -/

/-- No pipeline has a prefetched table. -/
abbrev adm : (p : Fin 1) → (pcfgs (F := F) p).Adm := fun p => (cfgs p).toPCfg_adm

abbrev cfgsP : Fin 1 → Pipeline.Cfg sig Λ₀ := Pipeline.pin (pcfgs (F := F)) adm

theorem cellOf_injP : Function.Injective (Pipeline.cellOf (nD := nD) (τ := τ) (cfgsP (F := F))) := launch1.cellOf_inj

/-- After its one call the TensorCore owes the SparseCores nothing more. -/
theorem Otc_one (d : Dev nD) : (K (F := F)).Otc d 1 = 0 := by
  unfold SparseCore.Cfg.Otc
  refine Finset.sum_eq_zero fun q _ => ?_
  rw [if_neg]; have := q.isLt; omega

/-- The four windowed arrays of core `d` at the contents the region is entered with: the row the SparseCore left, the
    weights, the bias and the result array as launched. -/
def Aent (d : Dev nD) : (w : Fin cfg1.W) → Buf (Elt F) ((cfg1.win w).arr.view.loc ((d : Dev nD).tc : Thread nD τ))
  | ⟨0, _⟩ => scOut (m (iLoc d)) (m (eLoc d))
  | ⟨1, _⟩ => m (wLoc d)
  | ⟨2, _⟩ => m (bLoc d)
  | ⟨3, _⟩ => m (oLoc d)

/-! ## The launch element -/

def u₀ : UU := (initOf (K (F := F)).hsCells (K (F := F)).hsToks,
  (initOf (Pipeline.cells (cfgsP (F := F)) cellOf_injP) (Pipeline.launchToks (cfgsP (F := F)) cellOf_injP), 1))

abbrev G0 (d : Dev nD) : sProp 𝕄 := iprop(Pipeline.cellsGhost (cfgsP (F := F)) EP 0 d ∗ Pipeline.toksInit (cfgsP (F := F)) EP 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G0 (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HR⟩
  ihave HR' := (own_pair_emb (embR : Emb (UP × Counters) 𝕄) _ (1 : Counters)) $$ HR
  icases HR' with ⟨HP, -⟩
  ihave HP2 := (Entails.of_eq (show (BI.own (((Emb.inl : Emb UP (UP × Counters)).trans embR) (initOf (Pipeline.cells (cfgsP (F := F)) cellOf_injP) (Pipeline.launchToks (cfgsP (F := F)) cellOf_injP))) : sProp 𝕄)
      = BI.own (EP (initOf (Pipeline.cells (cfgsP (F := F)) cellOf_injP) (Pipeline.launchToks (cfgsP (F := F)) cellOf_injP))) from rfl)) $$ HP
  imod (Pipeline.fund_ghost (cfgsP (F := F)) EP cellOf_injP) $$ HP2 with ⟨Hg, Ht⟩
  imodintro
  isplitl [HH]; · iexact HH
  isplitl [Hg Ht]
  · rw [bigSep_sep']
    isplitl [Hg]
    · iapply (Entails.of_eq (bigSep_congr fun d _ => (bigSep_univ_of_subsingleton (0 : Fin 1) (Φ := fun p => Pipeline.cellsGhost (cfgsP (F := F)) EP p d)))); iexact Hg
    · iapply (Entails.of_eq (bigSep_congr fun d _ => (bigSep_univ_of_subsingleton (0 : Fin 1) (Φ := fun p => Pipeline.toksInit (cfgsP (F := F)) EP p d)))); iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (eLoc d ↦{fullShare} W main_arg1) ∗ (wLoc d ↦{fullShare} W main_arg2)
      ∗ (bLoc d ↦{fullShare} W main_arg3) ∗ (pLoc d ↦{fullShare} W main_v0) ∗ oLoc d ↦{fullShare} W main_v1) := by
  unfold unscopedBufs
  rw [show (Finset.univ.filter fun b : Ref sig .tc => ¬ b.isScoped) = {main_arg0, main_arg1, main_arg2, main_arg3, main_v0, main_v1} by decide,
    SparseCore.bigSep_insert' (by decide), SparseCore.bigSep_insert' (by decide), SparseCore.bigSep_insert' (by decide),
    SparseCore.bigSep_insert' (by decide), SparseCore.bigSep_insert' (by decide), bigSep_singleton]

theorem st0_eq (d : Dev nD) : (bigSep Finset.univ fun c : Fin ((K (F := F)).nCore 0) => (P m).st 0 d c) = stP m d :=
  bigSep_univ_of_subsingleton (0 : Fin 1)
theorem dn0_eq (d : Dev nD) : (bigSep Finset.univ fun c : Fin ((K (F := F)).nCore 0) => (P m).dn 0 d c) = dnP m d :=
  bigSep_univ_of_subsingleton (0 : Fin 1)

/-- The region's four arrays, whole at the full share. -/
abbrev arrPts (d : Dev nD) (f : (w : Fin cfg1.W) → Buf (Elt F) ((cfg1.win w).arr.view.loc ((d : Dev nD).tc : Thread nD τ))) : sProp 𝕄 :=
  iprop((pLoc d ↦{fullShare} f 0) ∗ (wLoc d ↦{fullShare} f 1) ∗ (bLoc d ↦{fullShare} f 2) ∗ (oLoc d ↦{fullShare} f 3))

omit [FloatOps F] in
theorem bigSep_fin0 (Φ : Fin 0 → sProp 𝕄) : bigSep Finset.univ Φ = (BI.emp : sProp 𝕄) :=
  bigSep_univ_eq_bigSepL [] (by decide) (by decide) Φ

/-- What the TensorCore thread holds of the region's concern at its entry: the four arrays at their entry contents, and
    that it owes nothing. -/
abbrev preR (d : Dev nD) : sProp 𝕄 := iprop(arrPts d (Aent m d) ∗ ∃ W, owes ((d : Dev nD).tc : Thread nD τ) (0 : CellTallies nD τ sig (HIx 1)) W)

/-- One step of @main: the TensorCore pipeline's region, from the four arrays at their entry contents, the thread owing
    nothing, the level facts and the pipeline's ghost state, to the continuation from the three input arrays unchanged
    and the result array at contents of which `Pout` holds. -/
def RegionStep (Pout : (d : Dev nD) → Buf (Elt F) (oLoc d) → Prop) : Prop :=
  ∀ (d : Dev nD) (k : PUnit → Prog (TpuEff nD τ sig (Elt F) (ΛP (F := F)) .tc) PUnit) (Q : PUnit → sProp 𝕄),
    iprop((iprop(boundary (SparseCore.T d) ∗ (pLoc d ↦{fullShare} Aent m d 0) ∗ (wLoc d ↦{fullShare} m (wLoc d)) ∗ (bLoc d ↦{fullShare} m (bLoc d))
              ∗ (∃ f, ⌜Pout d f⌝ ∗ oLoc d ↦{fullShare} f) ∗ ∃ W, owes (SparseCore.T d) (0 : CellTallies nD τ sig (HIx 1)) W)
            -∗ wp frame (wpE (D (F := F)) 𝒱 (SparseCore.T d) none) Set.univ (k ⟨⟩) Q)
        ∗ boundary (SparseCore.T d) ∗ preR m d ∗ levAts (K (F := F)).L (K (F := F)).lev ∗ G0 (F := F) d)
      ⊢ wp frame (wpE (D (F := F)) 𝒱 (SparseCore.T d) none) Set.univ (.op (.customCall (Pipeline.entry 0) ()) k) Q

end Cert.KI

end
-- ==== Proof.Main.lean ====
/-
  @main on the TensorCore and the whole program's run: the SparseCore call hands the index array, the table and the
  result row over and gets them back; the pipeline's region then runs from the row that came back; at the end every
  argument array holds what it held at launch and the result array satisfies `Pout`. With one call every recorded
  wait sits below level 8, so the thread state after the region is again the handshake state the launch expects.
-/
import proofs.«204126_g14654428414512_cont_week2b_26_29_alg».proof.Proof.Common
import proofs.«204126_g14654428414512_cont_week2b_26_29_alg».proof.Proof.LaunchSetup

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ) (ρ : Dev nD → PrngReg)
variable (Pout : (d : Dev nD) → Buf (Elt F) (oLoc d) → Prop)

/-! ## @main on the TensorCore: the SparseCore call, then the pipeline's region -/

/-- What @main ends holding: every argument array as launched, the row the SparseCore left, the result array at
    contents of which `Pout` holds. -/
abbrev FIN (d : Dev nD) : sProp 𝕄 :=
  iprop((iLoc d ↦{fullShare} m (iLoc d)) ∗ (eLoc d ↦{fullShare} m (eLoc d)) ∗ (wLoc d ↦{fullShare} m (wLoc d)) ∗ (bLoc d ↦{fullShare} m (bLoc d))
    ∗ ∃ f, ⌜Pout d f⌝ ∗ oLoc d ↦{fullShare} f)

/-- With one call, every recorded pair sits below level 8. -/
theorem wbelow_any (d : Dev nD) (W : Waits sig (HIx 1)) : (K (F := F)).WBelow (SparseCore.T d) W (8 * 1) := fun p _ => by
  rcases p with ⟨s, _ | q⟩
  · show (K (F := F)).lev _ none ≤ _; rw [SparseCore.Cfg.lev_none]; omega
  · have h := (K (F := F)).lev_some_le (SparseCore.T d, s) q
    have hq : q.val = 0 := by have := q.isLt; omega
    exact h.trans (by omega)

/-- What the region leaves the thread. -/
abbrev postS (d : Dev nD) : sProp 𝕄 :=
  iprop(boundary (SparseCore.T d) ∗ (pLoc d ↦{fullShare} Aent m d 0) ∗ (wLoc d ↦{fullShare} m (wLoc d)) ∗ (bLoc d ↦{fullShare} m (bLoc d))
    ∗ (∃ f, ⌜Pout d f⌝ ∗ oLoc d ↦{fullShare} f) ∗ ∃ W, owes (SparseCore.T d) (0 : CellTallies nD τ sig (HIx 1)) W)

/-- The region in the program's own spelling: the call of the pipeline's entry through the SparseCore program's labels. -/
theorem region_lifted (hstep : RegionStep m Pout) (d : Dev nD) (Q : PUnit → sProp 𝕄) :
    iprop((iprop(boundary (SparseCore.T d) ∗ (pLoc d ↦{fullShare} Aent m d 0) ∗ (wLoc d ↦{fullShare} m (wLoc d)) ∗ (bLoc d ↦{fullShare} m (bLoc d))
              ∗ (∃ f, ⌜Pout d f⌝ ∗ oLoc d ↦{fullShare} f) ∗ ∃ W, owes (SparseCore.T d) (0 : CellTallies nD τ sig (HIx 1)) W) -∗ Q ⟨⟩)
        ∗ boundary (SparseCore.T d) ∗ preR m d ∗ levAts (K (F := F)).L (K (F := F)).lev ∗ G0 (F := F) d)
      ⊢ wp frame (wpE ((K (F := F)).defs (D (F := F))) 𝒱 (SparseCore.T d) none) Set.univ
          (Prog.lift (TpuEff.customCall (SparseCore.inner (Pipeline.entry (0 : Fin 1))) ())) Q := by
  have h1 := (K (F := F)).wp_liftProg (D (F := F)) 𝒱 (SparseCore.T d) (Set.univ : Set ℕ) none
    (Prog.op (TpuEff.customCall (Pipeline.entry (0 : Fin 1)) ()) fun x => Prog.ret x) Q
  have h2 := hstep d (fun x => Prog.ret x) Q
  have h3 : iprop((postS m Pout d -∗ Q ⟨⟩)
        ∗ boundary (SparseCore.T d) ∗ preR m d ∗ levAts (K (F := F)).L (K (F := F)).lev ∗ G0 (F := F) d)
      ⊢ iprop((postS m Pout d -∗ wp frame (wpE (D (F := F)) 𝒱 (SparseCore.T d) none) Set.univ (Prog.ret PUnit.unit) Q)
        ∗ boundary (SparseCore.T d) ∗ preR m d ∗ levAts (K (F := F)).L (K (F := F)).lev ∗ G0 (F := F) d) := by
    iintro ⟨Hk, Hrest⟩
    isplitl [Hk]
    · iintro H
      rw [wp_ret]; imodintro
      iapply Hk; iexact H
    iexact Hrest
  exact h3.trans (h2.trans h1)

/-- The TensorCore's handshake state but what it owes. -/
def tcTail (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) :
    (K (F := F)).tcSt EH d n = iprop((∃ W, ⌜(K (F := F)).WBelow (SparseCore.T d) W (8 * n)⌝ ∗ owes (SparseCore.T d) ((K (F := F)).Otc d n) W) ∗ tcTail (F := F) d n) := rfl

set_option maxRecDepth 16384 in
theorem hmain (hstep : RegionStep m Pout) (κ : GSem nD τ sig → ℕ) (d : Dev nD) :
    iprop((K (F := F)).ctx EH (P m) κ ∗ (K (F := F)).tcSt EH d 0 ∗ (K (F := F)).tcRes m ρ d ∗ G0 (F := F) d)
      ⊢ wp frame (wpE ((K (F := F)).defs (D (F := F))) 𝒱 (SparseCore.T d) none) Set.univ (main d)
          fun _ => iprop((K (F := F)).tcSt EH d 1 ∗ FIN m Pout d) := by
  unfold SparseCore.Cfg.tcRes
  rw [unscopedBufs_eq]
  simp only [main, wp_bind, wp_pure]
  iintro ⟨#Hctx, Hst, ⟨Hb, ⟨Hi, He, Hw, Hbi, Hp, Ho⟩, -, -⟩, Hg⟩
  iapply ((K (F := F)).wp_run (D (F := F)) 𝒱 (EH := EH) (P := P m) κ d 0) $$ [Hst Hi He Hp Hb Hw Hbi Ho Hg]
  isplitr; · iexact Hctx
  isplitl [Hst]; · iexact Hst
  isplitl [Hi He Hp]
  · rw [st0_eq]
    isplitl [Hi]; · iexact Hi
    isplitl [He]; · iexact He
    iexact Hp
  iintro ⟨Hst, Hdn⟩
  ihave Hdn' := (Entails.of_eq (dn0_eq m d)) $$ Hdn
  icases Hdn' with ⟨Hi, He, Hp⟩
  ihave Hlev := (SparseCore.Cfg.ctx_levAts κ) $$ Hctx
  ihave Hst' := (Entails.of_eq (tcSt_eq (F := F) d ((0 : Fin 1).val + 1))) $$ Hst
  icases Hst' with ⟨⟨%W, -, HO⟩, Hrest⟩
  ihave HO' := (Entails.of_eq (congrArg (fun O => (owes (SparseCore.T d) O W : sProp 𝕄)) (show (K (F := F)).Otc d ((0 : Fin 1).val + 1) = 0 from Otc_one (F := F) d))) $$ HO
  iapply (region_lifted m Pout hstep d _) $$ [Hb Hw Hbi Ho Hg Hp HO' Hlev Hi He Hrest]
  isplitl [Hi He Hrest]
  · iintro ⟨Hb, Hp, Hw, Hbi, Ho, %W', HO⟩
    imodintro
    isplitl [Hrest HO]
    · iapply (Entails.of_eq (tcSt_eq (F := F) d 1).symm)
      isplitl [HO]
      · iexists W'; isplitr; · ipureintro; exact wbelow_any d W'
        iapply (Entails.of_eq (congrArg (fun O => (owes (SparseCore.T d) O W' : sProp 𝕄)) (Otc_one (F := F) d).symm)); iexact HO
      iexact Hrest
    isplitl [Hi]; · iexact Hi
    isplitl [He]; · iexact He
    isplitl [Hw]; · iexact Hw
    isplitl [Hbi]; · iexact Hbi
    iexact Ho
  isplitl [Hb]; · iexact Hb
  isplitl [Hp Hw Hbi Ho HO']
  · isplitl [Hp Hw Hbi Ho]
    · isplitl [Hp]; · iexact Hp
      isplitl [Hw]; · iexact Hw
      isplitl [Hbi]; · iexact Hbi
      iexact Ho
    iexists W; iexact HO'
  isplitl [Hlev]; · iexact Hlev
  iexact Hg

/-! ## The final memory, and the run -/

/-- What a final state's memory holds on device `d`. -/
def fq (d : Dev nD) (s' : Phys nD τ sig (Elt F)) : Prop :=
  s'.mem.mem (iLoc d) = m (iLoc d) ∧ s'.mem.mem (eLoc d) = m (eLoc d) ∧ s'.mem.mem (wLoc d) = m (wLoc d) ∧ s'.mem.mem (bLoc d) = m (bLoc d)
    ∧ Pout d (s'.mem.mem (oLoc d))

set_option maxRecDepth 16384 in
theorem hfin (d : Dev nD) (s' : Phys nD τ sig (Elt F)) : iprop(FIN m Pout d ∗ SI s') ⊢ (⌜fq m Pout d s'⌝ : sProp 𝕄) := by
  iintro ⟨⟨Hi, He, Hw, Hb, %f, %hf, Ho⟩, HSI⟩
  icombine HSI Hi gives %hi
  icombine HSI He gives %he
  icombine HSI Hw gives %hw
  icombine HSI Hb gives %hb
  icombine HSI Ho gives %ho
  ipureintro
  refine ⟨Buf.eq_of_forall_mem_univ hi, Buf.eq_of_forall_mem_univ he, Buf.eq_of_forall_mem_univ hw, Buf.eq_of_forall_mem_univ hb, ?_⟩
  rw [show s'.mem.mem (oLoc d) = f from Buf.eq_of_forall_mem_univ ho]; exact hf

def QC : PUnit × MemSt nD τ sig (Elt F) → Prop := fun r => ∀ c : Dev nD,
  r.2.mem (iLoc c) = m (iLoc c) ∧ r.2.mem (eLoc c) = m (eLoc c) ∧ r.2.mem (wLoc c) = m (wLoc c) ∧ r.2.mem (bLoc c) = m (bLoc c) ∧ Pout c (r.2.mem (oLoc c))

/-- The program's run: from any memory whose index words name rows of the table, every weakly fair execution of all the
    threads terminates, the four argument arrays end as launched and `Pout` holds of the result array. -/
theorem run_main [∀ e, Nonempty (Elt F e)] (hstep : RegionStep m Pout) (hpre : PreOK m) :
    θ_run (Cert.KernelIdeal.defs (F := F)) (Cert.KernelIdeal.threads (F := F)) ⟨m, fun _ => 0, ρ⟩ (QC m Pout) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun d => G0 (F := F) d) (FIN m Pout) (u₀ (F := F)) (sep_elim_left.trans (hu₀ m)) (hmain m ρ Pout hstep) (fq m Pout) (hfin m Pout) (QC m Pout) (fun _ h => h)

end Cert.KI

end
-- ==== Proof.TcData.lean ====
import proofs.«204126_g14654428414512_cont_week2b_26_29_alg».proof.Proof.Common

noncomputable section

namespace Cert.TcSide

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F] {Ix : Type} [DecidableEq Ix] {Name : Type} [DecidableEq Name] {U : Type} [URA U] {Lvl : Type}

/-- The kernel body's result as one function of what the three input staging buffers hold: the 1 × 128 row
    multiplied into the 16384 × 128 block, contracting the 128 axis, onto a zero accumulator, plus the 16384
    bias entries read as a 1 × 16384 row. -/
def bodyOut (X0 : Vec F S1x128 .f32) (X1 : Vec F S16384x128 .f32) (X2 : Vec F S16384 .f32) : Vec F S1x16384 .f32 :=
  k1_pay1 X0 X1 X2

theorem bodyOut_eq (X0 : Vec F S1x128 .f32) (X1 : Vec F S16384x128 .f32) (X2 : Vec F S16384 .f32) :
    bodyOut X0 X1 X2 = addf (matmul dot_S1x128_S16384x128_S1x16384_1_1_0_0_n_n none (shapeCast S1x128 X0 shapeCasts_S1x128_S1x128) X1
        (constant S1x16384 .f32 0x00000000#32)) (shapeCast S1x16384 X2 shapeCasts_S16384_S1x16384) := rfl

/-- The filler word for the part of a staging buffer past the array's end. -/
def zw : Elt F .f32 := Scalar.ofBits .f32 0#32

/-- The row operand's block at point `t` (always the whole 1 × 128 array), -/
def pblk (c : Dev nD) (p : Buf (Elt F) ((cfg1.win 0).arr.view.loc (c.tc : Thread nD τ))) (t : Fin cfg1.N) : S1x128.Idx → Elt F .f32 :=
  win1_0.fill (grid1.coords t) (fun _ => zw) ((win1_0.blk t).view.read (Elt F) p)
/-- the weights' block at point `t` (rows 16384 t …, those inside the array, zero past its end), -/
def wblk (c : Dev nD) (W : Buf (Elt F) ((cfg1.win 1).arr.view.loc (c.tc : Thread nD τ))) (t : Fin cfg1.N) : S16384x128.Idx → Elt F .f32 :=
  win1_1.fill (grid1.coords t) (fun _ => zw) ((win1_1.blk t).view.read (Elt F) W)
/-- the bias's block at point `t` likewise, -/
def bblk (c : Dev nD) (b : Buf (Elt F) ((cfg1.win 2).arr.view.loc (c.tc : Thread nD τ))) (t : Fin cfg1.N) : S16384.Idx → Elt F .f32 :=
  win1_2.fill (grid1.coords t) (fun _ => zw) ((win1_2.blk t).view.read (Elt F) b)
/-- and what the body makes of the three. -/
def oblk (c : Dev nD) (p : Buf (Elt F) ((cfg1.win 0).arr.view.loc (c.tc : Thread nD τ))) (W : Buf (Elt F) ((cfg1.win 1).arr.view.loc (c.tc : Thread nD τ)))
    (b : Buf (Elt F) ((cfg1.win 2).arr.view.loc (c.tc : Thread nD τ))) (t : Fin cfg1.N) : S1x16384.Idx → Elt F .f32 :=
  bodyOut (pblk c p t) (wblk c W t) (bblk c b t)

/-- The pipeline's proof data on core `c`: the four windowed arrays at their region-entry contents `A`; after the
    body the input staging buffers at their blocks and the result's at the body's result of them; no invariant;
    full shares; the core owing the same tallies `O` before every point. -/
def dats (c : Dev nD) (A : (w : Fin cfg1.W) → Buf (Elt F) ((cfg1.win w).arr.view.loc (c.tc : Thread nD τ))) (O : CellTallies nD τ sig Ix) :
    Dat τ (Elt F) Ix Name U Lvl cfg1 c where
  A := A
  after w t := match w with
    | ⟨0, _⟩ => pblk c (A 0) t
    | ⟨1, _⟩ => wblk c (A 1) t
    | ⟨2, _⟩ => bblk c (A 2) t
    | ⟨3, _⟩ => oblk c (A 0) (A 1) (A 2) t
  Φ _ := iprop(emp)
  q _ := fullShare
  owed _ := O

theorem dats_A (c : Dev nD) (A) (O : CellTallies nD τ sig Ix) : (dats (F := F) (Name := Name) (U := U) (Lvl := Lvl) c A O).A = A := rfl
theorem dats_Φ (c : Dev nD) (A) (O : CellTallies nD τ sig Ix) : (dats (F := F) (Name := Name) (U := U) (Lvl := Lvl) c A O).Φ = fun _ => iprop(emp) := rfl
theorem dats_q (c : Dev nD) (A) (O : CellTallies nD τ sig Ix) : (dats (F := F) (Name := Name) (U := U) (Lvl := Lvl) c A O).q = fun _ => fullShare := rfl
theorem dats_owed (c : Dev nD) (A) (O : CellTallies nD τ sig Ix) : (dats (F := F) (Name := Name) (U := U) (Lvl := Lvl) c A O).owed = fun _ => O := rfl

/-- What the float instance must grant for the result's write-back at a clipped point to be determined by the arrays:
    the entries of the body's result inside the array do not depend on what the weights' and the bias's staging
    buffers hold past the arrays' end. -/
def RowLocal (F : FTy → Type) [FloatOps F] : Prop :=
  ∀ (i : grid1.Coords) (X0 : Vec F S1x128 .f32) (X1 X1' : Vec F S16384x128 .f32) (X2 X2' : Vec F S16384 .f32),
    win1_1.cut i X1 = win1_1.cut i X1' → win1_2.cut i X2 = win1_2.cut i X2' →
    win1_3.cut i (bodyOut X0 X1 X2) = win1_3.cut i (bodyOut X0 X1' X2')

/-- The result array after the last write-back, as one function of the three inputs' contents and its own entry
    contents: the seven blocks of the body's results written in point order, each cut at the array's end. -/
def tcOut (c : Dev nD) (p : Buf (Elt F) ((cfg1.win 0).arr.view.loc (c.tc : Thread nD τ))) (W : Buf (Elt F) ((cfg1.win 1).arr.view.loc (c.tc : Thread nD τ)))
    (b : Buf (Elt F) ((cfg1.win 2).arr.view.loc (c.tc : Thread nD τ))) (o₀ : Buf (Elt F) ((cfg1.win 3).arr.view.loc (c.tc : Thread nD τ))) :
    Buf (Elt F) ((cfg1.win 3).arr.view.loc (c.tc : Thread nD τ)) :=
  (win1_3.blk t1_6).view.write (Elt F)
   ((win1_3.blk t1_5).view.write (Elt F)
    ((win1_3.blk t1_4).view.write (Elt F)
     ((win1_3.blk t1_3).view.write (Elt F)
      ((win1_3.blk t1_2).view.write (Elt F)
       ((win1_3.blk t1_1).view.write (Elt F)
        ((win1_3.blk t1_0).view.write (Elt F) o₀
          (win1_3.cut (grid1.coords t1_0) (oblk c p W b t1_0)) Finset.univ)
         (win1_3.cut (grid1.coords t1_1) (oblk c p W b t1_1)) Finset.univ)
        (win1_3.cut (grid1.coords t1_2) (oblk c p W b t1_2)) Finset.univ)
       (win1_3.cut (grid1.coords t1_3) (oblk c p W b t1_3)) Finset.univ)
      (win1_3.cut (grid1.coords t1_4) (oblk c p W b t1_4)) Finset.univ)
     (win1_3.cut (grid1.coords t1_5) (oblk c p W b t1_5)) Finset.univ)
    (win1_3.cut (grid1.coords t1_6) (oblk c p W b t1_6)) Finset.univ

end Cert.TcSide

end
-- ==== Proof.TcBody.lean ====
import proofs.«204126_g14654428414512_cont_week2b_26_29_alg».proof.Proof.TcData

noncomputable section

namespace Cert.TcSide

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F] {Ix : Type} [DecidableEq Ix] {Name : Type} [DecidableEq Name] {U : Type} [URA U] {Lvl : Type}

local notation "𝕄" => MT nD τ sig Ix (Elt F) Name U Lvl

theorem hz2 : (![0, 0] : Fin 2 → Nat) = fun _ => 0 := funext fun a => by fin_cases a <;> rfl
theorem hz1 : (![0] : Fin 1 → Nat) = fun _ => 0 := funext fun a => by fin_cases a; rfl

set_option hygiene false in
/-- One case of `sound_body`: the four staging memrefs are the whole buffers named. -/
local macro "tc_body_case" b0:ident b1:ident b2:ident b3:ident : tactic => `(tactic| (
    have hr0 : (Memref.whole $b0 : Memref sig .tc _ _ _).view.readAt (Elt F) (Rect.unit (s := S1x128) ![0, 0] S1x128.size
        inb_S1x128_S1x128_0_0).toLoadRect = id := funext (Memref.readAt_unit_zero (Elt F) $b0 hz2 _)
    have hr1 : (Memref.whole $b1 : Memref sig .tc _ _ _).view.readAt (Elt F) (Rect.unit (s := S16384x128) ![0, 0] S16384x128.size
        inb_S16384x128_S16384x128_0_0).toLoadRect = id := funext (Memref.readAt_unit_zero (Elt F) $b1 hz2 _)
    have hr2 : (Memref.whole $b2 : Memref sig .tc _ _ _).view.readAt (Elt F) (Rect.unit (s := S16384) ![0] S16384.size
        inb_S16384_S16384_0).toLoadRect = id := funext (Memref.readAt_unit_zero (Elt F) $b2 hz1 _)
    have hw3 : ∀ f w, (((Memref.whole $b3).access (Rect.unit (s := S1x16384) ![0, 0] S1x16384.size inb_S1x16384_S1x16384_0_0)) :
        View sig .tc _ _ _).write (Elt F) f w Finset.univ = w := Memref.write_access_unit_zero_univ (Elt F) $b3 hz2 _
    simp only [owns_whole_eq, cc1__matvec_body_eq_skeleton]; unfold cc1__matvec_body_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists bodyOut f0 f1 f2; isplitr; · ipureintro; rw [hf0, hf1, hf2]
      iexact H3))

set_option maxHeartbeats 1600000 in
/-- The kernel body on staging buffers `s0` of the row's window (its one), `s1` of the weights', `s2` of the bias's and
    `s3` of the result's: the three whole loads, the product and the sum, the dead load of the result's buffer, the
    whole store — the result's buffer ends holding `bodyOut` of what the other three hold, those unchanged. -/
theorem sound_body [Preorder Lvl] (c : Dev nD) (E : Set Name) (i : grid1.Coords) (s0 : Fin 1) (s1 s2 s3 : Fin 2)
    (X0 : S1x128.Idx → Elt F .f32) (X1 : S16384x128.Idx → Elt F .f32) (X2 : S16384.Idx → Elt F .f32) (X3 : S1x16384.Idx → Elt F .f32)
    (K : PUnit → sProp 𝕄) :
    iprop((owns (c.tc : Thread nD τ) (stage1_0 s0) fullShare X0 ∗ owns (c.tc : Thread nD τ) (stage1_1 s1) fullShare X1
            ∗ owns (c.tc : Thread nD τ) (stage1_2 s2) fullShare X2 ∗ owns (c.tc : Thread nD τ) (stage1_3 s3) fullShare X3)
          ∗ (iprop(owns (c.tc : Thread nD τ) (stage1_0 s0) fullShare X0 ∗ owns (c.tc : Thread nD τ) (stage1_1 s1) fullShare X1
                  ∗ owns (c.tc : Thread nD τ) (stage1_2 s2) fullShare X2 ∗ owns (c.tc : Thread nD τ) (stage1_3 s3) fullShare (bodyOut X0 X1 X2)) -∗ K ⟨⟩))
      ⊢ wp frame (wpE (defs₀ (F := F)) Variants.none c none) E
          (cc1__matvec_body i (stage1_0 s0) (hstage1_0 s0) (stage1_1 s1) (hstage1_1 s1) (stage1_2 s2) (hstage1_2 s2) (stage1_3 s3) (hstage1_3 s3)) K := by
  fin_cases s0 <;> fin_cases s1 <;> fin_cases s2 <;> fin_cases s3
  · tc_body_case cc1_stg0_0 cc1_stg1_0 cc1_stg2_0 cc1_stg3_0
  · tc_body_case cc1_stg0_0 cc1_stg1_0 cc1_stg2_0 cc1_stg3_1
  · tc_body_case cc1_stg0_0 cc1_stg1_0 cc1_stg2_1 cc1_stg3_0
  · tc_body_case cc1_stg0_0 cc1_stg1_0 cc1_stg2_1 cc1_stg3_1
  · tc_body_case cc1_stg0_0 cc1_stg1_1 cc1_stg2_0 cc1_stg3_0
  · tc_body_case cc1_stg0_0 cc1_stg1_1 cc1_stg2_0 cc1_stg3_1
  · tc_body_case cc1_stg0_0 cc1_stg1_1 cc1_stg2_1 cc1_stg3_0
  · tc_body_case cc1_stg0_0 cc1_stg1_1 cc1_stg2_1 cc1_stg3_1

end Cert.TcSide

end
-- ==== Proof.TcOblig.lean ====
import proofs.«204126_g14654428414512_cont_week2b_26_29_alg».proof.Proof.TcBody

noncomputable section

namespace Cert.TcSide

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F] {Ix : Type} [DecidableEq Ix] {Name : Type} [DecidableEq Name] {U : Type} [URA U] {Lvl : Type}

local notation "𝕄" => MT nD τ sig Ix (Elt F) Name U Lvl

variable (c : Dev nD) (A : (w : Fin cfg1.W) → Buf (Elt F) ((cfg1.win w).arr.view.loc (c.tc : Thread nD τ))) (O : CellTallies nD τ sig Ix)

/-- The result's window is never fetched; the inputs' never written back. -/
theorem fetch_3 (t : Fin cfg1.N) : (cfg1.win 3).fetch t = false := rfl
theorem flush_0 (t : Fin cfg1.N) : (cfg1.win 0).flush t = false := rfl

/-- What the body finds: the weights' and the bias's buffers just fetched — the block on the part inside the array, `d`
    elsewhere —, -/
theorem before_1 (t : Fin cfg1.N) (d) :
    (dats (Name := Name) (U := U) (Lvl := Lvl) c A O).before (1 : Fin 4) t d = win1_1.fill (grid1.coords t) d ((win1_1.blk t).view.read (Elt F) (A 1)) := by
  unfold Dat.before; rw [if_pos (fetch1_1 t)]; rfl
theorem before_2 (t : Fin cfg1.N) (d) :
    (dats (Name := Name) (U := U) (Lvl := Lvl) c A O).before (2 : Fin 4) t d = win1_2.fill (grid1.coords t) d ((win1_2.blk t).view.read (Elt F) (A 2)) := by
  unfold Dat.before; rw [if_pos (fetch1_2 t)]; rfl
/-- the result's buffer at contents nothing names, -/
theorem before_3 (t : Fin cfg1.N) (d) : (dats (Name := Name) (U := U) (Lvl := Lvl) c A O).before (3 : Fin 4) t d = d := by
  unfold Dat.before
  rw [if_neg (by rw [fetch_3 t]; exact Bool.false_ne_true)]
  by_cases h0 : t.val = 0
  · rw [if_pos h0]
  · rw [if_neg h0]; exact if_pos (flush1_3 _)

/-- The row's block is the whole array at every point: one block index, no cut. -/
theorem pblk_congr (p : Buf (Elt F) ((cfg1.win 0).arr.view.loc (c.tc : Thread nD τ))) (t t' : Fin cfg1.N) : pblk c p t = pblk c p t' := rfl

/-- and the row's buffer at the whole row: fetched at the first point, kept since. -/
theorem before_0 (t : Fin cfg1.N) (d) : (dats (Name := Name) (U := U) (Lvl := Lvl) c A O).before (0 : Fin 4) t d = pblk c (A 0) t := by
  by_cases h0 : t.val = 0
  · unfold Dat.before
    rw [if_pos ((fetch1_0 t).mpr (by rw [h0]))]
    exact (dats (Name := Name) (U := U) (Lvl := Lvl) c A O).fetched_of_clip_none (0 : Fin 4) t (fun _ => rfl) d _
  · have hf : (cfg1.win 0).fetch t = false := by
      have h := fetch1_0 t
      have hlt : t.val < 7 := t.isLt
      cases hb : (cfg1.win 0).fetch t
      · rfl
      · exfalso; have := h.mp hb; omega
    rw [(dats (Name := Name) (U := U) (Lvl := Lvl) c A O).before_of_pos (0 : Fin 4) t h0 hf d, flush_0, if_neg Bool.false_ne_true]
    unfold Dat.left Dat.kept
    dsimp only [dats]
    funext j
    have hm : (win1 0).moved (grid1.coords ⟨t.val - 1, Nat.lt_of_le_of_lt (Nat.sub_le _ _) t.isLt⟩) j = true :=
      ((win1 0).moved_iff _ j).mpr fun a => (j a).isLt
    unfold Window.fill; rw [dif_pos hm]
    exact congrFun (pblk_congr c (A 0) _ t) j

/-- The library's body obligation, from `sound_body` at the point's staging buffers: the row's buffer arrives holding
    the row, the weights' and the bias's their blocks filled out with anything past the arrays' end, the result's
    anything; the inputs' leave as they came and the result's holding the body's result of them, which on the part
    inside the array is the result of the zero-filled blocks when that part does not depend on the filling. -/
theorem body_obligation [Preorder Lvl] (hloc : RowLocal F) (ι : Ix) :
    BodyObligationLoose (dats (Name := Name) (U := U) (Lvl := Lvl) c A O) (defs₀ (F := F)) Variants.none ι Set.univ := fun t => by
  rw [bigSep_W1, bigSep_W1]
  simp only
  rw [show (dats (Name := Name) (U := U) (Lvl := Lvl) c A O).Φ t.succ = (dats (Name := Name) (U := U) (Lvl := Lvl) c A O).Φ t.castSucc from rfl,
    show (dats (Name := Name) (U := U) (Lvl := Lvl) c A O).owesAt ι t.succ = (dats (Name := Name) (U := U) (Lvl := Lvl) c A O).owesAt ι t.castSucc from rfl]
  iintro ⟨HΦ, Ho, ⟨%d0, H0⟩, ⟨%d1, H1⟩, ⟨%d2, H2⟩, ⟨%d3, H3⟩⟩
  rw [before_0 c A O t d0, before_1 c A O t d1, before_2 c A O t d2, before_3 c A O t d3]
  iapply (sound_body (F := F) c Set.univ (grid1.coords t) (cfg1.slots t 0) (cfg1.slots t 1) (cfg1.slots t 2) (cfg1.slots t 3)
    (pblk c (A 0) t) (win1_1.fill (grid1.coords t) d1 ((win1_1.blk t).view.read (Elt F) (A 1)))
    (win1_2.fill (grid1.coords t) d2 ((win1_2.blk t).view.read (Elt F) (A 2))) d3 _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  have h1 : (win1 1).cut (grid1.coords t) (wblk c (A 1) t) = (win1_1.blk t).view.read (Elt F) (A 1) := win1_1.cut_fill _ _ _
  have h2 : (win1 2).cut (grid1.coords t) (bblk c (A 2) t) = (win1_2.blk t).view.read (Elt F) (A 2) := win1_2.cut_fill _ _ _
  have h3 : (win1 3).cut (grid1.coords t) (bodyOut (pblk c (A 0) t) (win1_1.fill (grid1.coords t) d1 ((win1_1.blk t).view.read (Elt F) (A 1)))
        (win1_2.fill (grid1.coords t) d2 ((win1_2.blk t).view.read (Elt F) (A 2))))
      = (win1 3).cut (grid1.coords t) (oblk c (A 0) (A 1) (A 2) t) :=
    hloc (grid1.coords t) _ _ _ _ _ ((win1_1.cut_fill _ _ _).trans h1.symm) ((win1_2.cut_fill _ _ _).trans h2.symm)
  dsimp only [dats]
  isplitl [H0]
  · iexact H0
  isplitl [H1]
  · iexists d1; rw [h1]; iexact H1
  isplitl [H2]
  · iexists d2; rw [h2]; iexact H2
  · iexists bodyOut (pblk c (A 0) t) (win1_1.fill (grid1.coords t) d1 ((win1_1.blk t).view.read (Elt F) (A 1)))
        (win1_2.fill (grid1.coords t) d2 ((win1_2.blk t).view.read (Elt F) (A 2)))
    rw [(win1 3).fill_congr_cut _ h3]; iexact H3

/-- The mask that forgets the result's window and no other. -/
def fgt3 : Fin cfg1.W → Bool
  | 0 => false | 1 => false | 2 => false | 3 => true

theorem fgt3_0 : fgt3 0 = false := rfl
theorem fgt3_1 : fgt3 1 = false := rfl
theorem fgt3_2 : fgt3 2 = false := rfl
theorem fgt3_3 : fgt3 3 = true := rfl

/-- The body obligation with the result's window forgotten — its buffer handed over and taken back at contents nothing
    names —, for any float instance: the inputs' buffers as in `body_obligation`. -/
theorem body_obligation_forget [Preorder Lvl] (ι : Ix) :
    BodyObligationLoose (dats (Name := Name) (U := U) (Lvl := Lvl) c A O) (defs₀ (F := F)) Variants.none ι Set.univ fgt3 := fun t => by
  rw [bigSep_W1, bigSep_W1]
  simp only [fgt3_0, fgt3_1, fgt3_2, fgt3_3]
  rw [show (dats (Name := Name) (U := U) (Lvl := Lvl) c A O).Φ t.succ = (dats (Name := Name) (U := U) (Lvl := Lvl) c A O).Φ t.castSucc from rfl,
    show (dats (Name := Name) (U := U) (Lvl := Lvl) c A O).owesAt ι t.succ = (dats (Name := Name) (U := U) (Lvl := Lvl) c A O).owesAt ι t.castSucc from rfl]
  iintro ⟨HΦ, Ho, ⟨%d0, H0⟩, ⟨%d1, H1⟩, ⟨%d2, H2⟩, ⟨%d3, H3⟩⟩
  rw [before_0 c A O t d0, before_1 c A O t d1, before_2 c A O t d2]
  iapply (sound_body (F := F) c Set.univ (grid1.coords t) (cfg1.slots t 0) (cfg1.slots t 1) (cfg1.slots t 2) (cfg1.slots t 3)
    (pblk c (A 0) t) (win1_1.fill (grid1.coords t) d1 ((win1_1.blk t).view.read (Elt F) (A 1)))
    (win1_2.fill (grid1.coords t) d2 ((win1_2.blk t).view.read (Elt F) (A 2))) d3 _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  have h1 : (win1 1).cut (grid1.coords t) (wblk c (A 1) t) = (win1_1.blk t).view.read (Elt F) (A 1) := win1_1.cut_fill _ _ _
  have h2 : (win1 2).cut (grid1.coords t) (bblk c (A 2) t) = (win1_2.blk t).view.read (Elt F) (A 2) := win1_2.cut_fill _ _ _
  dsimp only [dats]
  isplitl [H0]
  · iexact H0
  isplitl [H1]
  · iexists d1; rw [h1]; iexact H1
  isplitl [H2]
  · iexists d2; rw [h2]; iexact H2
  · iexists bodyOut (pblk c (A 0) t) (win1_1.fill (grid1.coords t) d1 ((win1_1.blk t).view.read (Elt F) (A 1)))
        (win1_2.fill (grid1.coords t) d2 ((win1_2.blk t).view.read (Elt F) (A 2)))
    iexact H3

end Cert.TcSide

end
-- ==== Proof.TcArr.lean ====
import proofs.«204126_g14654428414512_cont_week2b_26_29_alg».proof.Proof.TcOblig

noncomputable section

namespace Cert.TcSide

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F] {Ix : Type} [DecidableEq Ix] {Name : Type} [DecidableEq Name] {U : Type} [URA U] {Lvl : Type}

variable (c : Dev nD) (A : (w : Fin cfg1.W) → Buf (Elt F) ((cfg1.win w).arr.view.loc (c.tc : Thread nD τ))) (O : CellTallies nD τ sig Ix)

/-- The three input arrays end as they were: an input window's array is never written back. -/
theorem arrAt_in0 : (dats (Name := Name) (U := U) (Lvl := Lvl) c A O).arrAt (0 : Fin 4) cfg1.N = A 0 := (dats (Name := Name) (U := U) (Lvl := Lvl) c A O).arrAt_in (0 : Fin 4) rfl _
theorem arrAt_in1 : (dats (Name := Name) (U := U) (Lvl := Lvl) c A O).arrAt (1 : Fin 4) cfg1.N = A 1 := (dats (Name := Name) (U := U) (Lvl := Lvl) c A O).arrAt_in (1 : Fin 4) rfl _
theorem arrAt_in2 : (dats (Name := Name) (U := U) (Lvl := Lvl) c A O).arrAt (2 : Fin 4) cfg1.N = A 2 := (dats (Name := Name) (U := U) (Lvl := Lvl) c A O).arrAt_in (2 : Fin 4) rfl _

/-- The result array: its entry contents overwritten, in point order, through each point's block cut at the array's
    end, by the part inside the array of what the body left in the staging buffer. -/
theorem arrAt_out : (dats (Name := Name) (U := U) (Lvl := Lvl) c A O).arrAt (3 : Fin 4) cfg1.N = tcOut c (A 0) (A 1) (A 2) (A 3) := by
  rw [show cfg1.N = t1_6.val + 1 from rfl, (dats (Name := Name) (U := U) (Lvl := Lvl) c A O).arrAt_succ (3 : Fin 4) t1_6, if_pos (flush1_3 _),
    show t1_6.val = t1_5.val + 1 from rfl, (dats (Name := Name) (U := U) (Lvl := Lvl) c A O).arrAt_succ (3 : Fin 4) t1_5, if_pos (flush1_3 _),
    show t1_5.val = t1_4.val + 1 from rfl, (dats (Name := Name) (U := U) (Lvl := Lvl) c A O).arrAt_succ (3 : Fin 4) t1_4, if_pos (flush1_3 _),
    show t1_4.val = t1_3.val + 1 from rfl, (dats (Name := Name) (U := U) (Lvl := Lvl) c A O).arrAt_succ (3 : Fin 4) t1_3, if_pos (flush1_3 _),
    show t1_3.val = t1_2.val + 1 from rfl, (dats (Name := Name) (U := U) (Lvl := Lvl) c A O).arrAt_succ (3 : Fin 4) t1_2, if_pos (flush1_3 _),
    show t1_2.val = t1_1.val + 1 from rfl, (dats (Name := Name) (U := U) (Lvl := Lvl) c A O).arrAt_succ (3 : Fin 4) t1_1, if_pos (flush1_3 _),
    show t1_1.val = t1_0.val + 1 from rfl, (dats (Name := Name) (U := U) (Lvl := Lvl) c A O).arrAt_succ (3 : Fin 4) t1_0, if_pos (flush1_3 _)]
  rfl

end Cert.TcSide

end
-- ==== Proof.RegionIdeal.lean ====
/-
  The pipeline's region with its result NAMED, for an instance at which the matrix product is local to rows (each
  entry of the product reads one row of the weights' block): the body obligation then holds on the clipped blocks,
  the three input arrays are untouched and the result array ends at the seven block writes `tcOut`.
-/
import proofs.«204126_g14654428414512_cont_week2b_26_29_alg».proof.Proof.Common
import proofs.«204126_g14654428414512_cont_week2b_26_29_alg».proof.Proof.LaunchSetup
import proofs.«204126_g14654428414512_cont_week2b_26_29_alg».proof.Proof.TcArr

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.TcSide

variable [FloatOps F] (m : (ℓ : Loc nD τ sig) → Buf (Elt F) ℓ) (ρ : Dev nD → PrngReg)

def pdats : (p : Fin 1) → (c : Dev nD) → Pipeline.Dat τ (Elt F) (HIx 1) ℕ UU ℕ (cfgsP (F := F) p) c :=
  fun _ c => dats c (Aent m c) 0

theorem share_full (d : Dev nD) (w : Fin cfg1.W) : (pdats m 0 d).share w = fullShare :=
  (pdats m 0 d).share_full (fun _ => rfl) w

theorem arrays_eq' (d : Dev nD) (f : (w : Fin cfg1.W) → Buf (Elt F) ((cfg1.win w).arr.view.loc ((d : Dev nD).tc : Thread nD τ))) :
    ((pdats m 0 d).arrays f : sProp 𝕄) = arrPts d f := by
  rw [Pipeline.arrays_eq (cfgsP (F := F)) (pdats m) 0 d launch1.arr_whole (share_full m d) f, bigSep_W1]

/-- and at its exit: the arrays after the last write-back. -/
abbrev postR (d : Dev nD) : sProp 𝕄 :=
  iprop(arrPts d ((pdats m 0 d).arrAt · cfg1.N) ∗ ∃ W, owes ((d : Dev nD).tc : Thread nD τ) (0 : CellTallies nD τ sig (HIx 1)) W)

/-- The pipeline's region: no semaphore of the kernel's own, no invariant, nothing owed. -/
def R (hloc : RowLocal F) : Pipeline.RegionSeg (pcfgs (F := F)) adm (pdats m) (none : HIx 1) defs₀ 𝒱₀ (K (F := F)).L (K (F := F)).lev (0 : Fin 1) where
  win := launch1.win.to₀
  block_pos := launch1.block_pos
  stage_whole := launch1.stage_whole
  K := PEmpty
  osem := fun k => k.elim
  ho := Pipeline.OwnSemFacts.none _
  hbody := fun c => body_obligation c (Aent m c) 0 hloc none
  hwaits := Pipeline.hwaits_of_owed_zero (pcs := pcfgs (F := F)) (a := adm) (pdats := pdats m) (ι := (none : HIx 1)) (L := (K (F := F)).L) (lv := (K (F := F)).lev) 0 (fun _ _ => rfl)
  pre := preR m
  post := postR m
  X := fun _ => iprop(emp)
  Y := fun _ => iprop(emp)
  Z := fun _ => iprop(emp)
  hentry := fun c => by
    have hpre : (Pipeline.prefHeld (Ix := HIx 1) (Name := ℕ) (U := UU) (Lvl := ℕ) (Val := Elt F) (pcfgs (F := F) 0).pre c (fun _ => fullShare) (adm 0).1 : sProp 𝕄) = BI.emp :=
      bigSep_fin0 _
    rw [arrays_eq' m c, hpre]
    iintro ⟨⟨Ha, %W, HO⟩, -, -⟩
    imodintro
    isplitl [Ha]; · iexact Ha
    isplitr; · iempintro
    isplitl [HO]
    · iexists W; isplitr; · ipureintro; exact fun _ _ => Or.inl trivial
      iexact HO
    isplitr <;> iempintro
  hin := fun c => by iintro -; iempintro
  hout := fun c => by
    rw [scopedRest1_eq, Pipeline.ownSems0_none]
    iintro -; isplitr; · iempintro
    isplitr <;> iempintro
  hexit := fun c => by
    rw [arrays_eq' m c]
    iintro ⟨Ha, ⟨%W, -, HO⟩, -, -⟩
    imodintro
    isplitl [Ha]; · iexact Ha
    iexists W; iexact HO

/-- The region's step with the result array named: the three inputs as at entry, the result what the seven clipped
    write-backs leave. -/
theorem regionStep_of_loc (hloc : RowLocal F) :
    RegionStep m (fun d f => f = tcOut d (Aent m d 0) (Aent m d 1) (Aent m d 2) (Aent m d 3)) := by
  intro d k Q
  have e0 : (pdats m 0 d).arrAt (0 : Fin 4) cfg1.N = Aent m d 0 := arrAt_in0 d _ _
  have e1 : (pdats m 0 d).arrAt (1 : Fin 4) cfg1.N = Aent m d 1 := arrAt_in1 d _ _
  have e2 : (pdats m 0 d).arrAt (2 : Fin 4) cfg1.N = Aent m d 2 := arrAt_in2 d _ _
  have e3 : (pdats m 0 d).arrAt (3 : Fin 4) cfg1.N = tcOut d (Aent m d 0) (Aent m d 1) (Aent m d 2) (Aent m d 3) := arrAt_out d _ _
  have hR := Pipeline.RegionSeg.wp (pcfgs (F := F)) adm (pdats m) (none : HIx 1) cellOf_injP EP defs₀ 𝒱₀ (K (F := F)).L (K (F := F)).lev
    (R m hloc) d none (fun _ h => nomatch h) k Q
  have hpost : (R m hloc).post d = postR m d := rfl
  have hpre : (R m hloc).pre d = preR m d := rfl
  rw [hpost, hpre] at hR
  refine BI.Entails.trans (show _ ⊢ iprop((iprop(boundary ((d : Dev nD).tc : Thread nD τ) ∗ postR m d) -∗ wp frame (wpE (D (F := F)) 𝒱 ((d : Dev nD).tc : Thread nD τ) none) Set.univ (k ⟨⟩) Q)
        ∗ boundary ((d : Dev nD).tc : Thread nD τ) ∗ preR m d ∗ levAts (K (F := F)).L (K (F := F)).lev
        ∗ Pipeline.cellsGhost (cfgsP (F := F)) EP 0 d ∗ Pipeline.toksInit (cfgsP (F := F)) EP 0 d) from ?_) hR
  iintro ⟨Hk, Hb, Hpre, Hlev, Hg, Ht⟩
  isplitl [Hk]
  · iintro ⟨Hb, ⟨Hp, Hw, Hbi, Ho⟩, HO⟩
    iapply Hk
    isplitl [Hb]; · iexact Hb
    isplitl [Hp]; · iapply (Entails.of_eq (congrArg (fun f => (pLoc d ↦{fullShare} f : sProp 𝕄)) e0)); iexact Hp
    isplitl [Hw]; · iapply (Entails.of_eq (congrArg (fun f => (wLoc d ↦{fullShare} f : sProp 𝕄)) e1)); iexact Hw
    isplitl [Hbi]; · iapply (Entails.of_eq (congrArg (fun f => (bLoc d ↦{fullShare} f : sProp 𝕄)) e2)); iexact Hbi
    isplitl [Ho]
    · iexists _; isplitr; · ipureintro; exact e3
      iexact Ho
    iexact HO
  isplitl [Hb]; · iexact Hb
  isplitl [Hpre]; · iexact Hpre
  isplitl [Hlev]; · iexact Hlev
  isplitl [Hg]; · iexact Hg
  iexact Ht

end Cert.KI

end
-- ==== Proof.TcPay.lean ====
import proofs.«204126_g14654428414512_cont_week2b_26_29_alg».proof.Proof.TcData
import Idealize.ShloMosaic.Lib.ValueIdx
import Idealize.ShloMosaic.Lib.Pipeline.Value
import Idealize.ShloMosaic.PureOps.Ideal.Laws

noncomputable section

namespace Cert.TcSide

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)
open Idealize.ShloMosaic.ValueIdx
open scoped BigOperators

variable {F : FTy → Type} [FloatOps F] {Ix : Type} [DecidableEq Ix] {Name : Type} [DecidableEq Name] {U : Type} [URA U] {Lvl : Type}

/-! ## The product's operand indices, coordinate by coordinate -/

theorem lhs_0 (i : S1x16384.Idx) (q : dot_S1x128_S16384x128_S1x16384_1_1_0_0_n_n.contr.Idx) :
    (dot_S1x128_S16384x128_S1x16384_1_1_0_0_n_n.lhsIdx i q 0).val = (i 0).val := by
  unfold DotDims.lhsIdx
  rw [dif_neg (show ¬(0 : Fin S1x128.rank) ∈ dot_S1x128_S16384x128_S1x16384_1_1_0_0_n_n.lhsBatch by decide),
    dif_pos (show (0 : Fin S1x128.rank) ∈ dot_S1x128_S16384x128_S1x16384_1_1_0_0_n_n.lhsNonContracting by decide)]
  rfl
theorem lhs_1 (i : S1x16384.Idx) (q : dot_S1x128_S16384x128_S1x16384_1_1_0_0_n_n.contr.Idx) :
    (dot_S1x128_S16384x128_S1x16384_1_1_0_0_n_n.lhsIdx i q 1).val = (q ⟨0, by decide⟩).val :=
  dot_S1x128_S16384x128_S1x16384_1_1_0_0_n_n.lhsIdx_val_of_single rfl i q
theorem rhs_0 (i : S1x16384.Idx) (q : dot_S1x128_S16384x128_S1x16384_1_1_0_0_n_n.contr.Idx) :
    (dot_S1x128_S16384x128_S1x16384_1_1_0_0_n_n.rhsIdx i q 0).val = (i 1).val := by
  unfold DotDims.rhsIdx
  rw [dif_neg (show ¬(0 : Fin S16384x128.rank) ∈ dot_S1x128_S16384x128_S1x16384_1_1_0_0_n_n.rhsBatch by decide),
    dif_pos (show (0 : Fin S16384x128.rank) ∈ dot_S1x128_S16384x128_S1x16384_1_1_0_0_n_n.rhsNonContracting by decide)]
  rfl
theorem rhs_1 (i : S1x16384.Idx) (q : dot_S1x128_S16384x128_S1x16384_1_1_0_0_n_n.contr.Idx) :
    (dot_S1x128_S16384x128_S1x16384_1_1_0_0_n_n.rhsIdx i q 1).val = (q ⟨0, by decide⟩).val :=
  dot_S1x128_S16384x128_S1x16384_1_1_0_0_n_n.rhsIdx_val_of_single rfl i q

/-- The body's result at entry `v` of its one row, on the extended reals: the row times row `v` of the block, plus
    entry `v` of the bias block. -/
theorem bodyOut_apply (X0 : Vec Ideal S1x128 .f32) (X1 : Vec Ideal S16384x128 .f32) (X2 : Vec Ideal S16384 .f32) (v : Fin 16384) :
    bodyOut (F := Ideal) X0 X1 X2 (ix2 (0 : Fin 1) v) = (∑ k : Fin 128, X0 (ix2 (0 : Fin 1) k) * X1 (ix2 v k)) + X2 (ix1 v) := by
  rw [bodyOut_eq, addf_apply]
  congr 1
  · simp only [matmul]
    rw [Ideal.matmul_constant_zero_apply, ← Equiv.sum_comp (contrEquiv1 dot_S1x128_S16384x128_S1x16384_1_1_0_0_n_n 128 rfl rfl).symm]
    refine Finset.sum_congr rfl fun k _ => ?_
    have hk := contrEquiv1_symm_val dot_S1x128_S16384x128_S1x16384_1_1_0_0_n_n 128 rfl rfl k
    have el : dot_S1x128_S16384x128_S1x16384_1_1_0_0_n_n.lhsIdx (ix2 (0 : Fin 1) v)
        ((contrEquiv1 dot_S1x128_S16384x128_S1x16384_1_1_0_0_n_n 128 rfl rfl).symm k) = ix2 (0 : Fin 1) k := funext fun a => Fin.ext (by
      match a with
      | ⟨0, _⟩ => exact lhs_0 _ _
      | ⟨1, _⟩ => exact (lhs_1 _ _).trans hk)
    have er : dot_S1x128_S16384x128_S1x16384_1_1_0_0_n_n.rhsIdx (ix2 (0 : Fin 1) v)
        ((contrEquiv1 dot_S1x128_S16384x128_S1x16384_1_1_0_0_n_n 128 rfl rfl).symm k) = ix2 v k := funext fun a => Fin.ext (by
      match a with
      | ⟨0, _⟩ => exact rhs_0 _ _
      | ⟨1, _⟩ => exact (rhs_1 _ _).trans hk)
    rw [el, er, shapeCast_self]
  · rw [shapeCast_addUnit_apply]
    exact congrArg X2 (funext fun a => by match a with | ⟨0, _⟩ => rfl)

/-! ## The part of the body's result inside the array does not see the filling -/

/-- The three clipped windows cut alike on the axis the grid walks, and the weights' blocks span the 128 columns. -/
theorem xs3_1 (i : grid1.Coords) : win1_3.xsize i 1 = win1_1.xsize i 0 := rfl
theorem xs2_0 (i : grid1.Coords) : win1_2.xsize i 0 = win1_1.xsize i 0 := rfl
theorem xs1_1 (i : grid1.Coords) : win1_1.xsize i 1 = 128 := rfl
theorem xs3_0 (i : grid1.Coords) : win1_3.xsize i 0 = 1 := rfl

/-- An index of the result block's part inside the array is `(0, v)` with `v` among the rows inside the array. -/
theorem xinj3_eq (i : grid1.Coords) (j : (win1_3.xblock i).Idx) (hv : (j (1 : Fin 2)).val < 16384) :
    win1_3.xinj i j = ix2 (0 : Fin 1) (⟨(j (1 : Fin 2)).val, hv⟩ : Fin 16384) := funext fun a => Fin.ext (by
  match a with
  | ⟨0, _⟩ =>
    have h0 : (j (0 : Fin 2)).val < win1_3.xsize i 0 := (j (0 : Fin 2)).isLt
    rw [xs3_0] at h0
    show (j (0 : Fin 2)).val = 0
    omega
  | ⟨1, _⟩ => rfl)

theorem rowLocal_ideal : RowLocal Ideal := by
  intro i X0 X1 X1' X2 X2' h1 h2
  funext j
  have hv : (j (1 : Fin 2)).val < 16384 := lt_of_lt_of_le (j (1 : Fin 2)).isLt (win1_3.xsize_le i 1)
  show bodyOut X0 X1 X2 (win1_3.xinj i j) = bodyOut X0 X1' X2' (win1_3.xinj i j)
  rw [xinj3_eq i j hv, bodyOut_apply, bodyOut_apply]
  have e2 : X2 (ix1 (⟨(j (1 : Fin 2)).val, hv⟩ : Fin 16384)) = X2' (ix1 (⟨(j (1 : Fin 2)).val, hv⟩ : Fin 16384)) := by
    have h := congrFun h2 (fun a => match a with | ⟨0, _⟩ => ⟨(j (1 : Fin 2)).val, (j (1 : Fin 2)).isLt⟩)
    have e : win1_2.xinj i (fun a => match a with | ⟨0, _⟩ => ⟨(j (1 : Fin 2)).val, (j (1 : Fin 2)).isLt⟩)
        = ix1 (⟨(j (1 : Fin 2)).val, hv⟩ : Fin 16384) := funext fun a => Fin.ext (by match a with | ⟨0, _⟩ => rfl)
    show X2 _ = X2' _
    rw [← e]; exact h
  have e1 : ∀ k : Fin 128, X1 (ix2 (⟨(j (1 : Fin 2)).val, hv⟩ : Fin 16384) k) = X1' (ix2 (⟨(j (1 : Fin 2)).val, hv⟩ : Fin 16384) k) := fun k => by
    have h := congrFun h1 (fun a => match a with | ⟨0, _⟩ => ⟨(j (1 : Fin 2)).val, (j (1 : Fin 2)).isLt⟩ | ⟨1, _⟩ => ⟨k.val, k.isLt⟩)
    have e : win1_1.xinj i (fun a => match a with | ⟨0, _⟩ => ⟨(j (1 : Fin 2)).val, (j (1 : Fin 2)).isLt⟩ | ⟨1, _⟩ => ⟨k.val, k.isLt⟩)
        = ix2 (⟨(j (1 : Fin 2)).val, hv⟩ : Fin 16384) k := funext fun a => Fin.ext (by match a with | ⟨0, _⟩ => rfl | ⟨1, _⟩ => rfl)
    rw [← e]; exact h
  rw [e2]
  exact congrArg (· + X2' (ix1 (⟨(j (1 : Fin 2)).val, hv⟩ : Fin 16384))) (Finset.sum_congr rfl fun k _ => by rw [e1 k])

end Cert.TcSide

end
-- ==== Proof.TcValue.lean ====
import proofs.«204126_g14654428414512_cont_week2b_26_29_alg».proof.Proof.TcPay
import Idealize.ShloMosaic.Lib.ValueIdx
import Idealize.ShloMosaic.Lib.Pipeline.Value
import Idealize.ShloMosaic.PureOps.Ideal.Laws

noncomputable section

namespace Cert.TcSide

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)
open Idealize.ShloMosaic.ValueIdx
open scoped BigOperators

variable {F : FTy → Type} [FloatOps F] {Ix : Type} [DecidableEq Ix] {Name : Type} [DecidableEq Name] {U : Type} [URA U] {Lvl : Type}

variable (c : Dev nD) (p : Vec Ideal S1x128 .f32) (W : Vec Ideal S100000x128 .f32) (b : Vec Ideal S100000 .f32) (o₀ : Vec Ideal S1x100000 .f32)

/-! ## The blocks read at an index -/

/-- The specification at entry `r` of its one row. -/
theorem matVec_apply (r : Fin 100000) :
    Cert.Spec.matVec p W b (ix2 (0 : Fin 1) r) = (∑ k : Fin 128, p (ix2 (0 : Fin 1) k) * W (ix2 r k)) + b (ix1 r) := rfl

/-- The row's block is the row. -/
theorem pblk_apply (t : Fin cfg1.N) (k : Fin 128) : pblk c p t (ix2 (0 : Fin 1) k) = p (ix2 (0 : Fin 1) k) := by
  have e : ix2 (0 : Fin 1) k = win1_0.xinj (grid1.coords t) (fun a => match a with | ⟨0, _⟩ => ⟨0, Nat.one_pos⟩ | ⟨1, _⟩ => ⟨k.val, k.isLt⟩) :=
    funext fun a => Fin.ext (by match a with | ⟨0, _⟩ => rfl | ⟨1, _⟩ => rfl)
  rw [e]; unfold pblk; rw [win1_0.fill_xinj, View.read_apply]
  show p _ = p _
  refine congrArg p (funext fun a => Fin.ext ?_)
  match a with
  | ⟨0, _⟩ => show win1_0.index t (0 : Fin 2) * 1 + 1 * 0 = 0; rw [show win1_0.index t (0 : Fin 2) = 0 from rfl]
  | ⟨1, _⟩ => show win1_0.index t (1 : Fin 2) * 128 + 1 * k.val = k.val; rw [show win1_0.index t (1 : Fin 2) = 0 from rfl]; omega

/-- Row `v` of the weights' block at point `t`, for `v` among the rows inside the array, is row `16384 t + v` of the weights. -/
theorem wblk_apply (t : Fin cfg1.N) (v : Fin 16384) (k : Fin 128) (hvx : v.val < win1_1.xsize (grid1.coords t) 0)
    (hr : win1_1.index t (0 : Fin 2) * 16384 + v.val < 100000) :
    wblk c W t (ix2 v k) = W (ix2 (⟨win1_1.index t (0 : Fin 2) * 16384 + v.val, hr⟩ : Fin 100000) k) := by
  have e : ix2 v k = win1_1.xinj (grid1.coords t) (fun a => match a with | ⟨0, _⟩ => ⟨v.val, hvx⟩ | ⟨1, _⟩ => ⟨k.val, k.isLt⟩) :=
    funext fun a => Fin.ext (by match a with | ⟨0, _⟩ => rfl | ⟨1, _⟩ => rfl)
  rw [e]; unfold wblk; rw [win1_1.fill_xinj, View.read_apply]
  show W _ = W _
  refine congrArg W (funext fun a => Fin.ext ?_)
  match a with
  | ⟨0, _⟩ => show win1_1.index t (0 : Fin 2) * 16384 + 1 * v.val = win1_1.index t (0 : Fin 2) * 16384 + v.val; omega
  | ⟨1, _⟩ => show win1_1.index t (1 : Fin 2) * 128 + 1 * k.val = k.val; rw [show win1_1.index t (1 : Fin 2) = 0 from rfl]; omega

/-- Entry `v` of the bias's block likewise. -/
theorem bblk_apply (t : Fin cfg1.N) (v : Fin 16384) (hvx : v.val < win1_2.xsize (grid1.coords t) 0)
    (hr : win1_2.index t (0 : Fin 1) * 16384 + v.val < 100000) :
    bblk c b t (ix1 v) = b (ix1 (⟨win1_2.index t (0 : Fin 1) * 16384 + v.val, hr⟩ : Fin 100000)) := by
  have e : ix1 v = win1_2.xinj (grid1.coords t) (fun a => match a with | ⟨0, _⟩ => ⟨v.val, hvx⟩) :=
    funext fun a => Fin.ext (by match a with | ⟨0, _⟩ => rfl)
  rw [e]; unfold bblk; rw [win1_2.fill_xinj, View.read_apply]
  show b _ = b _
  refine congrArg b (funext fun a => Fin.ext ?_)
  match a with
  | ⟨0, _⟩ => show win1_2.index t (0 : Fin 1) * 16384 + 1 * v.val = win1_2.index t (0 : Fin 1) * 16384 + v.val; omega

/-! ## Each write-back writes a block of the specification's row -/

/-- The array index under an index of the result block's part inside the array. -/
theorem emb3_eq (t : Fin cfg1.N) (j : (win1_3.xblock (grid1.coords t)).Idx)
    (hr : win1_3.index t (1 : Fin 2) * 16384 + (j (1 : Fin 2)).val < 100000) :
    (win1_3.blk t).view.emb j = ix2 (0 : Fin 1) (⟨win1_3.index t (1 : Fin 2) * 16384 + (j (1 : Fin 2)).val, hr⟩ : Fin 100000) := by
  funext a; apply Fin.ext
  match a with
  | ⟨0, _⟩ =>
    have h0 : (j (0 : Fin 2)).val < win1_3.xsize (grid1.coords t) 0 := (j (0 : Fin 2)).isLt
    rw [xs3_0] at h0
    show win1_3.index t (0 : Fin 2) * 1 + 1 * (j (0 : Fin 2)).val = 0
    rw [show win1_3.index t (0 : Fin 2) = 0 from rfl]; omega
  | ⟨1, _⟩ =>
    show win1_3.index t (1 : Fin 2) * 16384 + 1 * (j (1 : Fin 2)).val = win1_3.index t (1 : Fin 2) * 16384 + (j (1 : Fin 2)).val
    omega

/-- What point `t` writes back is block `t` of the specification's row: the filling past the arrays' end is not
    among the rows the cut keeps. -/
theorem cut_oblk (t : Fin cfg1.N) :
    win1_3.cut (grid1.coords t) (oblk c p W b t) = (win1_3.blk t).view.read (Elt Ideal) (Cert.Spec.matVec p W b) := by
  funext j
  have hj : (j (1 : Fin 2)).val < win1_3.xsize (grid1.coords t) 1 := (j (1 : Fin 2)).isLt
  have hv : (j (1 : Fin 2)).val < 16384 := lt_of_lt_of_le hj (win1_3.xsize_le _ 1)
  have hlt : ((win1_3.blk t).view.emb j (1 : Fin 2)).val < 100000 := ((win1_3.blk t).view.emb j (1 : Fin 2)).isLt
  have hval : ((win1_3.blk t).view.emb j (1 : Fin 2)).val = win1_3.index t (1 : Fin 2) * 16384 + 1 * (j (1 : Fin 2)).val := rfl
  have hr : win1_3.index t (1 : Fin 2) * 16384 + (j (1 : Fin 2)).val < 100000 := by omega
  rw [View.read_apply]
  show oblk c p W b t (win1_3.xinj (grid1.coords t) j) = Cert.Spec.matVec p W b ((win1_3.blk t).view.emb j)
  rw [emb3_eq t j hr, matVec_apply, xinj3_eq _ j hv]
  unfold oblk
  rw [bodyOut_apply, bblk_apply c b t ⟨_, hv⟩ hj hr]
  refine congrArg (· + _) (Finset.sum_congr rfl fun k _ => ?_)
  rw [pblk_apply, wblk_apply c W t ⟨_, hv⟩ k hj hr]
  rfl

/-! ## The seven blocks cover the row -/

/-- The printed index map and cuts, decided over the grid: point `t` writes the block that starts at entry `16384 t`,
    all 16384 of it but at the last point, where 1696 entries are inside the array. -/
theorem idx_facts3 : ∀ t : Fin cfg1.N, win1_3.index t (1 : Fin 2) = t.val
    ∧ win1_3.xsize (grid1.coords t) (1 : Fin 2) = (if t.val = 6 then 1696 else 16384) :=
  (by decide +kernel : ∀ t : Fin grid1.N, _)

/-- An index of the row is in point `t`'s block iff its entry is among the block's entries inside the array. -/
theorem mem_blk3 (t : Fin cfg1.N) (i : S1x100000.Idx) :
    i ∈ (win1_3.blk t).view.setOn Finset.univ ↔ t.val * 16384 ≤ (i 1 : Nat) ∧ (i 1 : Nat) < t.val * 16384 + (if t.val = 6 then 1696 else 16384) := by
  rw [View.setOn_univ]
  show i ∈ ((View.whole main_v1).slice (win1_3.rect t)).set ↔ _
  rw [View.set_slice_whole, Rect.mem_set_unit]
  obtain ⟨e1, e2⟩ := idx_facts3 t
  have h0 : (i 0 : Nat) < 1 := (i 0).isLt
  constructor
  · intro h
    have h1 : win1_3.index t (1 : Fin 2) * 16384 ≤ (i 1 : Nat) ∧ (i 1 : Nat) < win1_3.index t (1 : Fin 2) * 16384 + win1_3.xsize (grid1.coords t) (1 : Fin 2) := h 1
    rw [e1, e2] at h1; exact h1
  · intro h a
    match a with
    | ⟨0, _⟩ =>
      show win1_3.index t (0 : Fin 2) * 1 ≤ (i 0 : Nat) ∧ (i 0 : Nat) < win1_3.index t (0 : Fin 2) * 1 + win1_3.xsize (grid1.coords t) (0 : Fin 2)
      rw [show win1_3.index t (0 : Fin 2) = 0 from rfl, xs3_0]; omega
    | ⟨1, _⟩ =>
      show win1_3.index t (1 : Fin 2) * 16384 ≤ (i 1 : Nat) ∧ (i 1 : Nat) < win1_3.index t (1 : Fin 2) * 16384 + win1_3.xsize (grid1.coords t) (1 : Fin 2)
      rw [e1, e2]; exact h

/-- The result array after the last write-back is the specification's row, every entry: the seven blocks' entries
    inside the array are 0‥16383, …, 98304‥99999. -/
theorem tcOut_eq : tcOut (F := Ideal) c p W b o₀ = Cert.Spec.matVec p W b := by
  unfold tcOut
  rw [cut_oblk c p W b t1_0, cut_oblk c p W b t1_1, cut_oblk c p W b t1_2, cut_oblk c p W b t1_3, cut_oblk c p W b t1_4,
    cut_oblk c p W b t1_5, cut_oblk c p W b t1_6,
    View.write_read_eq_piecewise, View.write_read_eq_piecewise, View.write_read_eq_piecewise, View.write_read_eq_piecewise,
    View.write_read_eq_piecewise, View.write_read_eq_piecewise, View.write_read_eq_piecewise]
  funext i
  have h1 : (i 1 : Nat) < 100000 := (i 1).isLt
  have m0 : i ∈ (win1_3.blk t1_0).view.setOn Finset.univ ↔ 0 * 16384 ≤ (i 1 : Nat) ∧ (i 1 : Nat) < 0 * 16384 + 16384 := by
    have h := mem_blk3 t1_0 i; rw [show t1_0.val = 0 from rfl, if_neg (by decide)] at h; exact h
  have m1 : i ∈ (win1_3.blk t1_1).view.setOn Finset.univ ↔ 1 * 16384 ≤ (i 1 : Nat) ∧ (i 1 : Nat) < 1 * 16384 + 16384 := by
    have h := mem_blk3 t1_1 i; rw [show t1_1.val = 1 from rfl, if_neg (by decide)] at h; exact h
  have m2 : i ∈ (win1_3.blk t1_2).view.setOn Finset.univ ↔ 2 * 16384 ≤ (i 1 : Nat) ∧ (i 1 : Nat) < 2 * 16384 + 16384 := by
    have h := mem_blk3 t1_2 i; rw [show t1_2.val = 2 from rfl, if_neg (by decide)] at h; exact h
  have m3 : i ∈ (win1_3.blk t1_3).view.setOn Finset.univ ↔ 3 * 16384 ≤ (i 1 : Nat) ∧ (i 1 : Nat) < 3 * 16384 + 16384 := by
    have h := mem_blk3 t1_3 i; rw [show t1_3.val = 3 from rfl, if_neg (by decide)] at h; exact h
  have m4 : i ∈ (win1_3.blk t1_4).view.setOn Finset.univ ↔ 4 * 16384 ≤ (i 1 : Nat) ∧ (i 1 : Nat) < 4 * 16384 + 16384 := by
    have h := mem_blk3 t1_4 i; rw [show t1_4.val = 4 from rfl, if_neg (by decide)] at h; exact h
  have m5 : i ∈ (win1_3.blk t1_5).view.setOn Finset.univ ↔ 5 * 16384 ≤ (i 1 : Nat) ∧ (i 1 : Nat) < 5 * 16384 + 16384 := by
    have h := mem_blk3 t1_5 i; rw [show t1_5.val = 5 from rfl, if_neg (by decide)] at h; exact h
  have m6 : i ∈ (win1_3.blk t1_6).view.setOn Finset.univ ↔ 6 * 16384 ≤ (i 1 : Nat) ∧ (i 1 : Nat) < 6 * 16384 + 1696 := by
    have h := mem_blk3 t1_6 i; rw [show t1_6.val = 6 from rfl, if_pos rfl] at h; exact h
  by_cases c6 : 6 * 16384 ≤ (i 1 : Nat)
  · exact Finset.piecewise_eq_of_mem _ _ _ (m6.mpr ⟨c6, by omega⟩)
  rw [Finset.piecewise_eq_of_notMem _ _ _ (fun h => c6 (m6.mp h).1)]
  by_cases c5 : 5 * 16384 ≤ (i 1 : Nat)
  · exact Finset.piecewise_eq_of_mem _ _ _ (m5.mpr ⟨c5, by omega⟩)
  rw [Finset.piecewise_eq_of_notMem _ _ _ (fun h => c5 (m5.mp h).1)]
  by_cases c4 : 4 * 16384 ≤ (i 1 : Nat)
  · exact Finset.piecewise_eq_of_mem _ _ _ (m4.mpr ⟨c4, by omega⟩)
  rw [Finset.piecewise_eq_of_notMem _ _ _ (fun h => c4 (m4.mp h).1)]
  by_cases c3 : 3 * 16384 ≤ (i 1 : Nat)
  · exact Finset.piecewise_eq_of_mem _ _ _ (m3.mpr ⟨c3, by omega⟩)
  rw [Finset.piecewise_eq_of_notMem _ _ _ (fun h => c3 (m3.mp h).1)]
  by_cases c2 : 2 * 16384 ≤ (i 1 : Nat)
  · exact Finset.piecewise_eq_of_mem _ _ _ (m2.mpr ⟨c2, by omega⟩)
  rw [Finset.piecewise_eq_of_notMem _ _ _ (fun h => c2 (m2.mp h).1)]
  by_cases c1 : 1 * 16384 ≤ (i 1 : Nat)
  · exact Finset.piecewise_eq_of_mem _ _ _ (m1.mpr ⟨c1, by omega⟩)
  rw [Finset.piecewise_eq_of_notMem _ _ _ (fun h => c1 (m1.mp h).1)]
  exact Finset.piecewise_eq_of_mem _ _ _ (m0.mpr ⟨by omega, by omega⟩)

end Cert.TcSide

/-- At the ideal values the result array after the last write-back is the specification's row of the three inputs'
    contents: entry `(0, v)` is `Σ_k p[0,k] · W[v,k] + b[v]`, every `v` below 100000. -/
theorem Cert.TcSide.tcOut_ideal (c : Idealize.ShloMosaic.Dev Cert.KernelIdeal.nD)
    (p : Idealize.ShloMosaic.Buf (Idealize.ShloMosaic.Elt Idealize.ShloMosaic.Ideal) ((Cert.KernelIdeal.cfg1.win 0).arr.view.loc (c.tc : Idealize.ShloMosaic.Thread Cert.KernelIdeal.nD Cert.KernelIdeal.τ)))
    (W : Idealize.ShloMosaic.Buf (Idealize.ShloMosaic.Elt Idealize.ShloMosaic.Ideal) ((Cert.KernelIdeal.cfg1.win 1).arr.view.loc (c.tc : Idealize.ShloMosaic.Thread Cert.KernelIdeal.nD Cert.KernelIdeal.τ)))
    (b : Idealize.ShloMosaic.Buf (Idealize.ShloMosaic.Elt Idealize.ShloMosaic.Ideal) ((Cert.KernelIdeal.cfg1.win 2).arr.view.loc (c.tc : Idealize.ShloMosaic.Thread Cert.KernelIdeal.nD Cert.KernelIdeal.τ)))
    (o₀ : Idealize.ShloMosaic.Buf (Idealize.ShloMosaic.Elt Idealize.ShloMosaic.Ideal) ((Cert.KernelIdeal.cfg1.win 3).arr.view.loc (c.tc : Idealize.ShloMosaic.Thread Cert.KernelIdeal.nD Cert.KernelIdeal.τ))) :
    Cert.TcSide.tcOut (F := Idealize.ShloMosaic.Ideal) c p W b o₀ = Cert.Spec.matVec p W b :=
  Cert.TcSide.tcOut_eq c p W b o₀

end
-- ==== Proof.RefOps.lean ====
/-
  The reference program as a straight line: the operations of its entry function in order, the two
  functions it calls unfolded at their calls (the table look-up's index wrap, bounds test, row gather and
  out-of-range fill; then the column sums, the product with the transposed weights, the bias), and its run:
  every execution ends with each buffer at the composition of these operations over the launch contents.
-/
import proofs.«204126_g14654428414512_cont_week2b_26_29_alg».proof.Proof.Gen.ReferenceIdeal
import Idealize.ShloMosaic.Lib.StableHlo.Run

noncomputable section

namespace Cert.RefSide

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-- The thirty operations of the entry function, the look-up's twenty-three first. -/
abbrev ops : List (HloOp τ sig (Elt F)) :=
  [ TRef.nullary main_call0.c (constantI S_ 32 0#32),
    TRef.unary main_call0.c main_call0.v0 (broadcastInDim S200 ![] bcast_S_S200),
    TRef.binary (.of main_arg0) main_call0.v0 main_call0.v1 (cmpi .slt),
    TRef.nullary main_call0.c_0 (constantI S_ 32 100000#32),
    TRef.unary main_call0.c_0 main_call0.v2 (broadcastInDim S200 ![] bcast_S_S200),
    TRef.binary (.of main_arg0) main_call0.v2 main_call0.v3 addi,
    TRef.ternary main_call0.v1 main_call0.v3 (.of main_arg0) main_call0.call0.v0 select,
    TRef.unary main_call0.call0.v0 main_call0.v5 (broadcastInDim S200x1 ![0] bcast_S200_S200x1_0),
    TRef.nullary main_call0.c_1 (constantI S1 32 99999#32),
    TRef.nullary main_call0.c_2 (constantI S_ 32 0#32),
    TRef.unary main_call0.c_2 main_call0.v6 (broadcastInDim S200x1 ![] bcast_S_S200x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S200x1 ![0, 1] bcast_S1x1_S200x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S200x1_S200_d1 h_S_),
    TRef.binary (.of main_arg1) main_call0.v5 main_call0.v13 (fun x i => Host.gather gather_S100000x128_S200x1_S200x128_1_0_n_n_0_1_1128 x i),
    TRef.unary main_call0.v12 main_call0.v14 (broadcastInDim S200x128 ![0] bcast_S200_S200x128_0),
    TRef.nullary main_call0.cst (constant S_ .f32 0x7FC00000#32),
    TRef.unary main_call0.cst main_call0.v15 (broadcastInDim S200x128 ![] bcast_S_S200x128),
    TRef.ternary main_call0.v14 main_call0.v13 main_call0.v15 main_call0.v16 select,
    nullary main_cst (constant S_ .f32 0x00000000#32),
    binary main_v0 main_cst main_v1 ((fun x v => Host.reduceAdd x v reducesTo_S200x128_S128_d0 h_S_) : (⟨S200x128, .f32⟩ : BufTy).Contents (Elt F) → (⟨S_, .f32⟩ : BufTy).Contents (Elt F) → (⟨S128, .f32⟩ : BufTy).Contents (Elt F)),
    reshape main_v1 main_v2 rfl shapeCasts_S128_S1x128,
    unary main_arg2 main_v3 ((transpose S128x100000 [1, 0] · transposes_S100000x128_S128x100000_1_0) : (⟨S100000x128, .f32⟩ : BufTy).Contents (Elt F) → (⟨S128x100000, .f32⟩ : BufTy).Contents (Elt F)),
    binary main_v2 main_v3 main_v4 ((fun l r => Host.dotGeneral dot_S1x128_S128x100000_S1x100000_1_0_0_1_n_n none l r) : (⟨S1x128, .f32⟩ : BufTy).Contents (Elt F) → (⟨S128x100000, .f32⟩ : BufTy).Contents (Elt F) → (⟨S1x100000, .f32⟩ : BufTy).Contents (Elt F)),
    unary main_arg3 main_v5 (broadcastInDim S1x100000 ![1] bcast_S100000_S1x100000_1 : (⟨S100000, .f32⟩ : BufTy).Contents (Elt F) → (⟨S1x100000, .f32⟩ : BufTy).Contents (Elt F)),
    binary main_v4 main_v5 main_v6 (addf : (⟨S1x100000, .f32⟩ : BufTy).Contents (Elt F) → (⟨S1x100000, .f32⟩ : BufTy).Contents (Elt F) → (⟨S1x100000, .f32⟩ : BufTy).Contents (Elt F)) ]

set_option maxRecDepth 1024 in
/-- The entry function is that straight line: the called functions' definitions unfolded at their calls, sequencing
    reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., binary_bufs_sub .., reshape_bufs_sub .., unary_bufs_sub .., binary_bufs_sub .., unary_bufs_sub ..,
    binary_bufs_sub ..⟩

/-- From any memory with zero counters every execution of the entry function ends, each buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefSide

end
-- ==== Proof.LibRowIndex.lean ====
/-
  StableHLO's row gather and row scatter READ AT AN INDEX, for the dimension numbers that indexing the rows of a
  2-D array (or the entries of a 1-D array) by an index column `[E, 1]`, and a segment sum over such a column, lower to.

  Gather (`offset_dims = [1]`, `collapsed_slice_dims = [0]`, `start_index_map = [0]`, `index_vector_dim = 1`,
  `slice_sizes = [1, C]`): result element `(e, c)` is the operand at row `idx[e, 0]` — read as a signed integer and
  clamped into `[0, N − 1]`, as StableHLO clamps every start index — and column `c`. The rank-1 form
  (`offset_dims = []`, `slice_sizes = [1]`) reads entry `idx[e, 0]`, clamped the same way.

  Scatter (`update_window_dims = [1]`, `inserted_window_dims = [0]`, `scatter_dims_to_operand_dims = [0]`,
  `index_vector_dim = 1`): update `(e, c)` lands on operand row `idx[e, 0]` — read signed and NOT clamped — and
  column `c`; it lands only when that row is inside `[0, N)`, and is dropped otherwise.
-/
import Idealize.ShloMosaic.Lib.ValueIdx

noncomputable section

namespace Cert.RowIndex

open Idealize.ShloMosaic Idealize.ShloMosaic.ValueIdx

/-! ## Rows of a rank-2 operand at an index column -/

section Gather
variable {α : Type}

/-- The row gather's dimension numbers for an operand `[N, C]`, start indices `[E, 1]` and result `[E, C]`; their
    conditions `wf` are decided on a program's literal shapes. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The operand index result element `(e, c)` reads: row `idx[e, 0]` (signed, clamped into `[0, N − 1]`), column `c`.
    Axis 0 is collapsed and indexed (start index, no offset); axis 1 is a full-width offset axis (start 0, offset `c`). -/
theorem rowGather_operandIdx {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowGatherDims N E C wf).operandIdx (ix2 e c) idx
      = ix2 ⟨min (idx (ix2 e (0 : Fin 1))).toInt.toNat (N - 1), by omega⟩ c := by
  have h0 : ((rowGatherDims N E C wf).operandIdx (ix2 e c) idx (0 : Fin 2)).val
      = min (idx (ix2 e (0 : Fin 1))).toInt.toNat (N - 1) := by
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : ((rowGatherDims N E C wf).operandIdx (ix2 e c) idx (1 : Fin 2)).val = c.val := by
    show (rowGatherDims N E C wf).start (ix2 e c) idx 1 + (rowGatherDims N E C wf).batchCoord (ix2 e c) 1
      + (rowGatherDims N E C wf).offCoord (ix2 e c) 1 = _
    rw [GatherDims.batchCoord_eq_zero _ _ _ List.not_mem_nil]
    simp only [Nat.add_zero]
    unfold GatherDims.start
    rw [dif_neg (show (1 : Fin 2) ∉ (rowGatherDims N E C wf).startIndexMap from
      (by decide : (1 : Fin 2) ∉ ([0] : List (Fin 2))))]
    rw [Nat.zero_add]
    unfold GatherDims.offCoord
    rw [dif_pos (show (1 : Fin 2) ∈ (rowGatherDims N E C wf).sKept from (GatherDims.mem_sKept _ _).mpr
      ⟨(by decide : (1 : Fin 2) ∉ ([0] : List (Fin 2))), List.not_mem_nil⟩)]
    rfl
  funext a; refine Fin.ext ?_
  match a with
  | ⟨0, _⟩ => exact h0
  | ⟨1, _⟩ => exact h1

/-- THE ROW GATHER READ AT `(e, c)`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 ⟨min (idx (ix2 e (0 : Fin 1))).toInt.toNat (N - 1), by omega⟩ c) := by
  unfold Host.gather
  rw [rowGather_operandIdx hN]

/-! ## The same gather of a rank-1 operand: entries of a vector at an index column -/

/-- The entry gather's dimension numbers for an operand `[N]`, start indices `[E, 1]` and result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The operand index result element `e` reads: entry `idx[e, 0]`, signed and clamped into `[0, N − 1]`. -/
theorem vecGather_operandIdx {N E w : Nat} (hN : 0 < N)
    (wf : GatherDims.WF ⟨1, ![N]⟩ ⟨2, ![E, 1]⟩ ⟨1, ![E]⟩ [] [0] [] [0] [] 1 ![1])
    (idx : IVec ⟨2, ![E, 1]⟩ w) (e : Fin E) :
    (vecGatherDims N E wf).operandIdx (ix1 e) idx
      = ix1 ⟨min (idx (ix2 e (0 : Fin 1))).toInt.toNat (N - 1), by omega⟩ := by
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE ENTRY GATHER READ AT `e`. -/
theorem vecGather_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (vecGatherDims N E wf) v idx (ix1 e)
      = v (ix1 ⟨min (idx (ix2 e (0 : Fin 1))).toInt.toNat (N - 1), by omega⟩) := by
  unfold Host.gather
  rw [vecGather_operandIdx hN]

end Gather

/-! ## Rows scattered into a rank-2 operand at an index column -/

section Scatter

/-- The row scatter's dimension numbers for an operand `[N, C]`, scatter indices `[E, 1]` and updates `[E, C]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis the window of update `(e, c)` starts at `idx[e, 0]`, read signed and not clamped. -/
theorem rowScatter_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the index map does not name, the window starts at `0`. -/
theorem rowScatter_start1 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 1 = 0 := by
  unfold ScatterDims.start
  rw [dif_neg (show (1 : Fin 2) ∉ (rowScatterDims N E C wf).scatterDimsToOperandDims from
    (by decide : (1 : Fin 2) ∉ ([0] : List (Fin 2))))]

/-- The row axis is an inserted window axis: its window coordinate is `0`. -/
theorem rowScatter_window0 {N E C : Nat}
    (wf : ScatterDims.WF ⟨2, ![N, C]⟩ ⟨2, ![E, 1]⟩ ⟨2, ![E, C]⟩ [1] [0] [0] 1) (e : Fin E) (c : Fin C) :
    (rowScatterDims N E C wf).window (ix2 e c) 0 = 0 := by
  unfold ScatterDims.window
  rw [dif_neg]
  simp [ScatterDims.sKept, Shape.kept, List.mem_filter, List.mem_finRange]

/-- The column axis carries the update's window axis: its window coordinate is the update's column `c`. -/
theorem rowScatter_window1 {N E C : Nat}
    (wf : ScatterDims.WF ⟨2, ![N, C]⟩ ⟨2, ![E, 1]⟩ ⟨2, ![E, C]⟩ [1] [0] [0] 1) (e : Fin E) (c : Fin C) :
    (rowScatterDims N E C wf).window (ix2 e c) 1 = c.val := by
  unfold ScatterDims.window
  rw [dif_pos (show (1 : Fin 2) ∈ (rowScatterDims N E C wf).sKept from by
    simp [ScatterDims.sKept, Shape.kept, List.mem_filter, List.mem_finRange])]
  rfl

/-- WHERE UPDATE `(e, c)` LANDS: if it lands at operand index `i`, then `i`'s row is the index `idx[e, 0]` read signed
    (so that index is in `[0, N)`) and `i`'s column is `c`. -/
theorem rowScatter_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (i : (⟨2, ![N, C]⟩ : Shape).Idx)
    (h : (rowScatterDims N E C wf).resultIdx? (ix2 e c) idx = some i) :
    (idx (ix2 e (0 : Fin 1))).toInt = ((i 0).val : Int) ∧ (i 1).val = c.val := by
  unfold ScatterDims.resultIdx? at h
  split at h
  · rename_i hc
    have hi := Option.some.inj h
    subst hi
    have h0 := (hc 0).1
    rw [rowScatter_start0, rowScatter_window0] at h0
    refine ⟨?_, ?_⟩
    · show _ = (((rowScatterDims N E C wf).start (ix2 e c) idx 0 + ((rowScatterDims N E C wf).window (ix2 e c) 0 : Nat)).toNat : Int)
      rw [rowScatter_start0, rowScatter_window0]
      omega
    · show ((rowScatterDims N E C wf).start (ix2 e c) idx 1 + ((rowScatterDims N E C wf).window (ix2 e c) 1 : Nat)).toNat = _
      rw [rowScatter_start1, rowScatter_window1]
      omega
  · exact absurd h (by simp)

end Scatter

end Cert.RowIndex
-- ==== Proof.RefValue.lean ====
/-
  What the reference computes, read entry by entry.

  The composition of the reference's operations is one function `out` of the four argument arrays. When every index
  word, read as a natural number, is below 100000 (so it is non-negative as a signed word and at most 99999): the
  look-up's wrap of negative indices leaves each word as it is, its bounds test is true everywhere, the row gather's
  clamp is the identity, and the out-of-range fill is never chosen: the gathered array is row `idx_j` of the table at
  row `j`. At the ideal values the column sums from zero, the product with the transposed weights and the bias are then
  `Cert.Spec.G`:  entry v  =  Σ_k (Σ_j emb[idx_j, k]) · W[v, k] + b[v].
-/
import proofs.«204126_g14654428414512_cont_week2b_26_29_alg».proof.Proof.RefOps
import proofs.«204126_g14654428414512_cont_week2b_26_29_alg».proof.Proof.LibRowIndex
import proofs.«204126_g14654428414512_cont_week2b_26_29_alg».proof.Proof.Spec
import Idealize.ShloMosaic.Lib.StackMember
import Idealize.ShloMosaic.Lib.ReduceAll
import Idealize.ShloMosaic.Lib.Pipeline.Value
import Idealize.ShloMosaic.PureOps.Ideal.Laws

noncomputable section

namespace Cert.RefSide

open Cert.ReferenceIdeal Idealize.ShloMosaic Idealize.ShloMosaic.TcCoe Idealize.SL.Sem Idealize.ShloMosaic.StableHlo
open Idealize.ShloMosaic.ValueIdx
open Cert.ReferenceIdeal.Facts₀

/-! ## Words below 100000 -/

theorem toInt_of_lt {w : BitVec 32} (h : w.toNat < 100000) : w.toInt = (w.toNat : Int) := by
  rw [BitVec.toInt_eq_toNat_cond]
  split <;> omega

theorem toInt_zero32 : (0#32 : BitVec 32).toInt = 0 := by decide
theorem toInt_99999 : (99999#32 : BitVec 32).toInt = 99999 := by decide

/-- A word below 100000 is not negative: the wrap of negative indices keeps it. -/
theorem wrap_word {w : BitVec 32} (h : w.toNat < 100000) :
    Scalar.select (IntOp.cmpi .slt w 0#32) (IntOp.addi w 100000#32) w = w := by
  have hz : IntOp.cmpi .slt w 0#32 = 0#1 := eq_zero_of_ne_one fun h1 => by
    have h2 := IntOp.cmpi_slt.1 h1
    rw [toInt_of_lt h, toInt_zero32] at h2
    omega
  rw [hz, select_zero]

theorem ge_word {w : BitVec 32} (h : w.toNat < 100000) : IntOp.cmpi .sge w 0#32 = 1#1 :=
  IntOp.cmpi_sge.2 (by rw [toInt_of_lt h, toInt_zero32]; omega)

theorem le_word {w : BitVec 32} (h : w.toNat < 100000) : IntOp.cmpi .sle w 99999#32 = 1#1 :=
  IntOp.cmpi_sle.2 (by rw [toInt_of_lt h, toInt_99999]; omega)

/-! ## A conjunction of ones -/

theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self), show IntOp.andi 1#1 1#1 = 1#1 from by decide]
    exact foldl_andi_one f l fun n hn => h n (List.mem_cons_of_mem _ hn)

/-- A reduction by `and` from 1 of an array of ones is 1 everywhere. -/
theorem reduce_andi_of_all {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_one x _ fun n _ => hx n

/-! ## The composition of the operations -/

section Pure
variable {F : FTy → Type} [FloatOps F] [Cert.ReferenceIdeal.Facts]

/-- The index words after the look-up's wrap of negative indices. -/
def wrapped (idx : IVec S200 32) : IVec S200 32 :=
  select (cmpi .slt idx (broadcastInDim S200 ![] bcast_S_S200 (constantI S_ 32 0#32)))
    (addi idx (broadcastInDim S200 ![] bcast_S_S200 (constantI S_ 32 100000#32))) idx

/-- … as the column of start indices the gather takes. -/
def col (idx : IVec S200 32) : IVec S200x1 32 := broadcastInDim S200x1 ![0] bcast_S200_S200x1_0 (wrapped idx)

/-- The look-up's bounds test, per index word. -/
def inRange (idx : IVec S200 32) : IVec S200 1 :=
  Host.reduce IntOp.andi
    (andi (cmpi .sge (col idx) (broadcastInDim S200x1 ![] bcast_S_S200x1 (constantI S_ 32 0#32)))
      (cmpi .sle (col idx) (broadcastInDim S200x1 ![0, 1] bcast_S1x1_S200x1_0_1
        (broadcastInDim S1x1 ![1] bcast_S1_S1x1_1 (constantI S1 32 99999#32)))))
    (constantI S_ 1 1#1) reducesTo_S200x1_S200_d1 h_S_

/-- The looked-up rows: the gathered row where the index is in range, the fill elsewhere. -/
def taken (idx : IVec S200 32) (emb : FVec F S100000x128 .f32) : FVec F S200x128 .f32 :=
  select (broadcastInDim S200x128 ![0] bcast_S200_S200x128_0 (inRange idx))
    (Host.gather gather_S100000x128_S200x1_S200x128_1_0_n_n_0_1_1128 emb (col idx))
    (broadcastInDim S200x128 ![] bcast_S_S200x128 (constant S_ .f32 0x7FC00000#32))

/-- Their sum over the 200 rows, from zero. -/
def colSums (idx : IVec S200 32) (emb : FVec F S100000x128 .f32) : FVec F S128 .f32 :=
  Host.reduceAdd (taken idx emb) (constant S_ .f32 0x00000000#32) reducesTo_S200x128_S128_d0 h_S_

/-- The reference's result as a function of its four arguments. -/
def out (idx : IVec S200 32) (emb W : FVec F S100000x128 .f32) (b : FVec F S100000 .f32) : FVec F S1x100000 .f32 :=
  addf
    (Host.dotGeneral dot_S1x128_S128x100000_S1x100000_1_0_0_1_n_n none
      (shapeCast S1x128 (colSums idx emb) shapeCasts_S128_S1x128)
      (transpose S128x100000 [1, 0] W transposes_S100000x128_S128x100000_1_0))
    (broadcastInDim S1x100000 ![1] bcast_S100000_S1x100000_1 b)

attribute [local irreducible] Host.reduce Host.gather in
/-- The operations' fold at the result buffer is `out` of the argument buffers' contents. -/
theorem after_out (V : Valuation τ sig (Elt F)) :
    after ops V (main_v6 : DevRef τ sig)
      = out (V (main_arg0 : DevRef τ sig)) (V (main_arg1 : DevRef τ sig)) (V (main_arg2 : DevRef τ sig)) (V (main_arg3 : DevRef τ sig)) := by
  after_results_simp
  rfl

theorem after_arg0 (V : Valuation τ sig (Elt F)) : after ops V (main_arg0 : DevRef τ sig) = V (main_arg0 : DevRef τ sig) := by
  after_results_simp
theorem after_arg1 (V : Valuation τ sig (Elt F)) : after ops V (main_arg1 : DevRef τ sig) = V (main_arg1 : DevRef τ sig) := by
  after_results_simp
theorem after_arg2 (V : Valuation τ sig (Elt F)) : after ops V (main_arg2 : DevRef τ sig) = V (main_arg2 : DevRef τ sig) := by
  after_results_simp
theorem after_arg3 (V : Valuation τ sig (Elt F)) : after ops V (main_arg3 : DevRef τ sig) = V (main_arg3 : DevRef τ sig) := by
  after_results_simp

end Pure

/-! ## The look-up when every index word is below 100000 -/

section InRange
variable {F : FTy → Type} [FloatOps F] [Cert.ReferenceIdeal.Facts]
variable (idx : IVec S200 32) (hidx : ∀ j, (idx j).toNat < 100000)
include hidx

/-- No index word is negative: the wrap changes nothing. -/
theorem wrapped_eq : wrapped idx = idx := funext fun j => wrap_word (hidx j)

/-- The column of start indices holds the index words. -/
theorem col_apply (i : S200x1.Idx) : col idx i = idx (ix1 (i 0)) := by
  unfold col
  rw [wrapped_eq idx hidx]
  exact broadcastInDim_apply _ _ idx i (ix1 (i 0)) fun a => match a with | ⟨0, _⟩ => rfl

/-- The bounds test holds of every index word. -/
theorem inRange_eq : inRange idx = fun _ => 1#1 := by
  funext j
  refine reduce_andi_of_all _ _ _ _ (fun i => ?_) (fun _ => rfl) j
  have hi : (col idx i).toNat < 100000 := by rw [col_apply idx hidx]; exact hidx _
  exact IntOp.andi_eq_one.2 ⟨ge_word hi, le_word hi⟩

/-- Row `e` of the looked-up array is the table's row named by index word `e`. -/
theorem taken_apply (emb : FVec F S100000x128 .f32) (e : Fin 200) (c : Fin 128) :
    taken idx emb (ix2 e c) = emb (ix2 (Cert.Spec.rowOf (idx (ix1 e))) c) := by
  unfold taken
  rw [inRange_eq idx hidx]
  show Scalar.select 1#1 (Host.gather gather_S100000x128_S200x1_S200x128_1_0_n_n_0_1_1128 emb (col idx) (ix2 e c)) _ = _
  rw [select_one]
  have hg : (gather_S100000x128_S200x1_S200x128_1_0_n_n_0_1_1128 : GatherDims S100000x128 S200x1 S200x128)
      = Cert.RowIndex.rowGatherDims 100000 200 128 gather_S100000x128_S200x1_S200x128_1_0_n_n_0_1_1128_wf := rfl
  rw [hg, Cert.RowIndex.rowGather_apply (by decide)]
  refine congrArg (fun r : Fin 100000 => emb (ix2 r c)) (Fin.ext ?_)
  show min (col idx (ix2 e (0 : Fin 1))).toInt.toNat (100000 - 1) = (idx (ix1 e)).toNat % 100000
  have he := hidx (ix1 e)
  rw [col_apply idx hidx, show ((ix2 e (0 : Fin 1) : S200x1.Idx) 0) = e from rfl, toInt_of_lt he, Int.toNat_natCast,
    Nat.mod_eq_of_lt he]
  omega

end InRange

/-! ## The result at the ideal values -/

section IdealValue
variable [Cert.ReferenceIdeal.Facts]
variable (idx : IVec S200 32) (hidx : ∀ j, (idx j).toNat < 100000)
include hidx

/-- The source index over column `c` with row `k`. -/
theorem lift_rows (h : S200x128.Reduces [0] S128) (c : Fin 128) (k : Fin 200) : h.lift (ix1 c) k = ix2 k c := by
  funext a
  refine Fin.ext ?_
  match a with
  | ⟨0, _⟩ => rfl
  | ⟨1, _⟩ => rfl

/-- The column sums: entry `c` is the sum over the 200 index words of the named rows' entry `c`. -/
theorem colSums_apply (emb : FVec Ideal S100000x128 .f32) (c : Fin 128) :
    colSums idx emb (ix1 c) = ∑ j : Fin 200, emb (ix2 (Cert.Spec.rowOf (idx (ix1 j))) c) := by
  have h : S200x128.Reduces [0] S128 := by decide
  unfold colSums Host.reduceAdd
  rw [Ideal.hostReduceAdd_def, Ideal.hostReduceAdd_single reducesTo_S200x128_S128_d0 h, constant_apply, Ideal.ofBits_zero_f32,
    zero_add]
  refine Finset.sum_congr rfl fun k _ => ?_
  rw [lift_rows idx hidx h c k]
  exact taken_apply idx hidx emb k c

/-- The reference's result is the shared specification of the four arguments. -/
theorem out_eq_G (emb W : FVec Ideal S100000x128 .f32) (b : FVec Ideal S100000 .f32) :
    out idx emb W b = Cert.Spec.G idx emb W b := by
  funext i
  obtain ⟨r, v, rfl⟩ : ∃ (r : Fin 1) (v : Fin 100000), i = ix2 r v := ⟨i 0, i 1, eq_ix2 i⟩
  have hD : (dot_S1x128_S128x100000_S1x100000_1_0_0_1_n_n : DotDims S1x128 S128x100000 S1x100000) = DotDims.plain 1 128 100000 := rfl
  unfold out Cert.Spec.G Cert.Spec.matVec
  rw [addf_apply, hD, StackMember.dotGeneral_plain_apply]
  congr 1
  · refine Finset.sum_congr rfl fun k _ => ?_
    congr 1
    · rw [shapeCast_apply (colSums idx emb) shapeCasts_S128_S1x128 (ix2 r k) (ix1 k) (by
        rw [Shape.rowMajor_val_one, Shape.rowMajor_val_two]
        have := r.isLt
        show k.val = r.val * 128 + k.val
        omega)]
      rw [colSums_apply idx hidx]
      rfl
    · exact transpose_apply [1, 0] W transposes_S100000x128_S128x100000_1_0 (ix2 k v) (ix2 v k) fun b => match b with
        | ⟨0, _⟩ => rfl
        | ⟨1, _⟩ => rfl
  · exact broadcastInDim_apply _ _ b (ix2 r v) (ix1 v) fun a => match a with | ⟨0, _⟩ => rfl

end IdealValue

end Cert.RefSide

end
-- ==== Proof.RefRun.lean ====
/-
  The reference side of the certificate, in the two forms the main proof cites.

  `idx_lt_of_pre`: the precondition's integer conjunct — every index word is at least 0 and at most 99999 as a signed
  word, all 200 of them — says each word, read as a natural number, is below 100000.
  `run`: at the ideal values, from a launch memory whose index words are all below 100000, the reference terminates,
  its result buffer holds `Cert.Spec.G` of the four argument arrays, and the arguments are unchanged.
-/
import proofs.«204126_g14654428414512_cont_week2b_26_29_alg».proof.Proof.RefValue
import proofs.«204126_g14654428414512_cont_week2b_26_29_alg».proof.Proof.Gen.Pre_input_domain

noncomputable section

namespace Cert.RefSide

open Idealize.ShloMosaic Idealize.SL.Sem
open Idealize.ShloMosaic.TcCoe Idealize.ShloMosaic.StableHlo Idealize.ShloMosaic.ValueIdx

/-- A signed word between 0 and 99999 is below 100000 as a natural number. -/
theorem toNat_lt_of_signed {w : BitVec 32} (h0 : (0 : Int) ≤ w.toInt) (h9 : w.toInt ≤ 99999) : w.toNat < 100000 := by
  have hw := w.isLt
  rw [BitVec.toInt_eq_toNat_cond] at h0 h9
  split at h0 <;> omega

/-- the precondition gives: every index word, read as a natural number, is below 100000 -/
theorem idx_lt_of_pre {F : FTy → Type} [FloatOps F] [Cert.Pre_input_domain.Facts]
    (a0 : (⟨Cert.Spec.S200, .i32⟩ : BufTy).Contents (Elt F)) (a1 a2 : (⟨Cert.Spec.S100000x128, .f32⟩ : BufTy).Contents (Elt F)) (a3 : (⟨Cert.Spec.S100000, .f32⟩ : BufTy).Contents (Elt F))
    (h : Cert.Pre_input_domain.fn (F := F) a0 a1 a2 a3 = fun _ => 1#1) : ∀ j, (a0 j).toNat < 100000 := by
  intro j
  have e := congrFun h ix0
  simp only [Cert.Pre_input_domain.fn, Cert.Pre_input_domain.fn_part1] at e
  -- the last conjunct is the reduction by `and` over the 200 words of the two comparisons
  obtain ⟨-, e19⟩ := IntOp.andi_eq_one.1 e
  have ej := Host.reduce_andi_eq_one _ _ _ _ ix0 e19 j (funext fun b => b.elim0)
  obtain ⟨e0, e9⟩ := IntOp.andi_eq_one.1 ej
  have h0 : (0#32 : BitVec 32).toInt ≤ (a0 j).toInt := IntOp.cmpi_sge.1 e0
  have h9 : (a0 j).toInt ≤ (99999#32 : BitVec 32).toInt := IntOp.cmpi_sle.1 e9
  rw [toInt_zero32] at h0
  rw [toInt_99999] at h9
  exact toNat_lt_of_signed h0 h9

/-- the reference's run at Ideal: it terminates, the result buffer main_v6 holds Cert.Spec.G of the four argument arrays, the arguments are unchanged -/
theorem run [Cert.ReferenceIdeal.Facts]
    (m : (ℓ : Loc Cert.ReferenceIdeal.nD Cert.ReferenceIdeal.τ Cert.ReferenceIdeal.sig) → Buf (Elt Ideal) ℓ) (ρ : Dev Cert.ReferenceIdeal.nD → PrngReg)
    (hidx : ∀ (c : Dev Cert.ReferenceIdeal.nD) j, (m ((c.tc : Thread Cert.ReferenceIdeal.nD Cert.ReferenceIdeal.τ).loc Cert.ReferenceIdeal.main_arg0) j).toNat < 100000) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread _ Cert.ReferenceIdeal.τ).loc Cert.ReferenceIdeal.main_v6)
            = Cert.Spec.G (m ((c.tc : Thread _ Cert.ReferenceIdeal.τ).loc Cert.ReferenceIdeal.main_arg0)) (m ((c.tc : Thread _ Cert.ReferenceIdeal.τ).loc Cert.ReferenceIdeal.main_arg1))
                (m ((c.tc : Thread _ Cert.ReferenceIdeal.τ).loc Cert.ReferenceIdeal.main_arg2)) (m ((c.tc : Thread _ Cert.ReferenceIdeal.τ).loc Cert.ReferenceIdeal.main_arg3))
        ∧ r.2.mem ((c.tc : Thread _ Cert.ReferenceIdeal.τ).loc Cert.ReferenceIdeal.main_arg0) = m ((c.tc : Thread _ Cert.ReferenceIdeal.τ).loc Cert.ReferenceIdeal.main_arg0)
        ∧ r.2.mem ((c.tc : Thread _ Cert.ReferenceIdeal.τ).loc Cert.ReferenceIdeal.main_arg1) = m ((c.tc : Thread _ Cert.ReferenceIdeal.τ).loc Cert.ReferenceIdeal.main_arg1)
        ∧ r.2.mem ((c.tc : Thread _ Cert.ReferenceIdeal.τ).loc Cert.ReferenceIdeal.main_arg2) = m ((c.tc : Thread _ Cert.ReferenceIdeal.τ).loc Cert.ReferenceIdeal.main_arg2)
        ∧ r.2.mem ((c.tc : Thread _ Cert.ReferenceIdeal.τ).loc Cert.ReferenceIdeal.main_arg3) = m ((c.tc : Thread _ Cert.ReferenceIdeal.τ).loc Cert.ReferenceIdeal.main_arg3)) :=
  (θ_run (Cert.ReferenceIdeal.defs (F := Ideal)) _ _).mono
    (fun _ h c =>
      ⟨(h c Cert.ReferenceIdeal.main_v6).trans ((after_out _).trans (out_eq_G _ (hidx c) _ _ _)),
        (h c Cert.ReferenceIdeal.main_arg0).trans (after_arg0 _),
        (h c Cert.ReferenceIdeal.main_arg1).trans (after_arg1 _),
        (h c Cert.ReferenceIdeal.main_arg2).trans (after_arg2 _),
        (h c Cert.ReferenceIdeal.main_arg3).trans (after_arg3 _)⟩)
    (run_main m ρ)

end Cert.RefSide

end
-- ==== Proof.B.Common.lean ====
/-
  The setting shared by the modules about the kernel program as printed: the program as the SparseCore launch theorem
  reads it (one call, on one vector subcore of one SparseCore, then one TensorCore pipeline), the resource algebra
  (the handshakes' rounds, the pipeline's staging cells' rounds, the transfers' counters), the six arrays of @main,
  and what is asked of the launch memory: every index word names a row of the table.
-/
import proofs.«204126_g14654428414512_cont_week2b_26_29_alg».proof.Defs
import proofs.«204126_g14654428414512_cont_week2b_26_29_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«204126_g14654428414512_cont_week2b_26_29_alg».proof.Proof.Gen.Kernel
import proofs.«204126_g14654428414512_cont_week2b_26_29_alg».proof.Proof.Gen.Kernel.Skeleton
import proofs.«204126_g14654428414512_cont_week2b_26_29_alg».proof.Proof.Gen.Kernel.Launch
import proofs.«204126_g14654428414512_cont_week2b_26_29_alg».proof.Proof.Gen.Kernel.Points
import proofs.«204126_g14654428414512_cont_week2b_26_29_alg».proof.Proof.Gen.Pre_input_domain

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 1 := rfl
theorem nCore_zero : (K (F := F)).nCore 0 = 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## The arrays -/

abbrev iLoc (d : Dev nD) : Loc nD τ sig := (SparseCore.T d).loc main_arg0
abbrev eLoc (d : Dev nD) : Loc nD τ sig := (SparseCore.T d).loc main_arg1
abbrev wLoc (d : Dev nD) : Loc nD τ sig := (SparseCore.T d).loc main_arg2
abbrev bLoc (d : Dev nD) : Loc nD τ sig := (SparseCore.T d).loc main_arg3
abbrev pLoc (d : Dev nD) : Loc nD τ sig := (SparseCore.T d).loc main_v0
abbrev oLoc (d : Dev nD) : Loc nD τ sig := (SparseCore.T d).loc main_v1

/-- Every index word of the launch memory names a row of the table. -/
def PreOK (m : (ℓ : Loc nD τ sig) → Buf (Elt F) ℓ) : Prop := ∀ (d : Dev nD) (j : S200.Idx), (m (iLoc d) j).toNat < 100000

end Cert.KB

end
-- ==== Proof.B.ScBody.lean ====
/-
  The SparseCore kernel's body on its one vector subcore: the index fetch, the two indirect gathers of the table's rows
  into the row scratch, the two counted loops that add the 200 rows up in eight 16-lane accumulators, the stores of the
  accumulators into the 128-word scratch and its copy into row 0 of the result. The result is NAMED: entry (0, k) is
  the left-nested sum of the entries k of the rows the 200 index words name, in the order the kernel adds them.
-/
import proofs.«204126_g14654428414512_cont_week2b_26_29_alg».proof.Proof.B.Common
import Idealize.ShloMosaic.Lib.ValueLayout
import Idealize.ShloMosaic.Lib.WritesUnit

noncomputable section

namespace Cert.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The value -/

section Value
variable [FloatOps F]

/-- Entry `k` of the table row the `n`-th index word names (the word's position read modulo 200, so that the function is total). -/
def rowAt (idx : Cert.Spec.S200.Idx → Elt F .i32) (emb : Cert.Spec.S100000x128.Idx → Elt F .f32) (k : Fin 128) (n : ℕ) : Elt F .f32 :=
  emb (ix2 (Cert.Spec.rowOf (idx (ix1 (⟨n % 200, Nat.mod_lt _ (by decide)⟩ : Fin 200)))) k)

/-- Column `k` after the rows `0 … n` have been added, in the kernel's order: row 0, plus row 1, … plus row `n`. -/
def accF (idx : Cert.Spec.S200.Idx → Elt F .i32) (emb : Cert.Spec.S100000x128.Idx → Elt F .f32) (k : Fin 128) : ℕ → Elt F .f32
  | 0 => rowAt idx emb k 0
  | n + 1 => FloatOps.addf (φ := .f32) (accF idx emb k n) (rowAt idx emb k (n + 1))

/-- What the kernel leaves in its result: entry `(0, k)` is row `idx 0`'s entry `k`, plus row `idx 1`'s, … plus row
    `idx 199`'s, added left to right; the row a word `w` names is `Cert.Spec.rowOf w`. -/
def scOut (idx : Cert.Spec.S200.Idx → Elt F .i32) (emb : Cert.Spec.S100000x128.Idx → Elt F .f32) : Cert.Spec.S1x128.Idx → Elt F .f32 :=
  fun i => accF idx emb (i 1) 199

end Value

/-- Below 200 the position is read as it stands. -/
theorem rowAt_of_lt (idx : Cert.Spec.S200.Idx → Elt F .i32) (emb : Cert.Spec.S100000x128.Idx → Elt F .f32) (k : Fin 128) (j : Fin 200) :
    rowAt idx emb k j.val = emb (ix2 (Cert.Spec.rowOf (idx (ix1 j))) k) := by
  unfold rowAt
  have : (⟨j.val % 200, Nat.mod_lt _ (by decide)⟩ : Fin 200) = j := Fin.ext (Nat.mod_eq_of_lt j.isLt)
  rw [this]

/-- On the extended reals the left-nested sum of rows `0 … n` is the sum over the first `n + 1` positions. -/
theorem accF_ideal_sum (idx : Cert.Spec.S200.Idx → Elt Ideal .i32) (emb : Cert.Spec.S100000x128.Idx → Elt Ideal .f32) (k : Fin 128) :
    ∀ n : ℕ, accF (F := Ideal) idx emb k n = ∑ j ∈ Finset.range (n + 1), (rowAt idx emb k j : EReal)
  | 0 => by simp [accF]
  | n + 1 => by
    rw [Finset.sum_range_succ, ← accF_ideal_sum idx emb k n]
    rfl

/-- On the extended reals the left-nested sum of the 200 entries is their sum over the 200 positions. -/
theorem scOut_ideal (idx : Cert.Spec.S200.Idx → Elt Ideal .i32) (emb : Cert.Spec.S100000x128.Idx → Elt Ideal .f32) :
    scOut (F := Ideal) idx emb = Cert.Spec.sumRows idx emb := by
  funext i
  refine (accF_ideal_sum idx emb (i 1) 199).trans ?_
  refine (Fin.sum_univ_eq_sum_range (fun j => (rowAt idx emb (i 1) j : EReal)) 200).symm.trans ?_
  exact Finset.sum_congr rfl fun j _ => rowAt_of_lt idx emb (i 1) j

/-! ## What the body holds and gives back -/

section Stmt
variable [FloatOps F] (m : (ℓ : Loc nD τ sig) → Buf (Elt F) ℓ)

abbrev iPts (d : Dev nD) : sProp 𝕄 := iLoc d ↦{fullShare} m (iLoc d)
abbrev ePts (d : Dev nD) : sProp 𝕄 := eLoc d ↦{fullShare} m (eLoc d)
abbrev pPts (d : Dev nD) (f : Buf (Elt F) (pLoc d)) : sProp 𝕄 := pLoc d ↦{fullShare} f
abbrev cV (L : grid0.Coords) : Fin τ.nSC := (L 0).castLE hcore0
abbrev jV (L : grid0.Coords) : Fin τ.nSub := (L 1).castLE hsub0

end Stmt

/-! ## The body -/

local notation "iV" => (Memref.whole Cert.Kernel.main_arg0_scv : Memref Cert.Kernel.sig Kind.scVector Space.hbm Cert.Kernel.S200 EltTy.i32)
local notation "eV" => (Memref.whole Cert.Kernel.main_arg1_scv : Memref Cert.Kernel.sig Kind.scVector Space.hbm Cert.Kernel.S100000x128 EltTy.f32)
local notation "pV" => (Memref.whole Cert.Kernel.main_v0_scv : Memref Cert.Kernel.sig Kind.scVector Space.hbm Cert.Kernel.S1x128 EltTy.f32)
local notation "sV" => (Memref.whole Cert.Kernel.cc0_scratch0 : Memref Cert.Kernel.sig Kind.scVector Space.vmem Cert.Kernel.S200 EltTy.i32)
local notation "rV" => (Memref.whole Cert.Kernel.cc0_scratch1 : Memref Cert.Kernel.sig Kind.scVector Space.vmem Cert.Kernel.S200x128 EltTy.f32)
local notation "aV" => (Memref.whole Cert.Kernel.cc0_scratch2 : Memref Cert.Kernel.sig Kind.scVector Space.vmem Cert.Kernel.S128 EltTy.f32)

section Tile
variable (d : Dev nD) (L : grid0.Coords)

abbrev cell3 (d : Dev nD) (c : Fin τ.nSC) (i : Fin τ.nSub) : GSem nD τ sig := (V d c i, .dma cc0_scratch3.sem)
abbrev cell4 (d : Dev nD) (c : Fin τ.nSC) (i : Fin τ.nSub) : GSem nD τ sig := (V d c i, .dma cc0_scratch4.sem)
abbrev cellA (d : Dev nD) (c : Fin τ.nSC) (i : Fin τ.nSub) : GSem nD τ sig := (V d c i, .dma cc0_scoped0.sem)
abbrev cellB (d : Dev nD) (c : Fin τ.nSC) (i : Fin τ.nSub) : GSem nD τ sig := (V d c i, .dma cc0_scoped1.sem)

theorem ownSems0_V :
    (ownSems0 (V d (cV L) (jV L)) : sProp 𝕄)
      = iprop(semVal (cell3 d (cV L) (jV L)) 0 ∗ semVal (cell4 d (cV L) (jV L)) 0 ∗ semVal (cellA d (cV L) (jV L)) 0 ∗ semVal (cellB d (cV L) (jV L)) 0
          ∗ bigSep (((((ownCells (V d (cV L) (jV L))).erase (cell3 d (cV L) (jV L))).erase (cell4 d (cV L) (jV L))).erase (cellA d (cV L) (jV L))).erase (cellB d (cV L) (jV L))) fun g => semVal g 0) := by
  unfold SparseCore.Cfg.ownSems0
  rw [SparseCore.bigSep_erase' ((mem_ownCells (g := cell3 d (cV L) (jV L))).mpr ⟨rfl, by
      show (SemLoc.dma cc0_scratch3.sem : SemLoc sig).isScoped .scVector = true; decide⟩),
    SparseCore.bigSep_erase' (Finset.mem_erase.mpr ⟨by simp [cell3, cell4]; decide, (mem_ownCells (g := cell4 d (cV L) (jV L))).mpr ⟨rfl, by
      show (SemLoc.dma cc0_scratch4.sem : SemLoc sig).isScoped .scVector = true; decide⟩⟩),
    SparseCore.bigSep_erase' (Finset.mem_erase.mpr ⟨by simp [cell4, cellA]; decide, Finset.mem_erase.mpr ⟨by simp [cell3, cellA]; decide,
      (mem_ownCells (g := cellA d (cV L) (jV L))).mpr ⟨rfl, by show (SemLoc.dma cc0_scoped0.sem : SemLoc sig).isScoped .scVector = true; decide⟩⟩⟩),
    SparseCore.bigSep_erase' (Finset.mem_erase.mpr ⟨by simp [cellA, cellB]; decide, Finset.mem_erase.mpr ⟨by simp [cell4, cellB]; decide, Finset.mem_erase.mpr ⟨by simp [cell3, cellB]; decide,
      (mem_ownCells (g := cellB d (cV L) (jV L))).mpr ⟨rfl, by show (SemLoc.dma cc0_scoped1.sem : SemLoc sig).isScoped .scVector = true; decide⟩⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ### The pieces of the two scratch arrays the gathers use -/

abbrev r0 : Rect S200x128 := Rect.unit (s := S200x128) ![0, 0] S104x128.size inb_S200x128_S104x128_0_0
abbrev r1 : Rect S200x128 := Rect.unit (s := S200x128) ![104, 0] S96x128.size inb_S200x128_S96x128_104_0
abbrev i0 : Rect S200 := Rect.unit (s := S200) ![0] S104.size inb_S200_S104_0
abbrev i1 : Rect S200 := Rect.unit (s := S200) ![104] S96.size inb_S200_S96_104
abbrev rA : Memref sig .scVector .vmem S104x128 .f32 := (rV).slice r0 (fun _ => rfl)
abbrev rB : Memref sig .scVector .vmem S96x128 .f32 := (rV).slice r1 (fun _ => rfl)
abbrev sA : Memref sig .scVector .vmem S104 .i32 := (sV).slice i0 (fun _ => rfl)
abbrev sB : Memref sig .scVector .vmem S96 .i32 := (sV).slice i1 (fun _ => rfl)
abbrev eAll : Memref sig .scVector .hbm S100000x128 .f32 := (eV).slice (Rect.unit (s := S100000x128) ![0, 0] S100000x128.size inb_S100000x128_S100000x128_0_0) (fun _ => rfl)

theorem set_rA : (rA).view.set = r0.set := View.set_slice_whole _ _
theorem set_rB : (rB).view.set = r1.set := View.set_slice_whole _ _
theorem set_sA : (sA).view.set = i0.set := View.set_slice_whole _ _
theorem set_sB : (sB).view.set = i1.set := View.set_slice_whole _ _

theorem rows_disj : Disjoint r0.set r1.set := Rect.unit_disjoint (0 : Fin 2) (Or.inl (Nat.le_refl 104))
theorem words_disj : Disjoint i0.set i1.set := Rect.unit_disjoint (0 : Fin 1) (Or.inl (Nat.le_refl 104))

theorem rows_cover : r0.set ∪ r1.set = (Finset.univ : Finset S200x128.Idx) := by
  ext i
  simp only [Finset.mem_union, Rect.mem_set_unit, Finset.mem_univ, iff_true, Fin.forall_fin_two]
  have h0 := idx2_lt0 i; have h1 := idx2_lt1 i
  simp only [Matrix.cons_val_zero, Matrix.cons_val_one, Shape.size] at *
  omega

theorem words_cover : i0.set ∪ i1.set = (Finset.univ : Finset S200.Idx) := by
  ext i
  simp only [Finset.mem_union, Rect.mem_set_unit, Finset.mem_univ, iff_true, Fin.forall_fin_one]
  have h0 : (i 0).val < 200 := (i 0).isLt
  simp only [Matrix.cons_val_zero, Shape.size] at *
  omega

/-! ### The accumulators -/

section Accs
variable [FloatOps F]

/-- Lane `i` of chunk `ch` is column `16·ch + i`. -/
def colOf (ch : Fin 8) (i : S16.Idx) : Fin 128 :=
  ⟨16 * ch.val + (i 0).val, by have h : (i 0).val < 16 := (i 0).isLt; have := ch.isLt; omega⟩

/-- Chunk `ch` of the column sums after rows `0 … n`. -/
def chunk (idx : S200.Idx → Elt F .i32) (emb : S100000x128.Idx → Elt F .f32) (ch : Fin 8) (n : ℕ) : FVec F S16 .f32 :=
  fun i => accF idx emb (colOf ch i) n

/-- The eight accumulators after rows `0 … n`. -/
abbrev accs (idx : S200.Idx → Elt F .i32) (emb : S100000x128.Idx → Elt F .f32) (n : ℕ) :
    FVec F S16 .f32 × FVec F S16 .f32 × FVec F S16 .f32 × FVec F S16 .f32 × FVec F S16 .f32 × FVec F S16 .f32 × FVec F S16 .f32 × FVec F S16 .f32 :=
  (chunk idx emb 0 n, chunk idx emb 1 n, chunk idx emb 2 n, chunk idx emb 3 n, chunk idx emb 4 n, chunk idx emb 5 n, chunk idx emb 6 n, chunk idx emb 7 n)

end Accs

/-- What a gather of `n` rows landed at rows `o … o + n - 1` of the row scratch: row `j` holds the table row the `j`-th index word names. -/
theorem landed_gen (n o : ℕ) (inbR : ∀ a, (![o, 0] : Fin 2 → ℕ) a + (⟨2, ![n, 128]⟩ : Shape).size a ≤ S200x128.size a)
    (inbI : ∀ a, (![o] : Fin 1 → ℕ) a + (⟨1, ![n]⟩ : Shape).size a ≤ S200.size a)
    (hg : S100000x128.Gathers 0 (⟨2, ![n, 128]⟩ : Shape)) (hn : (⟨1, ![n]⟩ : Shape).numel = (⟨2, ![n, 128]⟩ : Shape).size hg.axis')
    (idx : S200.Idx → Elt F .i32) (emb : S100000x128.Idx → Elt F .f32) (f1 : S200x128.Idx → Elt F .f32)
    (hpre : ∀ j, (idx j).toNat < 100000)
    (hin : ∀ x, (((sV).slice (Rect.unit (s := S200) ![o] (⟨1, ![n]⟩ : Shape).size inbI) (fun _ => rfl)).view.read (Elt F) idx x).toNat < S100000x128.size hg.axis)
    (j : Fin 200) (k : Fin 128) (hlo : o ≤ j.val) (hhi : j.val < o + n) :
    ((rV).slice (Rect.unit (s := S200x128) ![o, 0] (⟨2, ![n, 128]⟩ : Shape).size inbR) (fun _ => rfl)).view.write (Elt F) f1
        (SparseCore.gatherPayload hg ((eAll).view.read (Elt F) emb)
          (SparseCore.rows (((sV).slice (Rect.unit (s := S200) ![o] (⟨1, ![n]⟩ : Shape).size inbI) (fun _ => rfl)).view.read (Elt F) idx) hn hin)) Finset.univ (ix2 j k)
      = rowAt idx emb k j.val := by
  let x : (⟨2, ![n, 128]⟩ : Shape).Idx := ix2 (⟨j.val - o, by omega⟩ : Fin n) k
  have hx : ((rV).slice (Rect.unit (s := S200x128) ![o, 0] (⟨2, ![n, 128]⟩ : Shape).size inbR) (fun _ => rfl)).view.emb x = ix2 j k := by
    funext a; apply Fin.ext
    match a with
    | ⟨0, _⟩ => show o + 1 * (j.val - o) = j.val; omega
    | ⟨1, _⟩ => show 0 + 1 * k.val = k.val; omega
  rw [← hx, View.write_emb_of_mem _ _ (Finset.mem_univ x)]
  rw [cast_eq]
  unfold SparseCore.gatherPayload
  rw [View.read_apply, cast_eq]
  unfold rowAt
  congr 1
  funext a; apply Fin.ext
  match a with
  | ⟨0, _⟩ =>
    have hz : ∀ z : (⟨1, ![n]⟩ : Shape).Idx, (z 0).val = j.val - o →
        View.read (Elt F) ((sV).slice (Rect.unit (s := S200) ![o] (⟨1, ![n]⟩ : Shape).size inbI) (fun _ => rfl)).view idx z
          = idx (ix1 (⟨j.val % 200, Nat.mod_lt _ (by decide)⟩ : Fin 200)) := by
      intro z hz
      refine ((View.read_apply _ _).trans (cast_eq _ _)).trans (congrArg idx ?_)
      funext b; apply Fin.ext
      match b with
      | ⟨0, _⟩ =>
        show o + 1 * (z 0).val = j.val % 200
        rw [hz, Nat.mod_eq_of_lt j.isLt]; omega
    show 0 + 1 * (hg.idx _ x hg.axis).val = _
    rw [Shape.Gathers.idx_axis, Nat.zero_add, Nat.one_mul, Cert.Spec.rowOf_val_of_lt (hpre _)]
    show (View.read (Elt F) ((sV).slice (Rect.unit (s := S200) ![o] (⟨1, ![n]⟩ : Shape).size inbI) (fun _ => rfl)).view idx ((⟨1, ![n]⟩ : Shape).rowMajor.symm ((x hg.axis').cast hn.symm))).toNat = _
    rw [hz _ ((Shape.rowMajor_val_one _).symm.trans (congrArg Fin.val (Equiv.apply_symm_apply _ _)))]
  | ⟨1, _⟩ =>
    show 0 + 1 * (hg.idx _ x ⟨1, _⟩).val = k.val
    rw [Nat.zero_add, Nat.one_mul, Shape.Gathers.idx_of_ne hg _ x ⟨1, _⟩ Nat.one_ne_zero]
    rfl

section ChunkValue
variable [FloatOps F]

/-- Sixteen lanes of row `r` of the row scratch, read at columns `c … c + 15` and cast to a 16-vector, are the entries
    of the table row the `r`-th index word names, where the scratch holds what a gather landed there. -/
theorem chunk_row (idx : S200.Idx → Elt F .i32) (emb : S100000x128.Idx → Elt F .f32) (g : S200x128.Idx → Elt F .f32) (lo hi : ℕ)
    (hL : ∀ (j : Fin 200) (k : Fin 128), lo ≤ j.val → j.val < hi → g (ix2 j k) = rowAt idx emb k j.val)
    (r : ℕ) (hlo : lo ≤ r) (hhi : r < hi) (hr : r < 200) (ch : Fin 8) (c : ℕ) (hc : c = 16 * ch.val)
    (off : Fin 2 → ℕ) (inb : ∀ a, off a + S1x16.size a ≤ S200x128.size a) (hoff : off = ![r, c]) :
    shapeCast S16 (View.readAt (Elt F) (rV).view (Rect.unit (s := S200x128) off S1x16.size inb).toLoadRect g) shapeCasts_S1x16_S16
      = fun i => rowAt idx emb (colOf ch i) r := by
  subst hoff hc
  funext i
  obtain ⟨l, rfl⟩ : ∃ l, i = ix1 l := ⟨i 0, eq_ix1 i⟩
  rw [shapeCast_1a_a_apply, View.readAt_apply, View.read_apply, cast_eq, ← hL ⟨r, hr⟩ (colOf ch (ix1 l)) hlo hhi]
  congr 1
  funext a; apply Fin.ext
  match a with
  | ⟨0, _⟩ => show r + 1 * 0 = r; omega
  | ⟨1, _⟩ => show 16 * ch.val + 1 * l.val = 16 * ch.val + l.val; omega

/-- One accumulator's step: chunk `ch` of the sums of rows `0 … n`, plus sixteen lanes of row `n + 1`, is chunk `ch` of the sums of rows `0 … n + 1`. -/
theorem chunk_add (idx : S200.Idx → Elt F .i32) (emb : S100000x128.Idx → Elt F .f32) (g : S200x128.Idx → Elt F .f32) (lo hi : ℕ)
    (hL : ∀ (j : Fin 200) (k : Fin 128), lo ≤ j.val → j.val < hi → g (ix2 j k) = rowAt idx emb k j.val)
    (n : ℕ) (hlo : lo ≤ n + 1) (hhi : n + 1 < hi) (hr : n + 1 < 200) (ch : Fin 8) (c : ℕ) (hc : c = 16 * ch.val)
    (off : Fin 2 → ℕ) (inb : ∀ a, off a + S1x16.size a ≤ S200x128.size a) (hoff : off = ![n + 1, c]) :
    addf (chunk idx emb ch n) (shapeCast S16 (View.readAt (Elt F) (rV).view (Rect.unit (s := S200x128) off S1x16.size inb).toLoadRect g) shapeCasts_S1x16_S16)
      = chunk idx emb ch (n + 1) := by
  rw [chunk_row idx emb g lo hi hL (n + 1) hlo hhi hr ch c hc off inb hoff]
  rfl

end ChunkValue

section OutValue
variable [FloatOps F]

/-- A 128-vector written through row 0 of the 1 × 128 result (the whole array sliced and its unit axis dropped) is the
    array whose entry `(0, c)` is the vector's entry `c`. -/
theorem out_value (pay : S128.Idx → Elt F .f32) (f tgt : S1x128.Idx → Elt F .f32)
    (hpay : ∀ c : Fin 128, pay (ix1 c) = tgt (ix2 (0 : Fin 1) c)) :
    View.write (Elt F) (((pV).slice (Rect.unit (s := S1x128) ![0, 0] S1x128.size inb_S1x128_S1x128_0_0) (fun _ => rfl)).squeeze S128 squeezes_S1x128_S128).view f pay Finset.univ = tgt := by
  funext i
  obtain ⟨u, c, rfl⟩ : ∃ u c, i = ix2 u c := ⟨i 0, i 1, eq_ix2 i⟩
  obtain rfl : u = 0 := Subsingleton.elim _ _
  have hr : Shape.reshapeEquiv squeezes_S1x128_S128.numel_eq (ix1 c) = (ix2 (0 : Fin 1) c : S1x128.Idx) :=
    Shape.reshapeEquiv_eq_of_rowMajor _ (by
      rw [Shape.rowMajor_val_two, Shape.rowMajor_val_one]
      show 0 * 128 + c.val = c.val
      omega)
  have hemb : (((pV).slice (Rect.unit (s := S1x128) ![0, 0] S1x128.size inb_S1x128_S1x128_0_0) (fun _ => rfl)).squeeze S128 squeezes_S1x128_S128).view.emb (ix1 c)
      = (ix2 (0 : Fin 1) c : S1x128.Idx) := by
    show (Rect.unit (s := S1x128) ![0, 0] S1x128.size inb_S1x128_S1x128_0_0).emb (Shape.reshapeEquiv squeezes_S1x128_S128.numel_eq (ix1 c)) = _
    rw [hr]
    funext a; apply Fin.ext
    match a with
    | ⟨0, _⟩ => show 0 + 1 * 0 = 0; rfl
    | ⟨1, _⟩ => show 0 + 1 * c.val = c.val; omega
  rw [← hemb, View.write_emb_of_mem _ _ (Finset.mem_univ _), cast_eq, hpay, hemb]

end OutValue

variable [FloatOps F] (m : (ℓ : Loc nD τ sig) → Buf (Elt F) ℓ)

/-- Loop 1's invariant: the accumulators hold the sums of rows `0 … k`; rows 0 … 103 of the row scratch as the first gather left them. -/
def inv1 (g1 : Buf (Elt F) ((rA).view.loc (V d (cV L) (jV L)))) (k : ℕ)
    (acc : FVec F S16 .f32 × FVec F S16 .f32 × FVec F S16 .f32 × FVec F S16 .f32 × FVec F S16 .f32 × FVec F S16 .f32 × FVec F S16 .f32 × FVec F S16 .f32) : sProp 𝕄 :=
  iprop(⌜acc = accs (m (iLoc d)) (m (eLoc d)) k⌝ ∗ (rA).view.loc (V d (cV L) (jV L)) ↦[(rA).view.set]{fullShare} g1)

/-- Loop 2's invariant: the accumulators hold the sums of rows `0 … 103 + k`; rows 104 … 199 of the row scratch as the second gather left them. -/
def inv2 (g2 : Buf (Elt F) ((rB).view.loc (V d (cV L) (jV L)))) (k : ℕ)
    (acc : FVec F S16 .f32 × FVec F S16 .f32 × FVec F S16 .f32 × FVec F S16 .f32 × FVec F S16 .f32 × FVec F S16 .f32 × FVec F S16 .f32 × FVec F S16 .f32) : sProp 𝕄 :=
  iprop(⌜acc = accs (m (iLoc d)) (m (eLoc d)) (k + 103)⌝ ∗ (rB).view.loc (V d (cV L) (jV L)) ↦[(rB).view.set]{fullShare} g2)

set_option maxHeartbeats 4000000 in
theorem tile_body_aux (hF : (K (F := F)).Facts) (hpre : PreOK m) (O : CellTallies nD τ sig (HIx 1)) (W : Waits sig (HIx 1)) (hO : ∀ g, O g none = 0) :
    iprop(levAts (K (F := F)).L (K (F := F)).lev ∗ emp
        ∗ (iPts m d ∗ ePts m d ∗ pPts d (m (pLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__embed_sum_body L (Memref.whole main_arg0_scv) (Memref.isWhole_whole _) (Memref.whole main_arg1_scv) (Memref.isWhole_whole _) (Memref.whole main_v0_scv) (Memref.isWhole_whole _)
            (Memref.whole cc0_scratch0) (Memref.isWhole_whole _) (Memref.whole cc0_scratch1) (Memref.isWhole_whole _) (Memref.whole cc0_scratch2) (Memref.isWhole_whole _)
            cc0_scratch3 cc0_scratch4 cc0_scoped0 cc0_scoped1)
          fun _ => iprop((iPts m d ∗ ePts m d ∗ pPts d (scOut (m (iLoc d)) (m (eLoc d))))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__embed_sum_body_eq_skeleton]; unfold cc0__embed_sum_body_skel
  rw [(K (F := F)).scopedBufs_V hF d (cV L) (jV L), SparseCore.Cfg.scopedSems0_V (Val := Elt F) d (cV L) (jV L), ownSems0_V, ownBufs_V]
  iintro ⟨#Hlv, -, ⟨Hi, He, Hp⟩, ⟨⟨%f0, H0⟩, ⟨%f1, H1⟩, ⟨%f2, H2⟩, Hbufs⟩, ⟨Hs3, Hs4, HsA, HsB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (show (iLoc d ↦{fullShare} m (iLoc d) : sProp 𝕄) = (iV).view.loc (V d (cV L) (jV L)) ↦{fullShare} m (iLoc d) from rfl)) $$ Hi
  ihave He' := (Entails.of_eq (show (eLoc d ↦{fullShare} m (eLoc d) : sProp 𝕄) = (eV).view.loc (V d (cV L) (jV L)) ↦{fullShare} m (eLoc d) from rfl)) $$ He
  ihave Hp' := (Entails.of_eq (show (pLoc d ↦{fullShare} m (pLoc d) : sProp 𝕄) = (pV).view.loc (V d (cV L) (jV L)) ↦{fullShare} m (pLoc d) from rfl)) $$ Hp
  ihave H0' := (Entails.of_eq (show ((V d (cV L) (jV L)).loc cc0_scratch0 ↦{fullShare} f0 : sProp 𝕄) = (sV).view.loc (V d (cV L) (jV L)) ↦{fullShare} f0 from rfl)) $$ H0
  ihave H1' := (Entails.of_eq (show ((V d (cV L) (jV L)).loc cc0_scratch1 ↦{fullShare} f1 : sProp 𝕄) = (rV).view.loc (V d (cV L) (jV L)) ↦{fullShare} f1 from rfl)) $$ H1
  ihave H2' := (Entails.of_eq (show ((V d (cV L) (jV L)).loc cc0_scratch2 ↦{fullShare} f2 : sProp 𝕄) = (aV).view.loc (V d (cV L) (jV L)) ↦{fullShare} f2 from rfl)) $$ H2
  sl_exec_parts
  -- the index scratch now holds the index words themselves
  have hfo : View.write (Elt F) (sV).view f0 (tile_body_aux.sl.dma0 d m) Finset.univ = (m (iLoc d) : Buf (Elt F) ((sV).view.loc (V d (cV L) (jV L)))) := by
    rw [View.write_whole_univ]; rfl
  rw [hfo]
  -- the row scratch and the index scratch in the two pieces the gathers take; the table in two half shares
  ihave H1s := (Entails.of_eq (show ((rV).view.loc (V d (cV L) (jV L)) ↦{fullShare} f1 : sProp 𝕄)
      = (rV).view.loc (V d (cV L) (jV L)) ↦[r0.set ∪ r1.set]{fullShare} f1 by rw [rows_cover])) $$ H1'
  ihave H1s := (pointsTo_union rows_disj).1 $$ H1s
  icases H1s with ⟨H1a, H1b⟩
  ihave H0s := (Entails.of_eq (show ((sV).view.loc (V d (cV L) (jV L)) ↦{fullShare} (m (iLoc d) : Buf (Elt F) ((sV).view.loc (V d (cV L) (jV L)))) : sProp 𝕄)
      = (sV).view.loc (V d (cV L) (jV L)) ↦[i0.set ∪ i1.set]{fullShare} (m (iLoc d) : Buf (Elt F) ((sV).view.loc (V d (cV L) (jV L)))) by rw [words_cover])) $$ H0'
  ihave H0s := (pointsTo_union words_disj).1 $$ H0s
  icases H0s with ⟨H0a, H0b⟩
  ihave Hes := (pointsTo_share (PosShare.mem_left_op_right fullShare)).1 $$ He'
  icases Hes with ⟨HeL, HeR⟩
  -- every offset word of either list names a row of the table
  have hin1 : ∀ x, ((sA).view.read (Elt F) (m (iLoc d) : Buf (Elt F) ((sV).view.loc (V d (cV L) (jV L)))) x).toNat < S100000x128.size gathers_S100000x128_S104x128.axis := by
    intro x
    rw [show (sA).view.read (Elt F) (m (iLoc d) : Buf (Elt F) ((sV).view.loc (V d (cV L) (jV L)))) x = m (iLoc d) ((sA).view.emb x) from (View.read_apply _ _).trans (cast_eq _ _)]
    exact hpre d _
  have hin2 : ∀ x, ((sB).view.read (Elt F) (m (iLoc d) : Buf (Elt F) ((sV).view.loc (V d (cV L) (jV L)))) x).toNat < S100000x128.size gathers_S100000x128_S96x128.axis := by
    intro x
    rw [show (sB).view.read (Elt F) (m (iLoc d) : Buf (Elt F) ((sV).view.loc (V d (cV L) (jV L)))) x = m (iLoc d) ((sB).view.emb x) from (View.read_apply _ _).trans (cast_eq _ _)]
    exact hpre d _
  ihave H1a' := (Entails.of_eq (show ((rV).view.loc (V d (cV L) (jV L)) ↦[r0.set]{fullShare} f1 : sProp 𝕄)
      = (rA).view.loc (V d (cV L) (jV L)) ↦[(rA).view.set]{fullShare} f1 by rw [set_rA])) $$ H1a
  ihave H1b' := (Entails.of_eq (show ((rV).view.loc (V d (cV L) (jV L)) ↦[r1.set]{fullShare} f1 : sProp 𝕄)
      = (rB).view.loc (V d (cV L) (jV L)) ↦[(rB).view.set]{fullShare} f1 by rw [set_rB])) $$ H1b
  ihave H0a' := (Entails.of_eq (show ((sV).view.loc (V d (cV L) (jV L)) ↦[i0.set]{fullShare} (m (iLoc d) : Buf (Elt F) ((sV).view.loc (V d (cV L) (jV L)))) : sProp 𝕄)
      = (sA).view.loc (V d (cV L) (jV L)) ↦[(sA).view.set]{fullShare} (m (iLoc d) : Buf (Elt F) ((sV).view.loc (V d (cV L) (jV L)))) by rw [set_sA])) $$ H0a
  ihave H0b' := (Entails.of_eq (show ((sV).view.loc (V d (cV L) (jV L)) ↦[i1.set]{fullShare} (m (iLoc d) : Buf (Elt F) ((sV).view.loc (V d (cV L) (jV L)))) : sProp 𝕄)
      = (sB).view.loc (V d (cV L) (jV L)) ↦[(sB).view.set]{fullShare} (m (iLoc d) : Buf (Elt F) ((sV).view.loc (V d (cV L) (jV L)))) by rw [set_sB])) $$ H0b
  ihave HeL' := (pointsTo_split_subset (q := fullShare.left) (f := m (eLoc d)) (S := Finset.univ) (Finset.subset_univ (eAll).view.set)).1 $$ HeL
  icases HeL' with ⟨HeLs, HeLr⟩
  ihave HeR' := (pointsTo_split_subset (q := fullShare.right) (f := m (eLoc d)) (S := Finset.univ) (Finset.subset_univ (eAll).view.set)).1 $$ HeR
  icases HeR' with ⟨HeRs, HeRr⟩
  -- GATHER 1: rows 0 … 103
  iapply (SparseCore.wp_indirectGatherLocal countersEmb 𝒱₀ (V d (cV L) (jV L)) none (hg := gathers_S100000x128_S104x128) (default : HIx 1)
      (rA).view.dmaCredit (SparseCore.sum_rowCredit_eq_dmaCredit (rA) _ (fun _ => rfl)) (by decide) hin1) $$ [HeLs H1a' H0a' Hs3]
  · isplitl [HeLs]; · iexact HeLs
    isplitl [H1a']; · iexact H1a'
    isplitl [H0a']; · iexact H0a'
    iexact Hs3
  iintro Hfl1
  -- GATHER 2: rows 104 … 199, on the other semaphore, while the first is outstanding
  iapply (SparseCore.wp_indirectGatherLocal countersEmb 𝒱₀ (V d (cV L) (jV L)) none (hg := gathers_S100000x128_S96x128) (default : HIx 1)
      (rB).view.dmaCredit (SparseCore.sum_rowCredit_eq_dmaCredit (rB) _ (fun _ => rfl)) (by decide) hin2) $$ [HeRs H1b' H0b' Hs4]
  · isplitl [HeRs]; · iexact HeRs
    isplitl [H1b']; · iexact H1b'
    isplitl [H0b']; · iexact H0b'
    iexact Hs4
  iintro Hfl2
  sl_exec
  -- WAIT 1: rows 0 … 103 have landed
  iapply (Transfers.wp_waitLocalO countersEmb 𝒱₀ (V d (cV L) (jV L)) none (default : HIx 1) (rfl : (rA).view.dmaCredit = _)) $$ [Hfl1 HO]
  · isplitl [Hfl1]; · iexact Hfl1
    isplitl [HO]; · iexact HO
    iapply (Transfers.MayWaits.elim (SemLoc.dma cc0_scratch3.sem)) $$ Hmw
  iintro ⟨⟨H1a, HeLs, H0a⟩, Hs3, HO⟩
  have hL1 : ∀ (j : Fin 200) (k : Fin 128), 0 ≤ j.val → j.val < 104 →
      (View.write (Elt F) (rA).view f1 (SparseCore.gatherPayload gathers_S100000x128_S104x128 (View.read (Elt F) (eAll).view (m (eLoc d))) (SparseCore.rows (View.read (Elt F) (sA).view (m (iLoc d))) rfl hin1)) Finset.univ) (ix2 j k)
        = rowAt (m (iLoc d)) (m (eLoc d)) k j.val :=
    fun j k hlo hhi => landed_gen 104 0 inb_S200x128_S104x128_0_0 inb_S200_S104_0 gathers_S100000x128_S104x128 rfl (m (iLoc d)) (m (eLoc d)) f1 (hpre d) hin1 j k hlo (by omega)
  generalize View.write (Elt F) (rA).view f1 (SparseCore.gatherPayload gathers_S100000x128_S104x128 (View.read (Elt F) (eAll).view (m (eLoc d))) (SparseCore.rows (View.read (Elt F) (sA).view (m (iLoc d))) rfl hin1)) Finset.univ = g1 at hL1 ⊢
  have hL2 : ∀ (j : Fin 200) (k : Fin 128), 104 ≤ j.val → j.val < 200 →
      (View.write (Elt F) (rB).view f1 (SparseCore.gatherPayload gathers_S100000x128_S96x128 (View.read (Elt F) (eAll).view (m (eLoc d))) (SparseCore.rows (View.read (Elt F) (sB).view (m (iLoc d))) rfl hin2)) Finset.univ) (ix2 j k)
        = rowAt (m (iLoc d)) (m (eLoc d)) k j.val :=
    fun j k hlo hhi => landed_gen 96 104 inb_S200x128_S96x128_104_0 inb_S200_S96_104 gathers_S100000x128_S96x128 rfl (m (iLoc d)) (m (eLoc d)) f1 (hpre d) hin2 j k hlo (by omega)
  generalize View.write (Elt F) (rB).view f1 (SparseCore.gatherPayload gathers_S100000x128_S96x128 (View.read (Elt F) (eAll).view (m (eLoc d))) (SparseCore.rows (View.read (Elt F) (sB).view (m (iLoc d))) rfl hin2)) Finset.univ = g2 at hL2 ⊢
  have htr1 : k0_t1_loop.trips = 103 := by decide
  have htr2 : k0_t2_loop.trips = 96 := by decide
  sl_exec
  sl_for (inv1 d L m g1) $$ [H1a]
  case region =>
    intro k a
    unfold inv1
    iintro ⟨%ha, H1a⟩
    subst ha
    have hk : k.val < 103 := htr1 ▸ k.isLt
    sl_exec
    sl_step
    isplitr
    · ipureintro
      refine Prod.ext ?_ (Prod.ext ?_ (Prod.ext ?_ (Prod.ext ?_ (Prod.ext ?_ (Prod.ext ?_ (Prod.ext ?_ ?_))))))
      · exact chunk_add (m (iLoc d)) (m (eLoc d)) g1 0 104 hL1 k.val (Nat.zero_le _) (by omega) (by omega) 0 0 (by decide) _ _ (k0_off1_eq k)
      · exact chunk_add (m (iLoc d)) (m (eLoc d)) g1 0 104 hL1 k.val (Nat.zero_le _) (by omega) (by omega) 1 16 (by decide) _ _ (k0_off2_eq k)
      · exact chunk_add (m (iLoc d)) (m (eLoc d)) g1 0 104 hL1 k.val (Nat.zero_le _) (by omega) (by omega) 2 32 (by decide) _ _ (k0_off3_eq k)
      · exact chunk_add (m (iLoc d)) (m (eLoc d)) g1 0 104 hL1 k.val (Nat.zero_le _) (by omega) (by omega) 3 48 (by decide) _ _ (k0_off4_eq k)
      · exact chunk_add (m (iLoc d)) (m (eLoc d)) g1 0 104 hL1 k.val (Nat.zero_le _) (by omega) (by omega) 4 64 (by decide) _ _ (k0_off5_eq k)
      · exact chunk_add (m (iLoc d)) (m (eLoc d)) g1 0 104 hL1 k.val (Nat.zero_le _) (by omega) (by omega) 5 80 (by decide) _ _ (k0_off6_eq k)
      · exact chunk_add (m (iLoc d)) (m (eLoc d)) g1 0 104 hL1 k.val (Nat.zero_le _) (by omega) (by omega) 6 96 (by decide) _ _ (k0_off7_eq k)
      · exact chunk_add (m (iLoc d)) (m (eLoc d)) g1 0 104 hL1 k.val (Nat.zero_le _) (by omega) (by omega) 7 112 (by decide) _ _ (k0_off8_eq k)
    · iexact H1a
  · unfold inv1
    isplitr
    · ipureintro
      refine Prod.ext ?_ (Prod.ext ?_ (Prod.ext ?_ (Prod.ext ?_ (Prod.ext ?_ (Prod.ext ?_ (Prod.ext ?_ ?_))))))
      · exact chunk_row (m (iLoc d)) (m (eLoc d)) g1 0 104 hL1 0 (le_refl _) (by decide) (by decide) 0 0 (by decide) _ _ rfl
      · exact chunk_row (m (iLoc d)) (m (eLoc d)) g1 0 104 hL1 0 (le_refl _) (by decide) (by decide) 1 16 (by decide) _ _ rfl
      · exact chunk_row (m (iLoc d)) (m (eLoc d)) g1 0 104 hL1 0 (le_refl _) (by decide) (by decide) 2 32 (by decide) _ _ rfl
      · exact chunk_row (m (iLoc d)) (m (eLoc d)) g1 0 104 hL1 0 (le_refl _) (by decide) (by decide) 3 48 (by decide) _ _ rfl
      · exact chunk_row (m (iLoc d)) (m (eLoc d)) g1 0 104 hL1 0 (le_refl _) (by decide) (by decide) 4 64 (by decide) _ _ rfl
      · exact chunk_row (m (iLoc d)) (m (eLoc d)) g1 0 104 hL1 0 (le_refl _) (by decide) (by decide) 5 80 (by decide) _ _ rfl
      · exact chunk_row (m (iLoc d)) (m (eLoc d)) g1 0 104 hL1 0 (le_refl _) (by decide) (by decide) 6 96 (by decide) _ _ rfl
      · exact chunk_row (m (iLoc d)) (m (eLoc d)) g1 0 104 hL1 0 (le_refl _) (by decide) (by decide) 7 112 (by decide) _ _ rfl
    · iexact H1a
  iintro %a HI
  unfold inv1
  icases HI with ⟨%ha, H1a⟩
  subst ha
  rw [show Scf.trips k0_t1_loop.lb k0_t1_loop.ub k0_t1_loop.st = 103 from htr1]
  sl_exec
  -- WAIT 2: rows 104 … 199 have landed
  iapply (Transfers.wp_waitLocalO countersEmb 𝒱₀ (V d (cV L) (jV L)) none (default : HIx 1) (rfl : (rB).view.dmaCredit = _)) $$ [Hfl2 HO]
  · isplitl [Hfl2]; · iexact Hfl2
    isplitl [HO]; · iexact HO
    iapply (Transfers.MayWaits.elim (SemLoc.dma cc0_scratch4.sem)) $$ Hmw
  iintro ⟨⟨H1b, HeRs, H0b⟩, Hs4, HO⟩
  sl_exec
  sl_for (inv2 d L m g2) $$ [H1b]
  case region =>
    intro k a
    unfold inv2
    iintro ⟨%ha, H1b⟩
    subst ha
    have hk : k.val < 96 := htr2 ▸ k.isLt
    sl_exec
    sl_step
    isplitr
    · ipureintro
      refine Prod.ext ?_ (Prod.ext ?_ (Prod.ext ?_ (Prod.ext ?_ (Prod.ext ?_ (Prod.ext ?_ (Prod.ext ?_ ?_))))))
      · exact chunk_add (m (iLoc d)) (m (eLoc d)) g2 104 200 hL2 (k.val + 103) (by omega) (by omega) (by omega) 0 0 (by decide) _ _ (k0_off9_eq k)
      · exact chunk_add (m (iLoc d)) (m (eLoc d)) g2 104 200 hL2 (k.val + 103) (by omega) (by omega) (by omega) 1 16 (by decide) _ _ (k0_off10_eq k)
      · exact chunk_add (m (iLoc d)) (m (eLoc d)) g2 104 200 hL2 (k.val + 103) (by omega) (by omega) (by omega) 2 32 (by decide) _ _ (k0_off11_eq k)
      · exact chunk_add (m (iLoc d)) (m (eLoc d)) g2 104 200 hL2 (k.val + 103) (by omega) (by omega) (by omega) 3 48 (by decide) _ _ (k0_off12_eq k)
      · exact chunk_add (m (iLoc d)) (m (eLoc d)) g2 104 200 hL2 (k.val + 103) (by omega) (by omega) (by omega) 4 64 (by decide) _ _ (k0_off13_eq k)
      · exact chunk_add (m (iLoc d)) (m (eLoc d)) g2 104 200 hL2 (k.val + 103) (by omega) (by omega) (by omega) 5 80 (by decide) _ _ (k0_off14_eq k)
      · exact chunk_add (m (iLoc d)) (m (eLoc d)) g2 104 200 hL2 (k.val + 103) (by omega) (by omega) (by omega) 6 96 (by decide) _ _ (k0_off15_eq k)
      · exact chunk_add (m (iLoc d)) (m (eLoc d)) g2 104 200 hL2 (k.val + 103) (by omega) (by omega) (by omega) 7 112 (by decide) _ _ (k0_off16_eq k)
    · iexact H1b
  · unfold inv2
    isplitr
    · ipureintro; rfl
    · iexact H1b
  iintro %a HI
  unfold inv2
  icases HI with ⟨%ha, H1b⟩
  subst ha
  rw [show Scf.trips k0_t2_loop.lb k0_t2_loop.ub k0_t2_loop.st = 96 from htr2]
  sl_exec
  sl_step
  -- the value left in the result: column c is the sum of the 200 rows' entries c
  have hinb8 : ∀ (i : Fin 8) a, (![16 * i.val] : Fin 1 → ℕ) a + S16.size a ≤ S128.size a := by
    intro i a; have := i.isLt
    match a with
    | ⟨0, _⟩ => show 16 * i.val + 16 ≤ 128; omega
  have hlist : tile_body_aux.sl.H2'_8 d m = View.tilePieces (Val := Elt F) (s := S128) (e := .f32) S16.size (fun i : Fin 8 => ![16 * i.val]) hinb8
      (fun i => shapeCast S16 (chunk (m (iLoc d)) (m (eLoc d)) i 199) shapeCasts_S16_S16) 8 le_rfl := rfl
  have hpay : ∀ c : Fin 128, tile_body_aux.sl.dma16 d L m f2 (ix1 c) = scOut (m (iLoc d)) (m (eLoc d)) (ix2 (0 : Fin 1) c) := by
    intro c
    show View.read (Elt F) (aV).view ((aV).view.writes (Elt F) f2 (tile_body_aux.sl.H2'_8 d m)) (ix1 c) = _
    rw [hlist]
    have hc := c.isLt
    rw [View.read_tilePieces (aV).view f2 S16.size _ hinb8 _ 8 le_rfl (ix1 c) ⟨c.val / 16, by omega⟩ (by show c.val / 16 < 8; omega) (ix1 (⟨c.val % 16, Nat.mod_lt _ (by decide)⟩ : Fin 16))
      (fun a => match a with | ⟨0, _⟩ => by show c.val = 16 * (c.val / 16) + c.val % 16; omega) 0
      (fun i' hi' => by
        have : i'.val ≠ c.val / 16 := fun h => hi' (Fin.ext h)
        show c.val < 16 * i'.val ∨ 16 * i'.val + 16 ≤ c.val
        omega)]
    rw [shapeCast_self]
    show accF _ _ (colOf ⟨c.val / 16, _⟩ (ix1 (⟨c.val % 16, _⟩ : Fin 16))) 199 = accF _ _ c 199
    congr 1
    exact Fin.ext (by show 16 * (c.val / 16) + c.val % 16 = c.val; omega)
  rw [out_value (tile_body_aux.sl.dma16 d L m f2) (m (pLoc d)) (scOut (m (iLoc d)) (m (eLoc d))) hpay]
  -- the split arrays, whole again
  ihave H0a := (Entails.of_eq (show ((sA).view.loc (V d (cV L) (jV L)) ↦[(sA).view.set]{fullShare} (m (iLoc d) : Buf (Elt F) ((sV).view.loc (V d (cV L) (jV L)))) : sProp 𝕄)
      = (sV).view.loc (V d (cV L) (jV L)) ↦[i0.set]{fullShare} (m (iLoc d) : Buf (Elt F) ((sV).view.loc (V d (cV L) (jV L)))) by rw [set_sA])) $$ H0a
  ihave H0b := (Entails.of_eq (show ((sB).view.loc (V d (cV L) (jV L)) ↦[(sB).view.set]{fullShare} (m (iLoc d) : Buf (Elt F) ((sV).view.loc (V d (cV L) (jV L)))) : sProp 𝕄)
      = (sV).view.loc (V d (cV L) (jV L)) ↦[i1.set]{fullShare} (m (iLoc d) : Buf (Elt F) ((sV).view.loc (V d (cV L) (jV L)))) by rw [set_sB])) $$ H0b
  ihave H0 := (pointsTo_union (ℓ := (sV).view.loc (V d (cV L) (jV L))) (q := fullShare) (f := (m (iLoc d) : Buf (Elt F) ((sV).view.loc (V d (cV L) (jV L))))) words_disj).2 $$ [H0a H0b]; · isplitl [H0a] <;> iassumption
  ihave H0 := (Entails.of_eq (show ((sV).view.loc (V d (cV L) (jV L)) ↦[i0.set ∪ i1.set]{fullShare} (m (iLoc d) : Buf (Elt F) ((sV).view.loc (V d (cV L) (jV L)))) : sProp 𝕄)
      = (sV).view.loc (V d (cV L) (jV L)) ↦{fullShare} (m (iLoc d) : Buf (Elt F) ((sV).view.loc (V d (cV L) (jV L)))) by rw [words_cover])) $$ H0
  ihave H1a := (Entails.of_eq (show ((rA).view.loc (V d (cV L) (jV L)) ↦[(rA).view.set]{fullShare} g1 : sProp 𝕄)
      = (rV).view.loc (V d (cV L) (jV L)) ↦[r0.set]{fullShare} g1 by rw [set_rA])) $$ H1a
  ihave H1b := (Entails.of_eq (show ((rB).view.loc (V d (cV L) (jV L)) ↦[(rB).view.set]{fullShare} g2 : sProp 𝕄)
      = (rV).view.loc (V d (cV L) (jV L)) ↦[r1.set]{fullShare} g2 by rw [set_rB])) $$ H1b
  ihave H1 := (pointsTo_join (ℓ := (rV).view.loc (V d (cV L) (jV L))) (q := fullShare) (f := g1) (g := g2) rows_disj) $$ [H1a H1b]; · isplitl [H1a] <;> iassumption
  ihave H1 := (Entails.of_eq (show ((rV).view.loc (V d (cV L) (jV L)) ↦[r0.set ∪ r1.set]{fullShare} (r1.set.piecewise g2 g1) : sProp 𝕄)
      = (rV).view.loc (V d (cV L) (jV L)) ↦{fullShare} (r1.set.piecewise g2 g1) by rw [rows_cover])) $$ H1
  ihave HeL := (pointsTo_split_subset (q := fullShare.left) (f := m (eLoc d)) (S := Finset.univ) (Finset.subset_univ (eAll).view.set)).2 $$ [HeLs HeLr]; · isplitl [HeLs] <;> iassumption
  ihave HeR := (pointsTo_split_subset (q := fullShare.right) (f := m (eLoc d)) (S := Finset.univ) (Finset.subset_univ (eAll).view.set)).2 $$ [HeRs HeRr]; · isplitl [HeRs] <;> iassumption
  ihave He := (pointsTo_share (PosShare.mem_left_op_right fullShare)).2 $$ [HeL HeR]; · isplitl [HeL] <;> iassumption
  isplitl [Hi' He Hp']
  · isplitl [Hi']; · iexact Hi'
    isplitl [He]; · iexact He
    iexact Hp'
  isplitl [H0 H1 H2' Hbufs]
  · isplitl [H0]; · iexists _; iexact H0
    isplitl [H1]; · iexists _; iexact H1
    isplitl [H2']; · iexists _; iexact H2'
    iexact Hbufs
  isplitl [Hs3 Hs4 HsA HsB Hsems]
  · isplitl [Hs3]; · iexact Hs3
    isplitl [Hs4]; · iexact Hs4
    isplitl [HsA]; · iexact HsA
    isplitl [HsB]; · iexact HsB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

section Body
variable [FloatOps F] (m : (ℓ : Loc nD τ sig) → Buf (Elt F) ℓ)

/-- The kernel's body on vector subcore `(L 0, L 1)` of device `d`, holding the index array, the table and the result
    whole: it gives them back, the result at `scOut` of the index words and the table. -/
theorem tile_body (d : Dev nD) (L : grid0.Coords) (hF : (K (F := F)).Facts) (hpre : PreOK m) (O : CellTallies nD τ sig (HIx 1)) (W : Waits sig (HIx 1)) (hO : ∀ g, O g none = 0) :
    iprop(levAts (K (F := F)).L (K (F := F)).lev ∗ emp
        ∗ (iPts m d ∗ ePts m d ∗ pPts d (m (pLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__embed_sum_body L (Memref.whole main_arg0_scv) (Memref.isWhole_whole _) (Memref.whole main_arg1_scv) (Memref.isWhole_whole _) (Memref.whole main_v0_scv) (Memref.isWhole_whole _)
            (Memref.whole cc0_scratch0) (Memref.isWhole_whole _) (Memref.whole cc0_scratch1) (Memref.isWhole_whole _) (Memref.whole cc0_scratch2) (Memref.isWhole_whole _)
            cc0_scratch3 cc0_scratch4 cc0_scoped0 cc0_scoped1)
          fun _ => iprop((iPts m d ∗ ePts m d ∗ pPts d (scOut (m (iLoc d)) (m (eLoc d))))
            ∗ scopedBufs (V d (cV L) (jV L)) ∗ scopedSems0 (V d (cV L) (jV L))
            ∗ ∃ W', ⌜∀ p ∈ W', p ∈ W ∨ p.2 = none⌝ ∗ owes (V d (cV L) (jV L)) O W') :=
  tile_body_aux d L m hF hpre O W hO

end Body

end Cert.KB

end
-- ==== Proof.B.ScLaunch.lean ====
/-
  The SparseCore call as the launch reads it. One task on one vector subcore: the call's operands — the index array,
  the table and the 1 × 128 result — go to the task whole and come back whole, the result holding the sum of the 200
  named rows (`scOut`). The task's obligation is the body's proof at the task's coordinates; the split of a call's
  operands among its tasks is the identity.
-/
import proofs.«204126_g14654428414512_cont_week2b_26_29_alg».proof.Proof.B.Common
import proofs.«204126_g14654428414512_cont_week2b_26_29_alg».proof.Proof.B.ScBody

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ) (ρ : Dev nD → PrngReg)

/-! ## What the handshakes carry

The one call takes the index array, the table and the 1 × 128 result whole; its one task takes the same and brings them
back, the result holding the sum of the named rows. -/

abbrev stP (d : Dev nD) : sProp 𝕄 := iprop(iPts m d ∗ ePts m d ∗ pPts d (m (pLoc d)))
abbrev dnP (d : Dev nD) : sProp 𝕄 := iprop(iPts m d ∗ ePts m d ∗ pPts d (scOut (m (iLoc d)) (m (eLoc d))))

def P : (K (F := F)).Pay (nD := nD) (Val := Elt F) (Name := ℕ) (U := UU) where
  st := fun q d _ => match q with | 0 => stP m d
  dn := fun q d _ => match q with | 0 => dnP m d
  go := fun q d _ _ => match q with | 0 => stP m d
  td := fun q d _ _ => match q with | 0 => dnP m d
  x := fun _ _ => iprop(emp)

instance P_storable : (P (F := F) m).IsStorable where
  st q d _ := match q with
    | 0 => (inferInstance : BI.Storable (upEmb : UEmb _ 𝕄) (stP m d))
  dn q d _ := match q with
    | 0 => (inferInstance : BI.Storable (upEmb : UEmb _ 𝕄) (dnP m d))
  go q d _ _ := match q with
    | 0 => (inferInstance : BI.Storable (upEmb : UEmb _ 𝕄) (stP m d))
  td q d _ _ := match q with
    | 0 => (inferInstance : BI.Storable (upEmb : UEmb _ 𝕄) (dnP m d))

/-! ## The task's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__embed_sum_body (coordsV c s)
          (Memref.whole main_arg0_scv) (Memref.isWhole_whole _) (Memref.whole main_arg1_scv) (Memref.isWhole_whole _) (Memref.whole main_v0_scv) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## One task: the split is the identity -/

theorem vecSplit : (K (F := F)).VecSplit' (P m) 0 := by
  intro d c
  show stP m d ⊢ |={Set.univ}=> iprop(
      (bigSep Finset.univ fun _ : Fin ((K (F := F)).nSub 0) => stP m d)
      ∗ ((bigSep Finset.univ fun _ : Fin ((K (F := F)).nSub 0) => dnP m d) -∗ dnP m d))
  rw [bigSep_univ_of_subsingleton (0 : Fin 1), bigSep_univ_of_subsingleton (0 : Fin 1)]
  iintro H; imodintro
  isplitl [H]; · iexact H
  iintro H; iexact H

end Cert.KB

end
-- ==== Proof.B.LaunchSetup.lean ====
/-
  What @main's proof starts from and what its one pipeline region is asked. The pipeline has no prefetched table; its
  staging cells are the launch's to fund, beside the handshakes' rounds; after its one SparseCore call the TensorCore
  owes nothing. The region is entered with four arrays: the row the SparseCore left, the weights, the bias, the result
  array as launched. `RegionStep Pout` states one run of the region: the three inputs come back unchanged and the
  result array at contents of which `Pout` holds.
-/
import proofs.«204126_g14654428414512_cont_week2b_26_29_alg».proof.Proof.B.Common
import proofs.«204126_g14654428414512_cont_week2b_26_29_alg».proof.Proof.B.ScLaunch

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ) (ρ : Dev nD → PrngReg)

/-! ## The pipeline as the region rule reads it -/

/-- No pipeline has a prefetched table. -/
abbrev adm : (p : Fin 1) → (pcfgs (F := F) p).Adm := fun p => (cfgs p).toPCfg_adm

abbrev cfgsP : Fin 1 → Pipeline.Cfg sig Λ₀ := Pipeline.pin (pcfgs (F := F)) adm

theorem cellOf_injP : Function.Injective (Pipeline.cellOf (nD := nD) (τ := τ) (cfgsP (F := F))) := launch1.cellOf_inj

/-- After its one call the TensorCore owes the SparseCores nothing more. -/
theorem Otc_one (d : Dev nD) : (K (F := F)).Otc d 1 = 0 := by
  unfold SparseCore.Cfg.Otc
  refine Finset.sum_eq_zero fun q _ => ?_
  rw [if_neg]; have := q.isLt; omega

/-- The four windowed arrays of core `d` at the contents the region is entered with: the row the SparseCore left, the
    weights, the bias and the result array as launched. -/
def Aent (d : Dev nD) : (w : Fin cfg1.W) → Buf (Elt F) ((cfg1.win w).arr.view.loc ((d : Dev nD).tc : Thread nD τ))
  | ⟨0, _⟩ => scOut (m (iLoc d)) (m (eLoc d))
  | ⟨1, _⟩ => m (wLoc d)
  | ⟨2, _⟩ => m (bLoc d)
  | ⟨3, _⟩ => m (oLoc d)

/-! ## The launch element -/

def u₀ : UU := (initOf (K (F := F)).hsCells (K (F := F)).hsToks,
  (initOf (Pipeline.cells (cfgsP (F := F)) cellOf_injP) (Pipeline.launchToks (cfgsP (F := F)) cellOf_injP), 1))

abbrev G0 (d : Dev nD) : sProp 𝕄 := iprop(Pipeline.cellsGhost (cfgsP (F := F)) EP 0 d ∗ Pipeline.toksInit (cfgsP (F := F)) EP 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G0 (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HR⟩
  ihave HR' := (own_pair_emb (embR : Emb (UP × Counters) 𝕄) _ (1 : Counters)) $$ HR
  icases HR' with ⟨HP, -⟩
  ihave HP2 := (Entails.of_eq (show (BI.own (((Emb.inl : Emb UP (UP × Counters)).trans embR) (initOf (Pipeline.cells (cfgsP (F := F)) cellOf_injP) (Pipeline.launchToks (cfgsP (F := F)) cellOf_injP))) : sProp 𝕄)
      = BI.own (EP (initOf (Pipeline.cells (cfgsP (F := F)) cellOf_injP) (Pipeline.launchToks (cfgsP (F := F)) cellOf_injP))) from rfl)) $$ HP
  imod (Pipeline.fund_ghost (cfgsP (F := F)) EP cellOf_injP) $$ HP2 with ⟨Hg, Ht⟩
  imodintro
  isplitl [HH]; · iexact HH
  isplitl [Hg Ht]
  · rw [bigSep_sep']
    isplitl [Hg]
    · iapply (Entails.of_eq (bigSep_congr fun d _ => (bigSep_univ_of_subsingleton (0 : Fin 1) (Φ := fun p => Pipeline.cellsGhost (cfgsP (F := F)) EP p d)))); iexact Hg
    · iapply (Entails.of_eq (bigSep_congr fun d _ => (bigSep_univ_of_subsingleton (0 : Fin 1) (Φ := fun p => Pipeline.toksInit (cfgsP (F := F)) EP p d)))); iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (eLoc d ↦{fullShare} W main_arg1) ∗ (wLoc d ↦{fullShare} W main_arg2)
      ∗ (bLoc d ↦{fullShare} W main_arg3) ∗ (pLoc d ↦{fullShare} W main_v0) ∗ oLoc d ↦{fullShare} W main_v1) := by
  unfold unscopedBufs
  rw [show (Finset.univ.filter fun b : Ref sig .tc => ¬ b.isScoped) = {main_arg0, main_arg1, main_arg2, main_arg3, main_v0, main_v1} by decide,
    SparseCore.bigSep_insert' (by decide), SparseCore.bigSep_insert' (by decide), SparseCore.bigSep_insert' (by decide),
    SparseCore.bigSep_insert' (by decide), SparseCore.bigSep_insert' (by decide), bigSep_singleton]

theorem st0_eq (d : Dev nD) : (bigSep Finset.univ fun c : Fin ((K (F := F)).nCore 0) => (P m).st 0 d c) = stP m d :=
  bigSep_univ_of_subsingleton (0 : Fin 1)
theorem dn0_eq (d : Dev nD) : (bigSep Finset.univ fun c : Fin ((K (F := F)).nCore 0) => (P m).dn 0 d c) = dnP m d :=
  bigSep_univ_of_subsingleton (0 : Fin 1)

/-- The region's four arrays, whole at the full share. -/
abbrev arrPts (d : Dev nD) (f : (w : Fin cfg1.W) → Buf (Elt F) ((cfg1.win w).arr.view.loc ((d : Dev nD).tc : Thread nD τ))) : sProp 𝕄 :=
  iprop((pLoc d ↦{fullShare} f 0) ∗ (wLoc d ↦{fullShare} f 1) ∗ (bLoc d ↦{fullShare} f 2) ∗ (oLoc d ↦{fullShare} f 3))

omit [FloatOps F] in
theorem bigSep_fin0 (Φ : Fin 0 → sProp 𝕄) : bigSep Finset.univ Φ = (BI.emp : sProp 𝕄) :=
  bigSep_univ_eq_bigSepL [] (by decide) (by decide) Φ

/-- What the TensorCore thread holds of the region's concern at its entry: the four arrays at their entry contents, and
    that it owes nothing. -/
abbrev preR (d : Dev nD) : sProp 𝕄 := iprop(arrPts d (Aent m d) ∗ ∃ W, owes ((d : Dev nD).tc : Thread nD τ) (0 : CellTallies nD τ sig (HIx 1)) W)

/-- One step of @main: the TensorCore pipeline's region, from the four arrays at their entry contents, the thread owing
    nothing, the level facts and the pipeline's ghost state, to the continuation from the three input arrays unchanged
    and the result array at contents of which `Pout` holds. -/
def RegionStep (Pout : (d : Dev nD) → Buf (Elt F) (oLoc d) → Prop) : Prop :=
  ∀ (d : Dev nD) (k : PUnit → Prog (TpuEff nD τ sig (Elt F) (ΛP (F := F)) .tc) PUnit) (Q : PUnit → sProp 𝕄),
    iprop((iprop(boundary (SparseCore.T d) ∗ (pLoc d ↦{fullShare} Aent m d 0) ∗ (wLoc d ↦{fullShare} m (wLoc d)) ∗ (bLoc d ↦{fullShare} m (bLoc d))
              ∗ (∃ f, ⌜Pout d f⌝ ∗ oLoc d ↦{fullShare} f) ∗ ∃ W, owes (SparseCore.T d) (0 : CellTallies nD τ sig (HIx 1)) W)
            -∗ wp frame (wpE (D (F := F)) 𝒱 (SparseCore.T d) none) Set.univ (k ⟨⟩) Q)
        ∗ boundary (SparseCore.T d) ∗ preR m d ∗ levAts (K (F := F)).L (K (F := F)).lev ∗ G0 (F := F) d)
      ⊢ wp frame (wpE (D (F := F)) 𝒱 (SparseCore.T d) none) Set.univ (.op (.customCall (Pipeline.entry 0) ()) k) Q

end Cert.KB

end
-- ==== Proof.B.Main.lean ====
/-
  @main on the TensorCore and the whole program's run: the SparseCore call hands the index array, the table and the
  result row over and gets them back; the pipeline's region then runs from the row that came back; at the end every
  argument array holds what it held at launch and the result array satisfies `Pout`. With one call every recorded
  wait sits below level 8, so the thread state after the region is again the handshake state the launch expects.
-/
import proofs.«204126_g14654428414512_cont_week2b_26_29_alg».proof.Proof.B.Common
import proofs.«204126_g14654428414512_cont_week2b_26_29_alg».proof.Proof.B.LaunchSetup

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ) (ρ : Dev nD → PrngReg)
variable (Pout : (d : Dev nD) → Buf (Elt F) (oLoc d) → Prop)

/-! ## @main on the TensorCore: the SparseCore call, then the pipeline's region -/

/-- What @main ends holding: every argument array as launched, the row the SparseCore left, the result array at
    contents of which `Pout` holds. -/
abbrev FIN (d : Dev nD) : sProp 𝕄 :=
  iprop((iLoc d ↦{fullShare} m (iLoc d)) ∗ (eLoc d ↦{fullShare} m (eLoc d)) ∗ (wLoc d ↦{fullShare} m (wLoc d)) ∗ (bLoc d ↦{fullShare} m (bLoc d))
    ∗ ∃ f, ⌜Pout d f⌝ ∗ oLoc d ↦{fullShare} f)

/-- With one call, every recorded pair sits below level 8. -/
theorem wbelow_any (d : Dev nD) (W : Waits sig (HIx 1)) : (K (F := F)).WBelow (SparseCore.T d) W (8 * 1) := fun p _ => by
  rcases p with ⟨s, _ | q⟩
  · show (K (F := F)).lev _ none ≤ _; rw [SparseCore.Cfg.lev_none]; omega
  · have h := (K (F := F)).lev_some_le (SparseCore.T d, s) q
    have hq : q.val = 0 := by have := q.isLt; omega
    exact h.trans (by omega)

/-- What the region leaves the thread. -/
abbrev postS (d : Dev nD) : sProp 𝕄 :=
  iprop(boundary (SparseCore.T d) ∗ (pLoc d ↦{fullShare} Aent m d 0) ∗ (wLoc d ↦{fullShare} m (wLoc d)) ∗ (bLoc d ↦{fullShare} m (bLoc d))
    ∗ (∃ f, ⌜Pout d f⌝ ∗ oLoc d ↦{fullShare} f) ∗ ∃ W, owes (SparseCore.T d) (0 : CellTallies nD τ sig (HIx 1)) W)

/-- The region in the program's own spelling: the call of the pipeline's entry through the SparseCore program's labels. -/
theorem region_lifted (hstep : RegionStep m Pout) (d : Dev nD) (Q : PUnit → sProp 𝕄) :
    iprop((iprop(boundary (SparseCore.T d) ∗ (pLoc d ↦{fullShare} Aent m d 0) ∗ (wLoc d ↦{fullShare} m (wLoc d)) ∗ (bLoc d ↦{fullShare} m (bLoc d))
              ∗ (∃ f, ⌜Pout d f⌝ ∗ oLoc d ↦{fullShare} f) ∗ ∃ W, owes (SparseCore.T d) (0 : CellTallies nD τ sig (HIx 1)) W) -∗ Q ⟨⟩)
        ∗ boundary (SparseCore.T d) ∗ preR m d ∗ levAts (K (F := F)).L (K (F := F)).lev ∗ G0 (F := F) d)
      ⊢ wp frame (wpE ((K (F := F)).defs (D (F := F))) 𝒱 (SparseCore.T d) none) Set.univ
          (Prog.lift (TpuEff.customCall (SparseCore.inner (Pipeline.entry (0 : Fin 1))) ())) Q := by
  have h1 := (K (F := F)).wp_liftProg (D (F := F)) 𝒱 (SparseCore.T d) (Set.univ : Set ℕ) none
    (Prog.op (TpuEff.customCall (Pipeline.entry (0 : Fin 1)) ()) fun x => Prog.ret x) Q
  have h2 := hstep d (fun x => Prog.ret x) Q
  have h3 : iprop((postS m Pout d -∗ Q ⟨⟩)
        ∗ boundary (SparseCore.T d) ∗ preR m d ∗ levAts (K (F := F)).L (K (F := F)).lev ∗ G0 (F := F) d)
      ⊢ iprop((postS m Pout d -∗ wp frame (wpE (D (F := F)) 𝒱 (SparseCore.T d) none) Set.univ (Prog.ret PUnit.unit) Q)
        ∗ boundary (SparseCore.T d) ∗ preR m d ∗ levAts (K (F := F)).L (K (F := F)).lev ∗ G0 (F := F) d) := by
    iintro ⟨Hk, Hrest⟩
    isplitl [Hk]
    · iintro H
      rw [wp_ret]; imodintro
      iapply Hk; iexact H
    iexact Hrest
  exact h3.trans (h2.trans h1)

/-- The TensorCore's handshake state but what it owes. -/
def tcTail (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) :
    (K (F := F)).tcSt EH d n = iprop((∃ W, ⌜(K (F := F)).WBelow (SparseCore.T d) W (8 * n)⌝ ∗ owes (SparseCore.T d) ((K (F := F)).Otc d n) W) ∗ tcTail (F := F) d n) := rfl

set_option maxRecDepth 16384 in
theorem hmain (hstep : RegionStep m Pout) (κ : GSem nD τ sig → ℕ) (d : Dev nD) :
    iprop((K (F := F)).ctx EH (P m) κ ∗ (K (F := F)).tcSt EH d 0 ∗ (K (F := F)).tcRes m ρ d ∗ G0 (F := F) d)
      ⊢ wp frame (wpE ((K (F := F)).defs (D (F := F))) 𝒱 (SparseCore.T d) none) Set.univ (main d)
          fun _ => iprop((K (F := F)).tcSt EH d 1 ∗ FIN m Pout d) := by
  unfold SparseCore.Cfg.tcRes
  rw [unscopedBufs_eq]
  simp only [main, wp_bind, wp_pure]
  iintro ⟨#Hctx, Hst, ⟨Hb, ⟨Hi, He, Hw, Hbi, Hp, Ho⟩, -, -⟩, Hg⟩
  iapply ((K (F := F)).wp_run (D (F := F)) 𝒱 (EH := EH) (P := P m) κ d 0) $$ [Hst Hi He Hp Hb Hw Hbi Ho Hg]
  isplitr; · iexact Hctx
  isplitl [Hst]; · iexact Hst
  isplitl [Hi He Hp]
  · rw [st0_eq]
    isplitl [Hi]; · iexact Hi
    isplitl [He]; · iexact He
    iexact Hp
  iintro ⟨Hst, Hdn⟩
  ihave Hdn' := (Entails.of_eq (dn0_eq m d)) $$ Hdn
  icases Hdn' with ⟨Hi, He, Hp⟩
  ihave Hlev := (SparseCore.Cfg.ctx_levAts κ) $$ Hctx
  ihave Hst' := (Entails.of_eq (tcSt_eq (F := F) d ((0 : Fin 1).val + 1))) $$ Hst
  icases Hst' with ⟨⟨%W, -, HO⟩, Hrest⟩
  ihave HO' := (Entails.of_eq (congrArg (fun O => (owes (SparseCore.T d) O W : sProp 𝕄)) (show (K (F := F)).Otc d ((0 : Fin 1).val + 1) = 0 from Otc_one (F := F) d))) $$ HO
  iapply (region_lifted m Pout hstep d _) $$ [Hb Hw Hbi Ho Hg Hp HO' Hlev Hi He Hrest]
  isplitl [Hi He Hrest]
  · iintro ⟨Hb, Hp, Hw, Hbi, Ho, %W', HO⟩
    imodintro
    isplitl [Hrest HO]
    · iapply (Entails.of_eq (tcSt_eq (F := F) d 1).symm)
      isplitl [HO]
      · iexists W'; isplitr; · ipureintro; exact wbelow_any d W'
        iapply (Entails.of_eq (congrArg (fun O => (owes (SparseCore.T d) O W' : sProp 𝕄)) (Otc_one (F := F) d).symm)); iexact HO
      iexact Hrest
    isplitl [Hi]; · iexact Hi
    isplitl [He]; · iexact He
    isplitl [Hw]; · iexact Hw
    isplitl [Hbi]; · iexact Hbi
    iexact Ho
  isplitl [Hb]; · iexact Hb
  isplitl [Hp Hw Hbi Ho HO']
  · isplitl [Hp Hw Hbi Ho]
    · isplitl [Hp]; · iexact Hp
      isplitl [Hw]; · iexact Hw
      isplitl [Hbi]; · iexact Hbi
      iexact Ho
    iexists W; iexact HO'
  isplitl [Hlev]; · iexact Hlev
  iexact Hg

/-! ## The final memory, and the run -/

/-- What a final state's memory holds on device `d`. -/
def fq (d : Dev nD) (s' : Phys nD τ sig (Elt F)) : Prop :=
  s'.mem.mem (iLoc d) = m (iLoc d) ∧ s'.mem.mem (eLoc d) = m (eLoc d) ∧ s'.mem.mem (wLoc d) = m (wLoc d) ∧ s'.mem.mem (bLoc d) = m (bLoc d)
    ∧ Pout d (s'.mem.mem (oLoc d))

set_option maxRecDepth 16384 in
theorem hfin (d : Dev nD) (s' : Phys nD τ sig (Elt F)) : iprop(FIN m Pout d ∗ SI s') ⊢ (⌜fq m Pout d s'⌝ : sProp 𝕄) := by
  iintro ⟨⟨Hi, He, Hw, Hb, %f, %hf, Ho⟩, HSI⟩
  icombine HSI Hi gives %hi
  icombine HSI He gives %he
  icombine HSI Hw gives %hw
  icombine HSI Hb gives %hb
  icombine HSI Ho gives %ho
  ipureintro
  refine ⟨Buf.eq_of_forall_mem_univ hi, Buf.eq_of_forall_mem_univ he, Buf.eq_of_forall_mem_univ hw, Buf.eq_of_forall_mem_univ hb, ?_⟩
  rw [show s'.mem.mem (oLoc d) = f from Buf.eq_of_forall_mem_univ ho]; exact hf

def QC : PUnit × MemSt nD τ sig (Elt F) → Prop := fun r => ∀ c : Dev nD,
  r.2.mem (iLoc c) = m (iLoc c) ∧ r.2.mem (eLoc c) = m (eLoc c) ∧ r.2.mem (wLoc c) = m (wLoc c) ∧ r.2.mem (bLoc c) = m (bLoc c) ∧ Pout c (r.2.mem (oLoc c))

/-- The program's run: from any memory whose index words name rows of the table, every weakly fair execution of all the
    threads terminates, the four argument arrays end as launched and `Pout` holds of the result array. -/
theorem run_main [∀ e, Nonempty (Elt F e)] (hstep : RegionStep m Pout) (hpre : PreOK m) :
    θ_run (Cert.Kernel.defs (F := F)) (Cert.Kernel.threads (F := F)) ⟨m, fun _ => 0, ρ⟩ (QC m Pout) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun d => G0 (F := F) d) (FIN m Pout) (u₀ (F := F)) (sep_elim_left.trans (hu₀ m)) (hmain m ρ Pout hstep) (fq m Pout) (hfin m Pout) (QC m Pout) (fun _ h => h)

end Cert.KB

end
-- ==== Proof.B.TcData.lean ====
import proofs.«204126_g14654428414512_cont_week2b_26_29_alg».proof.Proof.B.Common

noncomputable section

namespace Cert.TcSideB

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F] {Ix : Type} [DecidableEq Ix] {Name : Type} [DecidableEq Name] {U : Type} [URA U] {Lvl : Type}

/-- The kernel body's result as one function of what the three input staging buffers hold: the 1 × 128 row
    multiplied into the 16384 × 128 block, contracting the 128 axis, onto a zero accumulator, plus the 16384
    bias entries read as a 1 × 16384 row. -/
def bodyOut (X0 : Vec F S1x128 .f32) (X1 : Vec F S16384x128 .f32) (X2 : Vec F S16384 .f32) : Vec F S1x16384 .f32 :=
  k1_pay1 X0 X1 X2

theorem bodyOut_eq (X0 : Vec F S1x128 .f32) (X1 : Vec F S16384x128 .f32) (X2 : Vec F S16384 .f32) :
    bodyOut X0 X1 X2 = addf (matmul dot_S1x128_S16384x128_S1x16384_1_1_0_0_n_n none (shapeCast S1x128 X0 shapeCasts_S1x128_S1x128) X1
        (constant S1x16384 .f32 0x00000000#32)) (shapeCast S1x16384 X2 shapeCasts_S16384_S1x16384) := rfl

/-- The filler word for the part of a staging buffer past the array's end. -/
def zw : Elt F .f32 := Scalar.ofBits .f32 0#32

/-- The row operand's block at point `t` (always the whole 1 × 128 array), -/
def pblk (c : Dev nD) (p : Buf (Elt F) ((cfg1.win 0).arr.view.loc (c.tc : Thread nD τ))) (t : Fin cfg1.N) : S1x128.Idx → Elt F .f32 :=
  win1_0.fill (grid1.coords t) (fun _ => zw) ((win1_0.blk t).view.read (Elt F) p)
/-- the weights' block at point `t` (rows 16384 t …, those inside the array, zero past its end), -/
def wblk (c : Dev nD) (W : Buf (Elt F) ((cfg1.win 1).arr.view.loc (c.tc : Thread nD τ))) (t : Fin cfg1.N) : S16384x128.Idx → Elt F .f32 :=
  win1_1.fill (grid1.coords t) (fun _ => zw) ((win1_1.blk t).view.read (Elt F) W)
/-- the bias's block at point `t` likewise, -/
def bblk (c : Dev nD) (b : Buf (Elt F) ((cfg1.win 2).arr.view.loc (c.tc : Thread nD τ))) (t : Fin cfg1.N) : S16384.Idx → Elt F .f32 :=
  win1_2.fill (grid1.coords t) (fun _ => zw) ((win1_2.blk t).view.read (Elt F) b)
/-- and what the body makes of the three. -/
def oblk (c : Dev nD) (p : Buf (Elt F) ((cfg1.win 0).arr.view.loc (c.tc : Thread nD τ))) (W : Buf (Elt F) ((cfg1.win 1).arr.view.loc (c.tc : Thread nD τ)))
    (b : Buf (Elt F) ((cfg1.win 2).arr.view.loc (c.tc : Thread nD τ))) (t : Fin cfg1.N) : S1x16384.Idx → Elt F .f32 :=
  bodyOut (pblk c p t) (wblk c W t) (bblk c b t)

/-- The pipeline's proof data on core `c`: the four windowed arrays at their region-entry contents `A`; after the
    body the input staging buffers at their blocks and the result's at the body's result of them; no invariant;
    full shares; the core owing the same tallies `O` before every point. -/
def dats (c : Dev nD) (A : (w : Fin cfg1.W) → Buf (Elt F) ((cfg1.win w).arr.view.loc (c.tc : Thread nD τ))) (O : CellTallies nD τ sig Ix) :
    Dat τ (Elt F) Ix Name U Lvl cfg1 c where
  A := A
  after w t := match w with
    | ⟨0, _⟩ => pblk c (A 0) t
    | ⟨1, _⟩ => wblk c (A 1) t
    | ⟨2, _⟩ => bblk c (A 2) t
    | ⟨3, _⟩ => oblk c (A 0) (A 1) (A 2) t
  Φ _ := iprop(emp)
  q _ := fullShare
  owed _ := O

theorem dats_A (c : Dev nD) (A) (O : CellTallies nD τ sig Ix) : (dats (F := F) (Name := Name) (U := U) (Lvl := Lvl) c A O).A = A := rfl
theorem dats_Φ (c : Dev nD) (A) (O : CellTallies nD τ sig Ix) : (dats (F := F) (Name := Name) (U := U) (Lvl := Lvl) c A O).Φ = fun _ => iprop(emp) := rfl
theorem dats_q (c : Dev nD) (A) (O : CellTallies nD τ sig Ix) : (dats (F := F) (Name := Name) (U := U) (Lvl := Lvl) c A O).q = fun _ => fullShare := rfl
theorem dats_owed (c : Dev nD) (A) (O : CellTallies nD τ sig Ix) : (dats (F := F) (Name := Name) (U := U) (Lvl := Lvl) c A O).owed = fun _ => O := rfl

/-- What the float instance must grant for the result's write-back at a clipped point to be determined by the arrays:
    the entries of the body's result inside the array do not depend on what the weights' and the bias's staging
    buffers hold past the arrays' end. -/
def RowLocal (F : FTy → Type) [FloatOps F] : Prop :=
  ∀ (i : grid1.Coords) (X0 : Vec F S1x128 .f32) (X1 X1' : Vec F S16384x128 .f32) (X2 X2' : Vec F S16384 .f32),
    win1_1.cut i X1 = win1_1.cut i X1' → win1_2.cut i X2 = win1_2.cut i X2' →
    win1_3.cut i (bodyOut X0 X1 X2) = win1_3.cut i (bodyOut X0 X1' X2')

/-- The result array after the last write-back, as one function of the three inputs' contents and its own entry
    contents: the seven blocks of the body's results written in point order, each cut at the array's end. -/
def tcOut (c : Dev nD) (p : Buf (Elt F) ((cfg1.win 0).arr.view.loc (c.tc : Thread nD τ))) (W : Buf (Elt F) ((cfg1.win 1).arr.view.loc (c.tc : Thread nD τ)))
    (b : Buf (Elt F) ((cfg1.win 2).arr.view.loc (c.tc : Thread nD τ))) (o₀ : Buf (Elt F) ((cfg1.win 3).arr.view.loc (c.tc : Thread nD τ))) :
    Buf (Elt F) ((cfg1.win 3).arr.view.loc (c.tc : Thread nD τ)) :=
  (win1_3.blk t1_6).view.write (Elt F)
   ((win1_3.blk t1_5).view.write (Elt F)
    ((win1_3.blk t1_4).view.write (Elt F)
     ((win1_3.blk t1_3).view.write (Elt F)
      ((win1_3.blk t1_2).view.write (Elt F)
       ((win1_3.blk t1_1).view.write (Elt F)
        ((win1_3.blk t1_0).view.write (Elt F) o₀
          (win1_3.cut (grid1.coords t1_0) (oblk c p W b t1_0)) Finset.univ)
         (win1_3.cut (grid1.coords t1_1) (oblk c p W b t1_1)) Finset.univ)
        (win1_3.cut (grid1.coords t1_2) (oblk c p W b t1_2)) Finset.univ)
       (win1_3.cut (grid1.coords t1_3) (oblk c p W b t1_3)) Finset.univ)
      (win1_3.cut (grid1.coords t1_4) (oblk c p W b t1_4)) Finset.univ)
     (win1_3.cut (grid1.coords t1_5) (oblk c p W b t1_5)) Finset.univ)
    (win1_3.cut (grid1.coords t1_6) (oblk c p W b t1_6)) Finset.univ

end Cert.TcSideB

end
-- ==== Proof.B.TcBody.lean ====
import proofs.«204126_g14654428414512_cont_week2b_26_29_alg».proof.Proof.B.TcData

noncomputable section

namespace Cert.TcSideB

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F] {Ix : Type} [DecidableEq Ix] {Name : Type} [DecidableEq Name] {U : Type} [URA U] {Lvl : Type}

local notation "𝕄" => MT nD τ sig Ix (Elt F) Name U Lvl

theorem hz2 : (![0, 0] : Fin 2 → Nat) = fun _ => 0 := funext fun a => by fin_cases a <;> rfl
theorem hz1 : (![0] : Fin 1 → Nat) = fun _ => 0 := funext fun a => by fin_cases a; rfl

set_option hygiene false in
/-- One case of `sound_body`: the four staging memrefs are the whole buffers named. -/
local macro "tc_body_case" b0:ident b1:ident b2:ident b3:ident : tactic => `(tactic| (
    have hr0 : (Memref.whole $b0 : Memref sig .tc _ _ _).view.readAt (Elt F) (Rect.unit (s := S1x128) ![0, 0] S1x128.size
        inb_S1x128_S1x128_0_0).toLoadRect = id := funext (Memref.readAt_unit_zero (Elt F) $b0 hz2 _)
    have hr1 : (Memref.whole $b1 : Memref sig .tc _ _ _).view.readAt (Elt F) (Rect.unit (s := S16384x128) ![0, 0] S16384x128.size
        inb_S16384x128_S16384x128_0_0).toLoadRect = id := funext (Memref.readAt_unit_zero (Elt F) $b1 hz2 _)
    have hr2 : (Memref.whole $b2 : Memref sig .tc _ _ _).view.readAt (Elt F) (Rect.unit (s := S16384) ![0] S16384.size
        inb_S16384_S16384_0).toLoadRect = id := funext (Memref.readAt_unit_zero (Elt F) $b2 hz1 _)
    have hw3 : ∀ f w, (((Memref.whole $b3).access (Rect.unit (s := S1x16384) ![0, 0] S1x16384.size inb_S1x16384_S1x16384_0_0)) :
        View sig .tc _ _ _).write (Elt F) f w Finset.univ = w := Memref.write_access_unit_zero_univ (Elt F) $b3 hz2 _
    simp only [owns_whole_eq, cc1__matvec_body_eq_skeleton]; unfold cc1__matvec_body_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists bodyOut f0 f1 f2; isplitr; · ipureintro; rw [hf0, hf1, hf2]
      iexact H3))

set_option maxHeartbeats 1600000 in
/-- The kernel body on staging buffers `s0` of the row's window (its one), `s1` of the weights', `s2` of the bias's and
    `s3` of the result's: the three whole loads, the product and the sum, the dead load of the result's buffer, the
    whole store — the result's buffer ends holding `bodyOut` of what the other three hold, those unchanged. -/
theorem sound_body [Preorder Lvl] (c : Dev nD) (E : Set Name) (i : grid1.Coords) (s0 : Fin 1) (s1 s2 s3 : Fin 2)
    (X0 : S1x128.Idx → Elt F .f32) (X1 : S16384x128.Idx → Elt F .f32) (X2 : S16384.Idx → Elt F .f32) (X3 : S1x16384.Idx → Elt F .f32)
    (K : PUnit → sProp 𝕄) :
    iprop((owns (c.tc : Thread nD τ) (stage1_0 s0) fullShare X0 ∗ owns (c.tc : Thread nD τ) (stage1_1 s1) fullShare X1
            ∗ owns (c.tc : Thread nD τ) (stage1_2 s2) fullShare X2 ∗ owns (c.tc : Thread nD τ) (stage1_3 s3) fullShare X3)
          ∗ (iprop(owns (c.tc : Thread nD τ) (stage1_0 s0) fullShare X0 ∗ owns (c.tc : Thread nD τ) (stage1_1 s1) fullShare X1
                  ∗ owns (c.tc : Thread nD τ) (stage1_2 s2) fullShare X2 ∗ owns (c.tc : Thread nD τ) (stage1_3 s3) fullShare (bodyOut X0 X1 X2)) -∗ K ⟨⟩))
      ⊢ wp frame (wpE (defs₀ (F := F)) Variants.none c none) E
          (cc1__matvec_body i (stage1_0 s0) (hstage1_0 s0) (stage1_1 s1) (hstage1_1 s1) (stage1_2 s2) (hstage1_2 s2) (stage1_3 s3) (hstage1_3 s3)) K := by
  fin_cases s0 <;> fin_cases s1 <;> fin_cases s2 <;> fin_cases s3
  · tc_body_case cc1_stg0_0 cc1_stg1_0 cc1_stg2_0 cc1_stg3_0
  · tc_body_case cc1_stg0_0 cc1_stg1_0 cc1_stg2_0 cc1_stg3_1
  · tc_body_case cc1_stg0_0 cc1_stg1_0 cc1_stg2_1 cc1_stg3_0
  · tc_body_case cc1_stg0_0 cc1_stg1_0 cc1_stg2_1 cc1_stg3_1
  · tc_body_case cc1_stg0_0 cc1_stg1_1 cc1_stg2_0 cc1_stg3_0
  · tc_body_case cc1_stg0_0 cc1_stg1_1 cc1_stg2_0 cc1_stg3_1
  · tc_body_case cc1_stg0_0 cc1_stg1_1 cc1_stg2_1 cc1_stg3_0
  · tc_body_case cc1_stg0_0 cc1_stg1_1 cc1_stg2_1 cc1_stg3_1

end Cert.TcSideB

end
-- ==== Proof.B.TcOblig.lean ====
import proofs.«204126_g14654428414512_cont_week2b_26_29_alg».proof.Proof.B.TcBody

noncomputable section

namespace Cert.TcSideB

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F] {Ix : Type} [DecidableEq Ix] {Name : Type} [DecidableEq Name] {U : Type} [URA U] {Lvl : Type}

local notation "𝕄" => MT nD τ sig Ix (Elt F) Name U Lvl

variable (c : Dev nD) (A : (w : Fin cfg1.W) → Buf (Elt F) ((cfg1.win w).arr.view.loc (c.tc : Thread nD τ))) (O : CellTallies nD τ sig Ix)

/-- The result's window is never fetched; the inputs' never written back. -/
theorem fetch_3 (t : Fin cfg1.N) : (cfg1.win 3).fetch t = false := rfl
theorem flush_0 (t : Fin cfg1.N) : (cfg1.win 0).flush t = false := rfl

/-- What the body finds: the weights' and the bias's buffers just fetched — the block on the part inside the array, `d`
    elsewhere —, -/
theorem before_1 (t : Fin cfg1.N) (d) :
    (dats (Name := Name) (U := U) (Lvl := Lvl) c A O).before (1 : Fin 4) t d = win1_1.fill (grid1.coords t) d ((win1_1.blk t).view.read (Elt F) (A 1)) := by
  unfold Dat.before; rw [if_pos (fetch1_1 t)]; rfl
theorem before_2 (t : Fin cfg1.N) (d) :
    (dats (Name := Name) (U := U) (Lvl := Lvl) c A O).before (2 : Fin 4) t d = win1_2.fill (grid1.coords t) d ((win1_2.blk t).view.read (Elt F) (A 2)) := by
  unfold Dat.before; rw [if_pos (fetch1_2 t)]; rfl
/-- the result's buffer at contents nothing names, -/
theorem before_3 (t : Fin cfg1.N) (d) : (dats (Name := Name) (U := U) (Lvl := Lvl) c A O).before (3 : Fin 4) t d = d := by
  unfold Dat.before
  rw [if_neg (by rw [fetch_3 t]; exact Bool.false_ne_true)]
  by_cases h0 : t.val = 0
  · rw [if_pos h0]
  · rw [if_neg h0]; exact if_pos (flush1_3 _)

/-- The row's block is the whole array at every point: one block index, no cut. -/
theorem pblk_congr (p : Buf (Elt F) ((cfg1.win 0).arr.view.loc (c.tc : Thread nD τ))) (t t' : Fin cfg1.N) : pblk c p t = pblk c p t' := rfl

/-- and the row's buffer at the whole row: fetched at the first point, kept since. -/
theorem before_0 (t : Fin cfg1.N) (d) : (dats (Name := Name) (U := U) (Lvl := Lvl) c A O).before (0 : Fin 4) t d = pblk c (A 0) t := by
  by_cases h0 : t.val = 0
  · unfold Dat.before
    rw [if_pos ((fetch1_0 t).mpr (by rw [h0]))]
    exact (dats (Name := Name) (U := U) (Lvl := Lvl) c A O).fetched_of_clip_none (0 : Fin 4) t (fun _ => rfl) d _
  · have hf : (cfg1.win 0).fetch t = false := by
      have h := fetch1_0 t
      have hlt : t.val < 7 := t.isLt
      cases hb : (cfg1.win 0).fetch t
      · rfl
      · exfalso; have := h.mp hb; omega
    rw [(dats (Name := Name) (U := U) (Lvl := Lvl) c A O).before_of_pos (0 : Fin 4) t h0 hf d, flush_0, if_neg Bool.false_ne_true]
    unfold Dat.left Dat.kept
    dsimp only [dats]
    funext j
    have hm : (win1 0).moved (grid1.coords ⟨t.val - 1, Nat.lt_of_le_of_lt (Nat.sub_le _ _) t.isLt⟩) j = true :=
      ((win1 0).moved_iff _ j).mpr fun a => (j a).isLt
    unfold Window.fill; rw [dif_pos hm]
    exact congrFun (pblk_congr c (A 0) _ t) j

/-- The library's body obligation, from `sound_body` at the point's staging buffers: the row's buffer arrives holding
    the row, the weights' and the bias's their blocks filled out with anything past the arrays' end, the result's
    anything; the inputs' leave as they came and the result's holding the body's result of them, which on the part
    inside the array is the result of the zero-filled blocks when that part does not depend on the filling. -/
theorem body_obligation [Preorder Lvl] (hloc : RowLocal F) (ι : Ix) :
    BodyObligationLoose (dats (Name := Name) (U := U) (Lvl := Lvl) c A O) (defs₀ (F := F)) Variants.none ι Set.univ := fun t => by
  rw [bigSep_W1, bigSep_W1]
  simp only
  rw [show (dats (Name := Name) (U := U) (Lvl := Lvl) c A O).Φ t.succ = (dats (Name := Name) (U := U) (Lvl := Lvl) c A O).Φ t.castSucc from rfl,
    show (dats (Name := Name) (U := U) (Lvl := Lvl) c A O).owesAt ι t.succ = (dats (Name := Name) (U := U) (Lvl := Lvl) c A O).owesAt ι t.castSucc from rfl]
  iintro ⟨HΦ, Ho, ⟨%d0, H0⟩, ⟨%d1, H1⟩, ⟨%d2, H2⟩, ⟨%d3, H3⟩⟩
  rw [before_0 c A O t d0, before_1 c A O t d1, before_2 c A O t d2, before_3 c A O t d3]
  iapply (sound_body (F := F) c Set.univ (grid1.coords t) (cfg1.slots t 0) (cfg1.slots t 1) (cfg1.slots t 2) (cfg1.slots t 3)
    (pblk c (A 0) t) (win1_1.fill (grid1.coords t) d1 ((win1_1.blk t).view.read (Elt F) (A 1)))
    (win1_2.fill (grid1.coords t) d2 ((win1_2.blk t).view.read (Elt F) (A 2))) d3 _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  have h1 : (win1 1).cut (grid1.coords t) (wblk c (A 1) t) = (win1_1.blk t).view.read (Elt F) (A 1) := win1_1.cut_fill _ _ _
  have h2 : (win1 2).cut (grid1.coords t) (bblk c (A 2) t) = (win1_2.blk t).view.read (Elt F) (A 2) := win1_2.cut_fill _ _ _
  have h3 : (win1 3).cut (grid1.coords t) (bodyOut (pblk c (A 0) t) (win1_1.fill (grid1.coords t) d1 ((win1_1.blk t).view.read (Elt F) (A 1)))
        (win1_2.fill (grid1.coords t) d2 ((win1_2.blk t).view.read (Elt F) (A 2))))
      = (win1 3).cut (grid1.coords t) (oblk c (A 0) (A 1) (A 2) t) :=
    hloc (grid1.coords t) _ _ _ _ _ ((win1_1.cut_fill _ _ _).trans h1.symm) ((win1_2.cut_fill _ _ _).trans h2.symm)
  dsimp only [dats]
  isplitl [H0]
  · iexact H0
  isplitl [H1]
  · iexists d1; rw [h1]; iexact H1
  isplitl [H2]
  · iexists d2; rw [h2]; iexact H2
  · iexists bodyOut (pblk c (A 0) t) (win1_1.fill (grid1.coords t) d1 ((win1_1.blk t).view.read (Elt F) (A 1)))
        (win1_2.fill (grid1.coords t) d2 ((win1_2.blk t).view.read (Elt F) (A 2)))
    rw [(win1 3).fill_congr_cut _ h3]; iexact H3

/-- The mask that forgets the result's window and no other. -/
def fgt3 : Fin cfg1.W → Bool
  | 0 => false | 1 => false | 2 => false | 3 => true

theorem fgt3_0 : fgt3 0 = false := rfl
theorem fgt3_1 : fgt3 1 = false := rfl
theorem fgt3_2 : fgt3 2 = false := rfl
theorem fgt3_3 : fgt3 3 = true := rfl

/-- The body obligation with the result's window forgotten — its buffer handed over and taken back at contents nothing
    names —, for any float instance: the inputs' buffers as in `body_obligation`. -/
theorem body_obligation_forget [Preorder Lvl] (ι : Ix) :
    BodyObligationLoose (dats (Name := Name) (U := U) (Lvl := Lvl) c A O) (defs₀ (F := F)) Variants.none ι Set.univ fgt3 := fun t => by
  rw [bigSep_W1, bigSep_W1]
  simp only [fgt3_0, fgt3_1, fgt3_2, fgt3_3]
  rw [show (dats (Name := Name) (U := U) (Lvl := Lvl) c A O).Φ t.succ = (dats (Name := Name) (U := U) (Lvl := Lvl) c A O).Φ t.castSucc from rfl,
    show (dats (Name := Name) (U := U) (Lvl := Lvl) c A O).owesAt ι t.succ = (dats (Name := Name) (U := U) (Lvl := Lvl) c A O).owesAt ι t.castSucc from rfl]
  iintro ⟨HΦ, Ho, ⟨%d0, H0⟩, ⟨%d1, H1⟩, ⟨%d2, H2⟩, ⟨%d3, H3⟩⟩
  rw [before_0 c A O t d0, before_1 c A O t d1, before_2 c A O t d2]
  iapply (sound_body (F := F) c Set.univ (grid1.coords t) (cfg1.slots t 0) (cfg1.slots t 1) (cfg1.slots t 2) (cfg1.slots t 3)
    (pblk c (A 0) t) (win1_1.fill (grid1.coords t) d1 ((win1_1.blk t).view.read (Elt F) (A 1)))
    (win1_2.fill (grid1.coords t) d2 ((win1_2.blk t).view.read (Elt F) (A 2))) d3 _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  have h1 : (win1 1).cut (grid1.coords t) (wblk c (A 1) t) = (win1_1.blk t).view.read (Elt F) (A 1) := win1_1.cut_fill _ _ _
  have h2 : (win1 2).cut (grid1.coords t) (bblk c (A 2) t) = (win1_2.blk t).view.read (Elt F) (A 2) := win1_2.cut_fill _ _ _
  dsimp only [dats]
  isplitl [H0]
  · iexact H0
  isplitl [H1]
  · iexists d1; rw [h1]; iexact H1
  isplitl [H2]
  · iexists d2; rw [h2]; iexact H2
  · iexists bodyOut (pblk c (A 0) t) (win1_1.fill (grid1.coords t) d1 ((win1_1.blk t).view.read (Elt F) (A 1)))
        (win1_2.fill (grid1.coords t) d2 ((win1_2.blk t).view.read (Elt F) (A 2)))
    iexact H3

end Cert.TcSideB

end
-- ==== Proof.B.RegionForget.lean ====
/-
  The TensorCore pipeline's region with the result window forgotten, for any float instance.

  The pipeline's exact proof data is read relationally, saying nothing of what the body leaves in the result window's
  staging buffer. An input array is never written back, so after the last point the three input arrays hold their
  entry contents; of the result array only that it holds some contents. That is one step of the entry function from
  the four arrays at their entry contents to the three inputs unchanged and the result array at any contents.
-/
import proofs.«204126_g14654428414512_cont_week2b_26_29_alg».proof.Proof.B.LaunchSetup
import proofs.«204126_g14654428414512_cont_week2b_26_29_alg».proof.Proof.B.TcOblig

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (BodyObligationLoose)

variable {F : FTy → Type}

local notation "𝕄" => MT nD τ sig (HIx 1) (Elt F) ℕ UU ℕ

variable [FloatOps F] (m : (ℓ : Loc nD τ sig) → Buf (Elt F) ℓ)

/-- The exact proof data of the pipeline on each core: the arrays at their region-entry contents, nothing owed. -/
def pdatsF : (p : Fin 1) → (c : Dev nD) → Pipeline.Dat τ (Elt F) (HIx 1) ℕ UU ℕ (cfgsP (F := F) p) c :=
  fun _ c => Cert.TcSideB.dats c (Aent m c) 0

/-- The same read relationally, the result window forgotten. -/
def rdatsF : (p : Fin 1) → (c : Dev nD) → Pipeline.RDat τ (Elt F) (HIx 1) ℕ UU ℕ (cfgsP (F := F) p) c :=
  fun p c => (pdatsF m p c).toRForget Cert.TcSideB.fgt3

theorem shareF (d : Dev nD) (w : Fin cfg1.W) : (rdatsF m 0 d).share w = fullShare :=
  (rdatsF m 0 d).share_full (fun _ => rfl) w

/-- The four arrays as the relational data holds them are the four buffers whole at the full share. -/
theorem arraysF_eq (d : Dev nD) (f : (w : Fin cfg1.W) → Buf (Elt F) ((cfg1.win w).arr.view.loc ((d : Dev nD).tc : Thread nD τ))) :
    ((rdatsF m 0 d).arrays f : sProp 𝕄) = arrPts d f := by
  rw [Pipeline.RDat.arrays_eq (pcfgs (F := F)) adm (rdatsF m) 0 d launch1.arr_whole (shareF m d) f, bigSep_W1]

/-- After the last point: the three input arrays at their entry contents, the result array at some contents. -/
theorem arraysAtF (d : Dev nD) :
    ((rdatsF m 0 d).arraysAt cfg1.N : sProp 𝕄)
      ⊢ iprop((pLoc d ↦{fullShare} Aent m d 0) ∗ (wLoc d ↦{fullShare} m (wLoc d)) ∗ (bLoc d ↦{fullShare} m (bLoc d))
          ∗ ∃ f, oLoc d ↦{fullShare} f) := by
  classical
  unfold Pipeline.RDat.arraysAt
  iintro Ha
  ihave Ha' := (BI.bigSep_exists_pi Finset.univ (fun (w : Fin cfg1.W) G => iprop(⌜(rdatsF m 0 d).ArrAt w cfg1.N G⌝
      ∗ (cfg1.win w).arr.view.loc ((d : Dev nD).tc : Thread nD τ) ↦[(cfg1.win w).arr.view.set]{(rdatsF m 0 d).share w} G))) $$ Ha
  icases Ha' with ⟨%Fs, Ha⟩
  ihave Ha2 := (BI.bigSep_pure_sep Finset.univ (fun (w : Fin cfg1.W) => (rdatsF m 0 d).ArrAt w cfg1.N (Fs w))
      (fun (w : Fin cfg1.W) => ((cfg1.win w).arr.view.loc ((d : Dev nD).tc : Thread nD τ) ↦[(cfg1.win w).arr.view.set]{(rdatsF m 0 d).share w} Fs w : sProp 𝕄))) $$ Ha
  icases Ha2 with ⟨%hFs, Ha⟩
  have e0 : Fs 0 = Aent m d 0 := by
    have h := hFs 0 (Finset.mem_univ _); rw [(rdatsF m 0 d).ArrAt_in 0 rfl] at h; exact h
  have e1 : Fs 1 = m (wLoc d) := by
    have h := hFs 1 (Finset.mem_univ _); rw [(rdatsF m 0 d).ArrAt_in 1 rfl] at h; exact h
  have e2 : Fs 2 = m (bLoc d) := by
    have h := hFs 2 (Finset.mem_univ _); rw [(rdatsF m 0 d).ArrAt_in 2 rfl] at h; exact h
  have hEq : (bigSep Finset.univ fun (w : Fin cfg1.W) => ((cfg1.win w).arr.view.loc ((d : Dev nD).tc : Thread nD τ) ↦[(cfg1.win w).arr.view.set]{(rdatsF m 0 d).share w} Fs w : sProp 𝕄))
      = arrPts d Fs := arraysF_eq m d Fs
  ihave Hb := (Entails.of_eq hEq) $$ Ha
  icases Hb with ⟨H0, H1, H2, H3⟩
  rw [← e0, ← e1, ← e2]
  isplitl [H0]; · iexact H0
  isplitl [H1]; · iexact H1
  isplitl [H2]; · iexact H2
  iexists (Fs 3); iexact H3

/-- What the TensorCore thread holds when the region is left: the inputs unchanged, the result array at some contents,
    nothing owed. -/
abbrev postF (d : Dev nD) : sProp 𝕄 :=
  iprop((pLoc d ↦{fullShare} Aent m d 0) ∗ (wLoc d ↦{fullShare} m (wLoc d)) ∗ (bLoc d ↦{fullShare} m (bLoc d))
    ∗ (∃ f, oLoc d ↦{fullShare} f) ∗ ∃ W, owes ((d : Dev nD).tc : Thread nD τ) (0 : CellTallies nD τ sig (HIx 1)) W)

/-- The pipeline's region over the relational data: no semaphore of the kernel's own, no invariant, nothing owed. -/
def RF :
    Pipeline.RDat.RegionSeg (pcfgs (F := F)) adm (rdatsF m) (none : HIx 1) defs₀ 𝒱₀ (K (F := F)).L (K (F := F)).lev (0 : Fin 1) where
  win := launch1.win.to₀
  block_pos := launch1.block_pos
  stage_whole := launch1.stage_whole
  K := PEmpty
  osem := fun k => k.elim
  ho := Pipeline.OwnSemFacts.none _
  hbody := fun c => (Cert.TcSideB.body_obligation_forget (F := F) (Ix := HIx 1) (Name := ℕ) (U := UU) (Lvl := ℕ) c (Aent m c) 0 (none : HIx 1)).toRForget
  hwaits := Pipeline.RDat.hwaits_of_owed_zero (pcs := pcfgs (F := F)) (a := adm) (rdats := rdatsF m) (ι := (none : HIx 1)) (L := (K (F := F)).L) (lv := (K (F := F)).lev) 0 (fun _ _ => rfl)
  pre := preR m
  post := postF m
  X := fun _ => iprop(emp)
  Y := fun _ => iprop(emp)
  Z := fun _ => iprop(emp)
  hentry := fun c => by
    have hpre : (Pipeline.prefHeld (Ix := HIx 1) (Name := ℕ) (U := UU) (Lvl := ℕ) (Val := Elt F) (pcfgs (F := F) 0).pre c (fun _ => fullShare) (adm 0).1 : sProp 𝕄) = BI.emp :=
      bigSep_fin0 _
    rw [arraysF_eq m c, hpre]
    iintro ⟨⟨Ha, %W, HO⟩, -, -⟩
    imodintro
    isplitl [Ha]; · iexact Ha
    isplitr; · iempintro
    isplitl [HO]
    · iexists W; isplitr; · ipureintro; exact fun _ _ => Or.inl trivial
      iexact HO
    isplitr <;> iempintro
  hin := fun c => by iintro -; iempintro
  hout := fun c => by
    rw [scopedRest1_eq, Pipeline.ownSems0_none]
    iintro -; isplitr; · iempintro
    isplitr <;> iempintro
  hexit := fun c => by
    iintro ⟨Ha, ⟨%W, -, HO⟩, -, -⟩
    imodintro
    ihave Hb := (arraysAtF m c) $$ Ha
    icases Hb with ⟨H0, H1, H2, H3⟩
    isplitl [H0]; · iexact H0
    isplitl [H1]; · iexact H1
    isplitl [H2]; · iexact H2
    isplitl [H3]; · iexact H3
    iexists W; iexact HO

/-- One step of the entry function: the pipeline's region from the four arrays at their entry contents to the three
    inputs unchanged and the result array at any contents. -/
theorem regionStep_forget : RegionStep m (fun _ _ => True) := by
  intro d k Q
  have hpost : (RF m).post d = postF m d := rfl
  have hpre : (RF m).pre d = preR m d := rfl
  refine BIBase.Entails.trans ?_ (Pipeline.RDat.RegionSeg.wp (pcfgs (F := F)) adm (rdatsF m) (none : HIx 1) cellOf_injP EP defs₀ 𝒱₀
    (K (F := F)).L (K (F := F)).lev (RF m) d none (fun _ hu => nomatch hu) k Q)
  rw [hpost, hpre]
  iintro ⟨Hk, Hb, Hpre, Hlev, Hg, Ht⟩
  isplitl [Hk]
  · iintro ⟨Hb, H0, H1, H2, ⟨%f, H3⟩, HO⟩
    iapply Hk
    isplitl [Hb]; · iexact Hb
    isplitl [H0]; · iexact H0
    isplitl [H1]; · iexact H1
    isplitl [H2]; · iexact H2
    isplitl [H3]
    · iexists f; isplitr; · ipureintro; trivial
      iexact H3
    iexact HO
  isplitl [Hb]; · iexact Hb
  isplitl [Hpre]; · iexact Hpre
  isplitl [Hlev]; · iexact Hlev
  isplitl [Hg]; · iexact Hg
  iexact Ht

end Cert.KB

end
-- ==== Proof.Claims.lean ====
/-
  The five claims. The two kernel programs are one text read at two instances; both run through one SparseCore launch
  followed by one TensorCore pipeline region. At Ideal the result array is named — the seven clipped block writes of
  the matrix–vector product of the summed rows — and is the specification's function G of the arguments, which is
  also what the reference's run computes. At the bit level only the frame is claimed, and the region is entered with
  its result window's contents forgotten.
-/
import proofs.«204126_g14654428414512_cont_week2b_26_29_alg».proof.Defs
import proofs.«204126_g14654428414512_cont_week2b_26_29_alg».proof.Proof.Main
import proofs.«204126_g14654428414512_cont_week2b_26_29_alg».proof.Proof.RegionIdeal
import proofs.«204126_g14654428414512_cont_week2b_26_29_alg».proof.Proof.TcValue
import proofs.«204126_g14654428414512_cont_week2b_26_29_alg».proof.Proof.RefRun
import proofs.«204126_g14654428414512_cont_week2b_26_29_alg».proof.Proof.B.Main
import proofs.«204126_g14654428414512_cont_week2b_26_29_alg».proof.Proof.B.RegionForget
import proofs.«204126_g14654428414512_cont_week2b_26_29_alg».proof.Proof.Gen.Kernel
import proofs.«204126_g14654428414512_cont_week2b_26_29_alg».proof.Proof.Gen.KernelIdeal
import proofs.«204126_g14654428414512_cont_week2b_26_29_alg».proof.Proof.Gen.ReferenceIdeal
import proofs.«204126_g14654428414512_cont_week2b_26_29_alg».proof.Proof.Gen.Pre_input_domain

noncomputable section

namespace Cert.Proof.Claims

open Idealize.ShloMosaic Idealize.SL.Sem

/-- The precondition gives what the proofs ask of the launch memory, at either instance. -/
theorem ok_KI (m : (ℓ : Loc Cert.KernelIdeal.nD Cert.KernelIdeal.τ Cert.KernelIdeal.sig) → Buf (Elt Ideal) ℓ) (h : Cert.Pre_KernelIdeal m) :
    Cert.KI.PreOK (F := Ideal) m := fun d j => Cert.RefSide.idx_lt_of_pre _ _ _ _ (h d) j
theorem ok_KB (m : (ℓ : Loc Cert.Kernel.nD Cert.Kernel.τ Cert.Kernel.sig) → Buf (Elt Bits) ℓ) (h : Cert.Pre_Kernel m) :
    Cert.KB.PreOK (F := Bits) m := fun d j => Cert.RefSide.idx_lt_of_pre _ _ _ _ (h d) j

/-- The idealized kernel's run with its result named: the specification's G of the four arguments. -/
theorem run_KI (m : (ℓ : Loc Cert.KernelIdeal.nD Cert.KernelIdeal.τ Cert.KernelIdeal.sig) → Buf (Elt Ideal) ℓ) (ρ : Dev Cert.KernelIdeal.nD → PrngReg) (h : Cert.Pre_KernelIdeal m) :
    θ_run (Cert.KernelIdeal.defs (F := Ideal)) (Cert.KernelIdeal.threads (F := Ideal)) ⟨m, fun _ => 0, ρ⟩ (fun r => ∀ c : Dev Cert.KernelIdeal.nD,
      r.2.mem ((c.tc : Thread Cert.KernelIdeal.nD Cert.KernelIdeal.τ).loc Cert.KernelIdeal.main_v1)
          = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
              (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) := by
  refine (θ_run Cert.KernelIdeal.defs _ _).mono (fun r hr c => ?_)
    (Cert.KI.run_main (F := Ideal) m ρ _ (Cert.KI.regionStep_of_loc m Cert.TcSide.rowLocal_ideal) (ok_KI m h))
  obtain ⟨h0, h1, h2, h3, ho⟩ := hr c
  refine ⟨?_, h0, h1, h2, h3⟩
  refine ho.trans ?_
  rw [Cert.TcSide.tcOut_ideal]
  show Cert.Spec.matVec (Cert.KI.scOut (F := Ideal) _ _) _ _ = _
  rw [Cert.KI.scOut_ideal]
  rfl

theorem frame_K : Cert.frame_Kernel := fun m ρ hpre =>
  (θ_run Cert.Kernel.defs _ _).mono (fun _ h c => ⟨(h c).1, (h c).2.1, (h c).2.2.1, (h c).2.2.2.1⟩)
    (Cert.KB.run_main (F := Bits) m ρ (fun _ _ => True) (Cert.KB.regionStep_forget m) (ok_KB m hpre))

theorem frame_KI : Cert.frame_KernelIdeal := fun m ρ hpre =>
  (θ_run Cert.KernelIdeal.defs _ _).mono (fun _ h c => (h c).2) (run_KI m ρ hpre)

theorem frame_RI : Cert.frame_ReferenceIdeal := fun m ρ hpre =>
  (θ_run Cert.ReferenceIdeal.defs _ _).mono (fun _ h c => (h c).2)
    (Cert.RefSide.run m ρ (fun c j => Cert.RefSide.idx_lt_of_pre _ _ _ _ (hpre c) j))

theorem algebraic : Cert.algebraic_KernelIdeal_ReferenceIdeal := by
  intro m ρ m' ρ' hpre hagree
  refine ⟨_, run_KI m ρ hpre, ?_⟩
  have hidx : ∀ (c : Dev Cert.ReferenceIdeal.nD) j, (m' ((c.tc : Thread Cert.ReferenceIdeal.nD Cert.ReferenceIdeal.τ).loc Cert.ReferenceIdeal.main_arg0) j).toNat < 100000 := by
    intro c j; rw [(hagree c).1]; exact ok_KI m hpre c j
  refine (θ_run Cert.ReferenceIdeal.defs _ _).mono (fun r hr c => ?_) (Cert.RefSide.run m' ρ' hidx)
  obtain ⟨hv, h0, h1, h2, h3⟩ := hr c
  refine ⟨?_, h0, h1, h2, h3⟩
  rw [hv, (hagree c).1, (hagree c).2.1, (hagree c).2.2.1, (hagree c).2.2.2]

end Cert.Proof.Claims

end
-- ==== Proof.lean ====
/-
  The certificate's claim: the kernel (an embedding lookup whose 200 gathered rows a SparseCore vector subcore adds up,
  followed by a TensorCore matrix–vector product with the weights plus the bias, computed block by block over clipped
  edge blocks) against its reference (take, sum over the rows, product with the transposed weights, plus the bias).

  Both sides are the one function `Cert.Spec.G` of the four argument arrays on the extended reals:
  entry v of the result is  Σ_k (Σ_j emb[idx_j, k]) · W[v, k] + b[v].  The kernel adds the rows in index order from
  row 0, the reference from 0: the same sum, addition of extended reals being commutative and associative; nothing
  needs the inputs finite. The integer precondition (every index in [0, 99999]) makes every gathered row a row of the
  table, which the kernel's indexed copies need in order to run at all and which turns the reference's wrap-and-mask
  into the plain row.

  The frames: every thread of the SparseCore launch terminates (one call, one task), the TensorCore then runs the
  pipeline's region; the argument arrays are only read. `preserves` is trivial: the idealization rewrote nothing.
-/
import proofs.«204126_g14654428414512_cont_week2b_26_29_alg».proof.Defs
import proofs.«204126_g14654428414512_cont_week2b_26_29_alg».proof.Proof.Claims
import proofs.«204126_g14654428414512_cont_week2b_26_29_alg».proof.Proof.Gen.Kernel
import proofs.«204126_g14654428414512_cont_week2b_26_29_alg».proof.Proof.Gen.KernelIdeal
import proofs.«204126_g14654428414512_cont_week2b_26_29_alg».proof.Proof.Gen.ReferenceIdeal
import proofs.«204126_g14654428414512_cont_week2b_26_29_alg».proof.Proof.Gen.Pre_input_domain

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Claims.frame_K, Claims.frame_KI, Claims.frame_RI, trivial, Claims.algebraic⟩

end Cert.Proof

end
